-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_v98 : IVec S_ 1) (main_v101 : IVec S10 1) (main_c_39 : IVec S_ 1) : IVec S_ 1 :=
  let main_v102 : IVec S_ 1 := (fun x v => Host.reduce IntOp.andi x v reducesTo_S10_S_d0 h_S_) main_v101 main_c_39
  let main_v103 : IVec S_ 1 := andi main_v98 main_v102
  main_v103

def fn_part5 {F : FTy → Type} [FloatOps F] (main_arg20 : FVec F S32 .f32) (main_arg21 : FVec F S32x10 .f32) (main_arg22 : FVec F S10 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x10 .f32 := Host.absf main_arg21
  let main_cst_36 : FVec F S_ .f32 := constant S_ .f32 0x7F800000#32
  let main_v95 : FVec F S32x10 .f32 := broadcastInDim S32x10 ![] bcast_S_S32x10 main_cst_36
  let main_v96 : IVec S32x10 1 := cmpf .olt main_v94 main_v95
  let main_c_37 : IVec S_ 1 := constantI S_ 1 1#1
  let main_v97 : IVec S_ 1 := (fun x v => Host.reduce IntOp.andi x v reducesTo_S32x10_S_d0_1 h_S_) main_v96 main_c_37
  let main_v98 : IVec S_ 1 := andi main_v93 main_v97
  let main_v99 : FVec F S10 .f32 := Host.absf main_arg22
  let main_cst_38 : FVec F S_ .f32 := constant S_ .f32 0x7F800000#32
  let main_v100 : FVec F S10 .f32 := broadcastInDim S10 ![] bcast_S_S10 main_cst_38
  let main_v101 : IVec S10 1 := cmpf .olt main_v99 main_v100
  let main_c_39 : IVec S_ 1 := constantI S_ 1 1#1
  fn_part6 (F := F) main_v98 main_v101 main_c_39

def fn_part4 {F : FTy → Type} [FloatOps F] (main_arg16 : FVec F S32x32 .f32) (main_arg17 : FVec F S32 .f32) (main_arg18 : FVec F S32x32 .f32) (main_arg19 : FVec F S32x32 .f32) (main_arg20 : FVec F S32 .f32) (main_arg21 : FVec F S32x10 .f32) (main_arg22 : FVec F S10 .f32) (main_v63 : IVec S_ 1) (main_v67 : IVec S_ 1) : IVec S_ 1 :=
  let main_v68 : IVec S_ 1 := andi main_v63 main_v67
  let main_v69 : FVec F S32x32 .f32 := Host.absf main_arg16
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x32 .f32 := Host.absf main_arg18
  let main_cst_30 : FVec F S_ .f32 := constant S_ .f32 0x7F800000#32
  let main_v80 : FVec F S32x32 .f32 := broadcastInDim S32x32 ![] bcast_S_S32x32 main_cst_30
  let main_v81 : IVec S32x32 1 := cmpf .olt main_v79 main_v80
  let main_c_31 : IVec S_ 1 := constantI S_ 1 1#1
  let main_v82 : IVec S_ 1 := (fun x v => Host.reduce IntOp.andi x v reducesTo_S32x32_S_d0_1 h_S_) main_v81 main_c_31
  let main_v83 : IVec S_ 1 := andi main_v78 main_v82
  let main_v84 : FVec F S32x32 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S32x32 .f32) (main_arg14 : FVec F S32 .f32) (main_arg15 : FVec F S32x32 .f32) (main_arg16 : FVec F S32x32 .f32) (main_arg17 : FVec F S32 .f32) (main_arg18 : FVec F S32x32 .f32) (main_arg19 : FVec F S32x32 .f32) (main_arg20 : FVec F S32 .f32) (main_arg21 : FVec F S32x10 .f32) (main_arg22 : FVec F S10 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg15
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S32x32 .f32) (main_arg10 : FVec F S32x32 .f32) (main_arg11 : FVec F S32 .f32) (main_arg12 : FVec F S32x32 .f32) (main_arg13 : FVec F S32x32 .f32) (main_arg14 : FVec F S32 .f32) (main_arg15 : FVec F S32x32 .f32) (main_arg16 : FVec F S32x32 .f32) (main_arg17 : FVec F S32 .f32) (main_arg18 : FVec F S32x32 .f32) (main_arg19 : FVec F S32x32 .f32) (main_arg20 : FVec F S32 .f32) (main_arg21 : FVec F S32x10 .f32) (main_arg22 : FVec F S10 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32x32 .f32 := Host.absf main_arg10
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg12
  let main_cst_18 : FVec F S_ .f32 := constant S_ .f32 0x7F800000#32
  let main_v50 : FVec F S32x32 .f32 := broadcastInDim S32x32 ![] bcast_S_S32x32 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S128x32 .f32) (main_arg7 : FVec F S32x32 .f32) (main_arg8 : FVec F S32 .f32) (main_arg9 : FVec F S32x32 .f32) (main_arg10 : FVec F S32x32 .f32) (main_arg11 : FVec F S32 .f32) (main_arg12 : FVec F S32x32 .f32) (main_arg13 : FVec F S32x32 .f32) (main_arg14 : FVec F S32 .f32) (main_arg15 : FVec F S32x32 .f32) (main_arg16 : FVec F S32x32 .f32) (main_arg17 : FVec F S32 .f32) (main_arg18 : FVec F S32x32 .f32) (main_arg19 : FVec F S32x32 .f32) (main_arg20 : FVec F S32 .f32) (main_arg21 : FVec F S32x10 .f32) (main_arg22 : FVec F S10 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S128x32 .f32 := Host.absf main_arg6
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x128 .f32) (main_arg1 : IVec S2x1600000 32) (main_arg2 : IVec S100000 32) (main_arg3 : FVec F S1600000 .f32) (main_arg4 : FVec F S128x32 .f32) (main_arg5 : FVec F S32 .f32) (main_arg6 : FVec F S128x32 .f32) (main_arg7 : FVec F S32x32 .f32) (main_arg8 : FVec F S32 .f32) (main_arg9 : FVec F S32x32 .f32) (main_arg10 : FVec F S32x32 .f32) (main_arg11 : FVec F S32 .f32) (main_arg12 : FVec F S32x32 .f32) (main_arg13 : FVec F S32x32 .f32) (main_arg14 : FVec F S32 .f32) (main_arg15 : FVec F S32x32 .f32) (main_arg16 : FVec F S32x32 .f32) (main_arg17 : FVec F S32 .f32) (main_arg18 : FVec F S32x32 .f32) (main_arg19 : FVec F S32x32 .f32) (main_arg20 : FVec F S32 .f32) (main_arg21 : FVec F S32x10 .f32) (main_arg22 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x32 .f32 := Host.absf main_arg4
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x32 : Shape := ⟨2, ![1, 32]⟩
abbrev S100000x32 : Shape := ⟨2, ![100000, 32]⟩
abbrev S10000x128 : Shape := ⟨2, ![10000, 128]⟩
abbrev S10000x32 : Shape := ⟨2, ![10000, 32]⟩
abbrev S1600000x32 : Shape := ⟨2, ![1600000, 32]⟩
abbrev S1000x32 : Shape := ⟨2, ![1000, 32]⟩
abbrev S100000x1 : Shape := ⟨2, ![100000, 1]⟩
abbrev S1x10 : Shape := ⟨2, ![1, 10]⟩
abbrev S1000x10 : Shape := ⟨2, ![1000, 10]⟩
abbrev S1000 : Shape := ⟨1, ![1000]⟩
abbrev S1000x1 : Shape := ⟨2, ![1000, 1]⟩

abbrev nBuf : Space → Nat
  | .hbm => 124
  | .vmem => 51
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S1600000, .f32⟩
  | .hbm, ⟨4, _⟩ => ⟨S128x32, .f32⟩
  | .hbm, ⟨5, _⟩ => ⟨S32, .f32⟩
  | .hbm, ⟨6, _⟩ => ⟨S128x32, .f32⟩
  | .hbm, ⟨7, _⟩ => ⟨S32x32, .f32⟩
  | .hbm, ⟨8, _⟩ => ⟨S32, .f32⟩
  | .hbm, ⟨9, _⟩ => ⟨S32x32, .f32⟩
  | .hbm, ⟨10, _⟩ => ⟨S32x32, .f32⟩
  | .hbm, ⟨11, _⟩ => ⟨S32, .f32⟩
  | .hbm, ⟨12, _⟩ => ⟨S32x32, .f32⟩
  | .hbm, ⟨13, _⟩ => ⟨S32x32, .f32⟩
  | .hbm, ⟨14, _⟩ => ⟨S32, .f32⟩
  | .hbm, ⟨15, _⟩ => ⟨S32x32, .f32⟩
  | .hbm, ⟨16, _⟩ => ⟨S32x32, .f32⟩
  | .hbm, ⟨17, _⟩ => ⟨S32, .f32⟩
  | .hbm, ⟨18, _⟩ => ⟨S32x32, .f32⟩
  | .hbm, ⟨19, _⟩ => ⟨S32x32, .f32⟩
  | .hbm, ⟨20, _⟩ => ⟨S32, .f32⟩
  | .hbm, ⟨21, _⟩ => ⟨S32x10, .f32⟩
  | .hbm, ⟨22, _⟩ => ⟨S10, .f32⟩
  | .hbm, ⟨23, _⟩ => ⟨S1x1600000, .i32⟩
  | .hbm, ⟨24, _⟩ => ⟨S1600000, .i32⟩
  | .hbm, ⟨25, _⟩ => ⟨S1x1600000, .i32⟩
  | .hbm, ⟨26, _⟩ => ⟨S1600000, .i32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x1, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x32, .f32⟩
  | .hbm, ⟨44, _⟩ => ⟨S100000x32, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x32, .f32⟩
  | .hbm, ⟨54, _⟩ => ⟨S1600000x1, .f32⟩
  | .hbm, ⟨55, _⟩ => ⟨S1600000x32, .f32⟩
  | .hbm, ⟨56, _⟩ => ⟨S1600000x32, .f32⟩
  | .hbm, ⟨57, _⟩ => ⟨S_, .f32⟩
  | .hbm, ⟨58, _⟩ => ⟨S100000x32, .f32⟩
  | .hbm, ⟨59, _⟩ => ⟨S1600000x1, .i32⟩
  | .hbm, ⟨60, _⟩ => ⟨S100000x32, .f32⟩
  | .hbm, ⟨61, _⟩ => ⟨S1x32, .f32⟩
  | .hbm, ⟨62, _⟩ => ⟨S100000x32, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x32, .f32⟩
  | .hbm, ⟨72, _⟩ => ⟨S1600000x1, .f32⟩
  | .hbm, ⟨73, _⟩ => ⟨S1600000x32, .f32⟩
  | .hbm, ⟨74, _⟩ => ⟨S1600000x32, .f32⟩
  | .hbm, ⟨75, _⟩ => ⟨S_, .f32⟩
  | .hbm, ⟨76, _⟩ => ⟨S100000x32, .f32⟩
  | .hbm, ⟨77, _⟩ => ⟨S1600000x1, .i32⟩
  | .hbm, ⟨78, _⟩ => ⟨S100000x32, .f32⟩
  | .hbm, ⟨79, _⟩ => ⟨S1x32, .f32⟩
  | .hbm, ⟨80, _⟩ => ⟨S100000x32, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x32, .f32⟩
  | .hbm, ⟨90, _⟩ => ⟨S1600000x1, .f32⟩
  | .hbm, ⟨91, _⟩ => ⟨S1600000x32, .f32⟩
  | .hbm, ⟨92, _⟩ => ⟨S1600000x32, .f32⟩
  | .hbm, ⟨93, _⟩ => ⟨S_, .f32⟩
  | .hbm, ⟨94, _⟩ => ⟨S100000x32, .f32⟩
  | .hbm, ⟨95, _⟩ => ⟨S1600000x1, .i32⟩
  | .hbm, ⟨96, _⟩ => ⟨S100000x32, .f32⟩
  | .hbm, ⟨97, _⟩ => ⟨S1x32, .f32⟩
  | .hbm, ⟨98, _⟩ => ⟨S100000x32, .f32⟩
  | .hbm, ⟨99, _⟩ => ⟨S_, .i32⟩
  | .hbm, ⟨100, _⟩ => ⟨S1600000, .i32⟩
  | .hbm, ⟨101, _⟩ => ⟨S1600000, .i1⟩
  | .hbm, ⟨102, _⟩ => ⟨S_, .i32⟩
  | .hbm, ⟨103, _⟩ => ⟨S1600000, .i32⟩
  | .hbm, ⟨104, _⟩ => ⟨S1600000, .i32⟩
  | .hbm, ⟨105, _⟩ => ⟨S1600000, .i32⟩
  | .hbm, ⟨106, _⟩ => ⟨S1600000x1, .i32⟩
  | .hbm, ⟨107, _⟩ => ⟨S1600000x32, .f32⟩
  | .hbm, ⟨108, _⟩ => ⟨S1600000x1, .f32⟩
  | .hbm, ⟨109, _⟩ => ⟨S1600000x32, .f32⟩
  | .hbm, ⟨110, _⟩ => ⟨S1600000x32, .f32⟩
  | .hbm, ⟨111, _⟩ => ⟨S_, .f32⟩
  | .hbm, ⟨112, _⟩ => ⟨S100000x32, .f32⟩
  | .hbm, ⟨113, _⟩ => ⟨S1600000x1, .i32⟩
  | .hbm, ⟨114, _⟩ => ⟨S100000x32, .f32⟩
  | .hbm, ⟨115, _⟩ => ⟨S1x32, .f32⟩
  | .hbm, ⟨116, _⟩ => ⟨S100000x32, .f32⟩
  | .hbm, ⟨117, _⟩ => ⟨S_, .f32⟩
  | .hbm, ⟨118, _⟩ => ⟨S1000x32, .f32⟩
  | .hbm, ⟨119, _⟩ => ⟨S100000x1, .i32⟩
  | .hbm, ⟨120, _⟩ => ⟨S1000x32, .f32⟩
  | .hbm, ⟨121, _⟩ => ⟨S1x32, .f32⟩
  | .hbm, ⟨122, _⟩ => ⟨S1x10, .f32⟩
  | .hbm, ⟨123, _⟩ => ⟨S1000x10, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x32, .f32⟩
  | .local _ .vmem, ⟨5, _⟩ => ⟨S1x32, .f32⟩
  | .local _ .vmem, ⟨6, _⟩ => ⟨S128x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S32x32, .f32⟩
  | .local _ .vmem, ⟨14, _⟩ => ⟨S1x32, .f32⟩
  | .local _ .vmem, ⟨15, _⟩ => ⟨S32x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x32, .f32⟩
  | .local _ .vmem, ⟨23, _⟩ => ⟨S1x32, .f32⟩
  | .local _ .vmem, ⟨24, _⟩ => ⟨S32x32, .f32⟩
  | .local _ .vmem, ⟨25, _⟩ => ⟨S10000x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S10000x32, .f32⟩
  | .local _ .vmem, ⟨31, _⟩ => ⟨S32x32, .f32⟩
  | .local _ .vmem, ⟨32, _⟩ => ⟨S1x32, .f32⟩
  | .local _ .vmem, ⟨33, _⟩ => ⟨S32x32, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S10000x32, .f32⟩
  | .local _ .vmem, ⟨38, _⟩ => ⟨S10000x32, .f32⟩
  | .local _ .vmem, ⟨39, _⟩ => ⟨S10000x32, .f32⟩
  | .local _ .vmem, ⟨40, _⟩ => ⟨S32x32, .f32⟩
  | .local _ .vmem, ⟨41, _⟩ => ⟨S1x32, .f32⟩
  | .local _ .vmem, ⟨42, _⟩ => ⟨S32x32, .f32⟩
  | .local _ .vmem, ⟨43, _⟩ => ⟨S10000x32, .f32⟩
  | .local _ .vmem, ⟨44, _⟩ => ⟨S10000x32, .f32⟩
  | .local _ .vmem, ⟨45, _⟩ => ⟨S1000x32, .f32⟩
  | .local _ .vmem, ⟨46, _⟩ => ⟨S32x32, .f32⟩
  | .local _ .vmem, ⟨47, _⟩ => ⟨S1x32, .f32⟩
  | .local _ .vmem, ⟨48, _⟩ => ⟨S32x10, .f32⟩
  | .local _ .vmem, ⟨49, _⟩ => ⟨S1x10, .f32⟩
  | .local _ .vmem, ⟨50, _⟩ => ⟨S1000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_1 : Ref sig .tc := ⟨.hbm, 45, rfl⟩
abbrev main_v19 : Ref sig .tc := ⟨.hbm, 46, rfl⟩
abbrev main_v20 : Ref sig .tc := ⟨.hbm, 47, rfl⟩
abbrev main_c_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_4 : Ref sig .tc := ⟨.hbm, 63, rfl⟩
abbrev main_v34 : Ref sig .tc := ⟨.hbm, 64, rfl⟩
abbrev main_v35 : Ref sig .tc := ⟨.hbm, 65, rfl⟩
abbrev main_c_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_6 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_7 : Ref sig .tc := ⟨.hbm, 81, rfl⟩
abbrev main_v49 : Ref sig .tc := ⟨.hbm, 82, rfl⟩
abbrev main_v50 : Ref sig .tc := ⟨.hbm, 83, rfl⟩
abbrev main_c_8 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_9 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_10 : Ref sig .tc := ⟨.hbm, 99, rfl⟩
abbrev main_v64 : Ref sig .tc := ⟨.hbm, 100, rfl⟩
abbrev main_v65 : Ref sig .tc := ⟨.hbm, 101, rfl⟩
abbrev main_c_11 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_12 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_13 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S1000x32 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S32x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x10 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1000x10 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  bcast_S_S1000x32 : S_.BroadcastsInDim S1000x32 (![] : Fin 0 → Fin S1000x32.rank)
  bcast_S100000_S100000x1_0 : S100000.BroadcastsInDim S100000x1 (![0] : Fin 1 → Fin S100000x1.rank)
  shapeCasts_S10_S1x10 : S10.ShapeCasts S1x10
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  broadcasts_S1x32_S1000x32 : S1x32.Broadcasts S1000x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1000x10 : S1x10.Broadcasts S1000x10
  reduces_S1000x10_S1000 : S1000x10.Reduces [1] S1000
  shapeCasts_S1000_S1000x1 : S1000.ShapeCasts S1000x1
  broadcasts_S1000x1_S1000x10 : S1000x1.Broadcasts S1000x10
  inb_S1000x10_S1000x10_0_0 : ∀ a, (![0, 0] : Fin 2 → Nat) a + S1000x10.size a ≤ S1000x10.size a
  h_S1000x10 : 0 < S1000x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x32_S10000x32_1_0_0_1_n_n_wf : DotDims.WF S10000x128 S128x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x32_S10000x32_1_0_0_1_n_n_wf : DotDims.WF S10000x32 S32x32 S10000x32 [1] [0] [0] [1] [] []
  scatter_S1000x32_S100000x1_S100000x32_1_0_0_1_wf : ScatterDims.WF S1000x32 S100000x1 S100000x32 [1] [0] [0] 1
  dot_S1000x32_S32x32_S1000x32_1_0_0_1_n_n_wf : DotDims.WF S1000x32 S32x32 S1000x32 [1] [0] [0] [1] [] []
  dot_S1000x32_S32x10_S1000x10_1_0_0_1_n_n_wf : DotDims.WF S1000x32 S32x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S100000x32.size a
  hwx2_1 : ∀ i : grid2.Coords, EltTy.bits .f32 = 32 ∨ (Rect.block (s := S100000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x32.size a ≤ S100000x32.size a
  hwx2_5 : ∀ i : grid2.Coords, EltTy.bits .f32 = 32 ∨ (Rect.block (s := S100000x32) S10000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x32.size a ≤ S32x32.size a
  hwx3_2 : ∀ i : grid3.Coords, EltTy.bits .f32 = 32 ∨ (Rect.block (s := S32x32) S32x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x32.size a ≤ S32x32.size a
  hwx3_4 : ∀ i : grid3.Coords, EltTy.bits .f32 = 32 ∨ (Rect.block (s := S32x32) S32x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x32.size a ≤ S100000x32.size a
  hwx3_5 : ∀ i : grid3.Coords, EltTy.bits .f32 = 32 ∨ (Rect.block (s := S100000x32) S10000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x32.size a ≤ S100000x32.size a
  hwx4_1 : ∀ i : grid4.Coords, EltTy.bits .f32 = 32 ∨ (Rect.block (s := S100000x32) S10000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x32.size a ≤ S32x32.size a
  hwx4_2 : ∀ i : grid4.Coords, EltTy.bits .f32 = 32 ∨ (Rect.block (s := S32x32) S32x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x32.size a ≤ S32x32.size a
  hwx4_4 : ∀ i : grid4.Coords, EltTy.bits .f32 = 32 ∨ (Rect.block (s := S32x32) S32x32.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x32.size a ≤ S100000x32.size a
  hwx4_5 : ∀ i : grid4.Coords, EltTy.bits .f32 = 32 ∨ (Rect.block (s := S100000x32) S10000x32.size (cc4_transform_5 i) (hinb4_5 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1000x32.size a ≤ S1000x32.size a
  hwx5_0 : ∀ i : grid5.Coords, EltTy.bits .f32 = 32 ∨ (Rect.block (s := S1000x32) S1000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x32.size a ≤ S32x32.size a
  hwx5_1 : ∀ i : grid5.Coords, EltTy.bits .f32 = 32 ∨ (Rect.block (s := S32x32) S32x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x10.size a ≤ S32x10.size a
  hwx5_3 : ∀ i : grid5.Coords, EltTy.bits .f32 = 32 ∨ (Rect.block (s := S32x10) S32x10.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x10.size a ≤ S1x10.size a
  hwx5_4 : ∀ i : grid5.Coords, EltTy.bits .f32 = 32 ∨ (Rect.block (s := S1x10) S1x10.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1000x10.size a ≤ S1000x10.size a
  hwx5_5 : ∀ i : grid5.Coords, EltTy.bits .f32 = 32 ∨ (Rect.block (s := S1000x10) S1000x10.size (cc5_transform_5 i) (hinb5_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def scatter_S1000x32_S100000x1_S100000x32_1_0_0_1 : ScatterDims S1000x32 S100000x1 S100000x32 where
  updateWindowDims := [1]
  insertedWindowDims := [0]
  scatterDimsToOperandDims := [0]
  indexVectorDim := 1
  wf := scatter_S1000x32_S100000x1_S100000x32_1_0_0_1_wf
def dot_S1000x32_S32x32_S1000x32_1_0_0_1_n_n : DotDims S1000x32 S32x32 S1000x32 where
  lhsContracting := [1]
  rhsContracting := [0]
  lhsNonContracting := [0]
  rhsNonContracting := [1]
  lhsBatch := []
  rhsBatch := []
  wf := dot_S1000x32_S32x32_S1000x32_1_0_0_1_n_n_wf
def dot_S1000x32_S32x10_S1000x10_1_0_0_1_n_n : DotDims S1000x32 S32x10 S1000x10 where
  lhsContracting := [1]
  rhsContracting := [0]
  lhsNonContracting := [0]
  rhsNonContracting := [1]
  lhsBatch := []
  rhsBatch := []
  wf := dot_S1000x32_S32x10_S1000x10_1_0_0_1_n_n_wf

abbrev win0_0 : Pipeline.Window sig grid0 :=
  Pipeline.Window.ofSpec (Memref.whole main_v16) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S10000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S32x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S32x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S10000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v76) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S10000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg16) S32x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg18) S32x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78) S10000x32.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v81) S1000x32.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg19) S32x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg21) S32x10.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x10.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84) S1000x10.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S100000x32 : Shape := ⟨2, ![100000, 32]⟩
abbrev S1x32 : Shape := ⟨2, ![1, 32]⟩
abbrev S1600000x32 : Shape := ⟨2, ![1600000, 32]⟩
abbrev S1000x32 : Shape := ⟨2, ![1000, 32]⟩
abbrev S100000x1 : Shape := ⟨2, ![100000, 1]⟩
abbrev S1000x10 : Shape := ⟨2, ![1000, 10]⟩
abbrev S1x10 : Shape := ⟨2, ![1, 10]⟩
abbrev S1000 : Shape := ⟨1, ![1000]⟩
abbrev S1000x1 : Shape := ⟨2, ![1000, 1]⟩

abbrev nBuf : Space → Nat
  | .hbm => 182
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S1600000, .f32⟩
  | 4 => ⟨S128x32, .f32⟩
  | 5 => ⟨S32, .f32⟩
  | 6 => ⟨S128x32, .f32⟩
  | 7 => ⟨S32x32, .f32⟩
  | 8 => ⟨S32, .f32⟩
  | 9 => ⟨S32x32, .f32⟩
  | 10 => ⟨S32x32, .f32⟩
  | 11 => ⟨S32, .f32⟩
  | 12 => ⟨S32x32, .f32⟩
  | 13 => ⟨S32x32, .f32⟩
  | 14 => ⟨S32, .f32⟩
  | 15 => ⟨S32x32, .f32⟩
  | 16 => ⟨S32x32, .f32⟩
  | 17 => ⟨S32, .f32⟩
  | 18 => ⟨S32x32, .f32⟩
  | 19 => ⟨S32x32, .f32⟩
  | 20 => ⟨S32, .f32⟩
  | 21 => ⟨S32x10, .f32⟩
  | 22 => ⟨S10, .f32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S1600000x1, .f32⟩
  | 37 => ⟨S1600000x128, .f32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x32, .f32⟩
  | 44 => ⟨S1x32, .f32⟩
  | 45 => ⟨S100000x32, .f32⟩
  | 46 => ⟨S100000x32, .f32⟩
  | 47 => ⟨S100000x32, .f32⟩
  | 48 => ⟨S100000x32, .f32⟩
  | 49 => ⟨S_, .f32⟩
  | 50 => ⟨S100000x32, .f32⟩
  | 51 => ⟨S100000x32, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x32, .f32⟩
  | 61 => ⟨S1600000x1, .f32⟩
  | 62 => ⟨S1600000x32, .f32⟩
  | 63 => ⟨S1600000x32, .f32⟩
  | 64 => ⟨S_, .f32⟩
  | 65 => ⟨S100000x32, .f32⟩
  | 66 => ⟨S1600000x1, .i32⟩
  | 67 => ⟨S100000x32, .f32⟩
  | 68 => ⟨S100000x32, .f32⟩
  | 69 => ⟨S1x32, .f32⟩
  | 70 => ⟨S100000x32, .f32⟩
  | 71 => ⟨S100000x32, .f32⟩
  | 72 => ⟨S100000x32, .f32⟩
  | 73 => ⟨S100000x32, .f32⟩
  | 74 => ⟨S_, .f32⟩
  | 75 => ⟨S100000x32, .f32⟩
  | 76 => ⟨S100000x32, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x32, .f32⟩
  | 86 => ⟨S1600000x1, .f32⟩
  | 87 => ⟨S1600000x32, .f32⟩
  | 88 => ⟨S1600000x32, .f32⟩
  | 89 => ⟨S_, .f32⟩
  | 90 => ⟨S100000x32, .f32⟩
  | 91 => ⟨S1600000x1, .i32⟩
  | 92 => ⟨S100000x32, .f32⟩
  | 93 => ⟨S100000x32, .f32⟩
  | 94 => ⟨S1x32, .f32⟩
  | 95 => ⟨S100000x32, .f32⟩
  | 96 => ⟨S100000x32, .f32⟩
  | 97 => ⟨S100000x32, .f32⟩
  | 98 => ⟨S100000x32, .f32⟩
  | 99 => ⟨S_, .f32⟩
  | 100 => ⟨S100000x32, .f32⟩
  | 101 => ⟨S100000x32, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x32, .f32⟩
  | 111 => ⟨S1600000x1, .f32⟩
  | 112 => ⟨S1600000x32, .f32⟩
  | 113 => ⟨S1600000x32, .f32⟩
  | 114 => ⟨S_, .f32⟩
  | 115 => ⟨S100000x32, .f32⟩
  | 116 => ⟨S1600000x1, .i32⟩
  | 117 => ⟨S100000x32, .f32⟩
  | 118 => ⟨S100000x32, .f32⟩
  | 119 => ⟨S1x32, .f32⟩
  | 120 => ⟨S100000x32, .f32⟩
  | 121 => ⟨S100000x32, .f32⟩
  | 122 => ⟨S100000x32, .f32⟩
  | 123 => ⟨S100000x32, .f32⟩
  | 124 => ⟨S_, .f32⟩
  | 125 => ⟨S100000x32, .f32⟩
  | 126 => ⟨S100000x32, .f32⟩
  | 127 => ⟨S_, .i32⟩
  | _ => ⟨S100000x128, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x32, .f32⟩
  | 8 => ⟨S1600000x1, .f32⟩
  | 9 => ⟨S1600000x32, .f32⟩
  | 10 => ⟨S1600000x32, .f32⟩
  | 11 => ⟨S_, .f32⟩
  | 12 => ⟨S100000x32, .f32⟩
  | 13 => ⟨S1600000x1, .i32⟩
  | 14 => ⟨S100000x32, .f32⟩
  | 15 => ⟨S100000x32, .f32⟩
  | 16 => ⟨S1x32, .f32⟩
  | 17 => ⟨S100000x32, .f32⟩
  | 18 => ⟨S100000x32, .f32⟩
  | 19 => ⟨S100000x32, .f32⟩
  | 20 => ⟨S100000x32, .f32⟩
  | 21 => ⟨S_, .f32⟩
  | 22 => ⟨S100000x32, .f32⟩
  | 23 => ⟨S100000x32, .f32⟩
  | 24 => ⟨S_, .f32⟩
  | 25 => ⟨S1000x32, .f32⟩
  | 26 => ⟨S100000x1, .i32⟩
  | 27 => ⟨S1000x32, .f32⟩
  | 28 => ⟨S1000x32, .f32⟩
  | 29 => ⟨S1x32, .f32⟩
  | 30 => ⟨S1000x32, .f32⟩
  | 31 => ⟨S1000x32, .f32⟩
  | 32 => ⟨S_, .f32⟩
  | 33 => ⟨S1000x32, .f32⟩
  | 34 => ⟨S1000x32, .f32⟩
  | 35 => ⟨S1000x10, .f32⟩
  | 36 => ⟨S1x10, .f32⟩
  | 37 => ⟨S1000x10, .f32⟩
  | 38 => ⟨S1000x10, .f32⟩
  | 39 => ⟨S_, .f32⟩
  | 40 => ⟨S1000, .f32⟩
  | 41 => ⟨S_, .f32⟩
  | 42 => ⟨S1000, .f32⟩
  | 43 => ⟨S1000, .f32⟩
  | 44 => ⟨S1000x1, .f32⟩
  | 45 => ⟨S1000x10, .f32⟩
  | 46 => ⟨S1000x10, .f32⟩
  | 47 => ⟨S1000x10, .f32⟩
  | 48 => ⟨S_, .f32⟩
  | 49 => ⟨S1000, .f32⟩
  | 50 => ⟨S1000x1, .f32⟩
  | 51 => ⟨S1000x1, .f32⟩
  | 52 => ⟨S1000x10, .f32⟩
  | 53 => ⟨S1000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_call0_cst : Ref sig .tc := ⟨.hbm, 49, rfl⟩
abbrev main_call0_v0 : Ref sig .tc := ⟨.hbm, 50, rfl⟩
abbrev main_v23 : Ref sig .tc := ⟨.hbm, 51, rfl⟩
abbrev main_c_1 : Ref sig .tc := ⟨.hbm, 52, rfl⟩
abbrev main_v24 : Ref sig .tc := ⟨.hbm, 53, rfl⟩
abbrev main_v25 : Ref sig .tc := ⟨.hbm, 54, rfl⟩
abbrev main_c_2 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_3 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call1_cst : Ref sig .tc := ⟨.hbm, 74, rfl⟩
abbrev main_call1_v0 : Ref sig .tc := ⟨.hbm, 75, rfl⟩
abbrev main_v43 : Ref sig .tc := ⟨.hbm, 76, rfl⟩
abbrev main_c_4 : Ref sig .tc := ⟨.hbm, 77, rfl⟩
abbrev main_v44 : Ref sig .tc := ⟨.hbm, 78, rfl⟩
abbrev main_v45 : Ref sig .tc := ⟨.hbm, 79, rfl⟩
abbrev main_c_5 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_6 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call2_cst : Ref sig .tc := ⟨.hbm, 99, rfl⟩
abbrev main_call2_v0 : Ref sig .tc := ⟨.hbm, 100, rfl⟩
abbrev main_v63 : Ref sig .tc := ⟨.hbm, 101, rfl⟩
abbrev main_c_7 : Ref sig .tc := ⟨.hbm, 102, rfl⟩
abbrev main_v64 : Ref sig .tc := ⟨.hbm, 103, rfl⟩
abbrev main_v65 : Ref sig .tc := ⟨.hbm, 104, rfl⟩
abbrev main_c_8 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_9 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_call3_cst : Ref sig .tc := ⟨.hbm, 124, rfl⟩
abbrev main_call3_v0 : Ref sig .tc := ⟨.hbm, 125, rfl⟩
abbrev main_v83 : Ref sig .tc := ⟨.hbm, 126, rfl⟩
abbrev main_c_10 : Ref sig .tc := ⟨.hbm, 127, rfl⟩
abbrev main_v84 : Ref sig .tc := ⟨.hbm, 128, rfl⟩
abbrev main_v85 : Ref sig .tc := ⟨.hbm, 129, rfl⟩
abbrev main_c_11 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_12 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_call4_cst : Ref sig .tc := ⟨.hbm, 149, rfl⟩
abbrev main_call4_v0 : Ref sig .tc := ⟨.hbm, 150, rfl⟩
abbrev main_v103 : Ref sig .tc := ⟨.hbm, 151, rfl⟩
abbrev main_cst_13 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_call5_cst : Ref sig .tc := ⟨.hbm, 160, rfl⟩
abbrev main_call5_v0 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_call6_cst : Ref sig .tc := ⟨.hbm, 167, rfl⟩
abbrev main_call6_v0 : Ref sig .tc := ⟨.hbm, 168, rfl⟩
abbrev main_call6_cst_0 : Ref sig .tc := ⟨.hbm, 169, rfl⟩
abbrev main_call6_v1 : Ref sig .tc := ⟨.hbm, 170, rfl⟩
abbrev main_call6_v2 : Ref sig .tc := ⟨.hbm, 171, rfl⟩
abbrev main_call6_v3 : Ref sig .tc := ⟨.hbm, 172, rfl⟩
abbrev main_call6_v4 : Ref sig .tc := ⟨.hbm, 173, rfl⟩
abbrev main_call6_v5 : Ref sig .tc := ⟨.hbm, 174, rfl⟩
abbrev main_call6_v6 : Ref sig .tc := ⟨.hbm, 175, rfl⟩
abbrev main_call6_cst_1 : Ref sig .tc := ⟨.hbm, 176, rfl⟩
abbrev main_call6_v7 : Ref sig .tc := ⟨.hbm, 177, rfl⟩
abbrev main_call6_v8 : Ref sig .tc := ⟨.hbm, 178, rfl⟩
abbrev main_call6_v9 : Ref sig .tc := ⟨.hbm, 179, rfl⟩
abbrev main_call6_v10 : Ref sig .tc := ⟨.hbm, 180, rfl⟩
abbrev main_v116 : Ref sig .tc := ⟨.hbm, 181, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1600000x1_S1600000x32_0_1 : S1600000x1.BroadcastsInDim S1600000x32 (![0, 1] : Fin 2 → Fin S1600000x32.rank)
  bcast_S_S1000x32 : S_.BroadcastsInDim S1000x32 (![] : Fin 0 → Fin S1000x32.rank)
  bcast_S100000_S100000x1_0 : S100000.BroadcastsInDim S100000x1 (![0] : Fin 1 → Fin S100000x1.rank)
  bcast_S1x32_S1000x32_0_1 : S1x32.BroadcastsInDim S1000x32 (![0, 1] : Fin 2 → Fin S1000x32.rank)
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  reducesTo_S1000x10_S1000_d1 : S1000x10.ReducesTo [1] S1000
  h_S_ : 0 < S_.numel
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x10_0_1 : S1000x1.BroadcastsInDim S1000x10 (![0, 1] : Fin 2 → Fin S1000x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  scatter_S1000x32_S100000x1_S100000x32_1_0_0_1_wf : ScatterDims.WF S1000x32 S100000x1 S100000x32 [1] [0] [0] 1
  dot_S1000x32_S32x32_S1000x32_1_0_0_1_n_n_wf : DotDims.WF S1000x32 S32x32 S1000x32 [1] [0] [0] [1] [] []
  dot_S1000x32_S32x10_S1000x10_1_0_0_1_n_n_wf : DotDims.WF S1000x32 S32x10 S1000x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S1000x32_S100000x1_S100000x32_1_0_0_1 : ScatterDims S1000x32 S100000x1 S100000x32 where
  updateWindowDims := [1]
  insertedWindowDims := [0]
  scatterDimsToOperandDims := [0]
  indexVectorDim := 1
  wf := scatter_S1000x32_S100000x1_S100000x32_1_0_0_1_wf
def dot_S1000x32_S32x32_S1000x32_1_0_0_1_n_n : DotDims S1000x32 S32x32 S1000x32 where
  lhsContracting := [1]
  rhsContracting := [0]
  lhsNonContracting := [0]
  rhsNonContracting := [1]
  lhsBatch := []
  rhsBatch := []
  wf := dot_S1000x32_S32x32_S1000x32_1_0_0_1_n_n_wf
def dot_S1000x32_S32x10_S1000x10_1_0_0_1_n_n : DotDims S1000x32 S32x10 S1000x10 where
  lhsContracting := [1]
  rhsContracting := [0]
  lhsNonContracting := [0]
  rhsNonContracting := [1]
  lhsBatch := []
  rhsBatch := []
  wf := dot_S1000x32_S32x10_S1000x10_1_0_0_1_n_n_wf

class Facts : Prop extends Facts₀ where

variable [Facts]
-- ==== Proof.KRun.lean ====
/-
  The idealized kernel's run with its result named: every weakly fair execution of @main terminates, nothing faulting,
  the argument arrays end as launched, and the result buffer ends holding what the fold of the program's twelve
  segments (six stretches of host operations, six kernel regions) leaves in it, `W12` at the result's buffer. The run is
  the launch theorem over the segments; the last thread state holds every unscoped buffer at `W12`, the result's among them.
-/
import proofs.«180868_j61280593379653_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v84) = W12 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v84 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c)⟩)

end Cert.KernelIdeal.Hand

end
-- ==== Proof.GlueK.lean ====
/-
  The host operations the two programs share, as functions: the two rows of the edge list (sources and targets), the
  source row made safe as an index (a negative entry shifted up by the number of nodes), the aggregation of a layer's
  input over the edges — gather each edge's source row, weight it by the edge's weight, add it into the edge's target
  row of a zero array — at width 128 and at width 32, and the pooling of the nodes' rows into their graphs' rows.
-/
import proofs.«180868_j61280593379653_1_alg».proof.KernelIdeal
import proofs.«180868_j61280593379653_1_alg».proof.Proof.Gen.KernelIdeal
import Idealize.ShloMosaic.PureOps.Ideal

noncomputable section

namespace Cert.KernelIdeal.Hand

open Cert.KernelIdeal Cert.KernelIdeal.Facts₀ Idealize.ShloMosaic

/-- The sources' row of the edge list. -/
def srcRaw (ei : (⟨S2x1600000, .i32⟩ : BufTy).Contents (Elt Ideal)) : (⟨S1600000, .i32⟩ : BufTy).Contents (Elt Ideal) :=
  shapeCast _ ((extractStridedSlice S1x1600000 ![0, 0] ei slices_S2x1600000_S1x1600000_0_0) : (⟨S1x1600000, .i32⟩ : BufTy).Contents (Elt Ideal)) shapeCasts_S1x1600000_S1600000

/-- The targets' row of the edge list. -/
def dstRaw (ei : (⟨S2x1600000, .i32⟩ : BufTy).Contents (Elt Ideal)) : (⟨S1600000, .i32⟩ : BufTy).Contents (Elt Ideal) :=
  shapeCast _ ((extractStridedSlice S1x1600000 ![1, 0] ei slices_S2x1600000_S1x1600000_1_0) : (⟨S1x1600000, .i32⟩ : BufTy).Contents (Elt Ideal)) shapeCasts_S1x1600000_S1600000

/-- The sources as a column of gather indices, a negative one shifted up by the number of nodes. -/
def srcIdx (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The aggregation over the edges at width 128. -/
def agg128 (s d : (⟨S1600000, .i32⟩ : BufTy).Contents (Elt Ideal)) (ew : (⟨S1600000, .f32⟩ : BufTy).Contents (Elt Ideal))
    (h : (⟨S100000x128, .f32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (mulf (Host.gather gather_S100000x128_S1600000x1_S1600000x128_1_0_n_n_0_1_1128 h (srcIdx s))
      (broadcastInDim S1600000x128 ![0, 1] bcast_S1600000x1_S1600000x128_0_1 (broadcastInDim S1600000x1 ![0] bcast_S1600000_S1600000x1_0 ew)))

/-- The aggregation over the edges at width 32. -/
def agg32 (s d : (⟨S1600000, .i32⟩ : BufTy).Contents (Elt Ideal)) (ew : (⟨S1600000, .f32⟩ : BufTy).Contents (Elt Ideal))
    (h : (⟨S100000x32, .f32⟩ : BufTy).Contents (Elt Ideal)) : (⟨S100000x32, .f32⟩ : BufTy).Contents (Elt Ideal) :=
  Host.scatterAdd scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 d)
    (mulf (Host.gather gather_S100000x32_S1600000x1_S1600000x32_1_0_n_n_0_1_132 h (srcIdx s))
      (broadcastInDim S1600000x32 ![0, 1] bcast_S1600000x1_S1600000x32_0_1 (broadcastInDim S1600000x1 ![0] bcast_S1600000_S1600000x1_0 ew)))

/-- The pooling of the nodes' rows into their graphs' rows. -/
def pool (batch : (⟨S100000, .i32⟩ : BufTy).Contents (Elt Ideal)) (h : (⟨S100000x32, .f32⟩ : BufTy).Contents (Elt Ideal)) :
    (⟨S1000x32, .f32⟩ : BufTy).Contents (Elt Ideal) :=
  Host.scatterAdd scatter_S1000x32_S100000x1_S100000x32_1_0_0_1
    (broadcastInDim S1000x32 ![] bcast_S_S1000x32 (constant (F := Ideal) S_ .f32 0x00000000#32))
    (broadcastInDim S100000x1 ![0] bcast_S100000_S100000x1_0 batch) h

end Cert.KernelIdeal.Hand

end
-- ==== Proof.KWalk.lean ====
/-
  The buffers the program computes once or never writes, read back through the fold of its segments: the two rows of
  the edge list (computed by the first stretch of host operations), the edge weights and every parameter array (never
  written: a host stretch that does not write a buffer leaves it, a region leaves every buffer that is not one of its
  output windows). Each is followed from the segment that reads it back to the launch memory, or forward to the final
  contents, where the argument arrays are as launched.
-/
import proofs.«180868_j61280593379653_1_alg».proof.Proof.Gen.KernelIdeal.Frame
import proofs.«180868_j61280593379653_1_alg».proof.Proof.GlueK
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first stretch computes the sources' row of the edge list … -/
theorem src1 (c : Dev nD) : W1 m ρ c (Proc.devRef .tc main_v1) = srcRaw (m ((c : Thread nD τ).loc main_arg1)) := by
  show StableHlo.after hostOps0 (W0 m ρ c) (Proc.devRef .tc main_v1) = _
  after_results <;> rfl
/-- … and the targets' row. -/
theorem dst1 (c : Dev nD) : W1 m ρ c (Proc.devRef .tc main_v3) = dstRaw (m ((c : Thread nD τ).loc main_arg1)) := by
  show StableHlo.after hostOps0 (W0 m ρ c) (Proc.devRef .tc main_v3) = _
  after_results <;> rfl
theorem src2 (c : Dev nD) : W2 m ρ c (Proc.devRef .tc main_v1) = srcRaw (m ((c : Thread nD τ).loc main_arg1)) :=
  ((W2_of_ne m ρ c main_v1 (by decide))).trans (src1 m ρ c)
theorem dst2 (c : Dev nD) : W2 m ρ c (Proc.devRef .tc main_v3) = dstRaw (m ((c : Thread nD τ).loc main_arg1)) :=
  ((W2_of_ne m ρ c main_v3 (by decide))).trans (dst1 m ρ c)
theorem src4 (c : Dev nD) : W4 m ρ c (Proc.devRef .tc main_v1) = srcRaw (m ((c : Thread nD τ).loc main_arg1)) :=
  (((W4_of_ne m ρ c main_v1 (by decide)).trans (by show StableHlo.after hostOps1 (W2 m ρ c) (Proc.devRef .tc main_v1) = _; after_results : W3 m ρ c (Proc.devRef .tc main_v1) = W2 m ρ c (Proc.devRef .tc main_v1)))).trans (src2 m ρ c)
theorem dst4 (c : Dev nD) : W4 m ρ c (Proc.devRef .tc main_v3) = dstRaw (m ((c : Thread nD τ).loc main_arg1)) :=
  (((W4_of_ne m ρ c main_v3 (by decide)).trans (by show StableHlo.after hostOps1 (W2 m ρ c) (Proc.devRef .tc main_v3) = _; after_results : W3 m ρ c (Proc.devRef .tc main_v3) = W2 m ρ c (Proc.devRef .tc main_v3)))).trans (dst2 m ρ c)
theorem src6 (c : Dev nD) : W6 m ρ c (Proc.devRef .tc main_v1) = srcRaw (m ((c : Thread nD τ).loc main_arg1)) :=
  (((W6_of_ne m ρ c main_v1 (by decide)).trans (by show StableHlo.after hostOps2 (W4 m ρ c) (Proc.devRef .tc main_v1) = _; after_results : W5 m ρ c (Proc.devRef .tc main_v1) = W4 m ρ c (Proc.devRef .tc main_v1)))).trans (src4 m ρ c)
theorem dst6 (c : Dev nD) : W6 m ρ c (Proc.devRef .tc main_v3) = dstRaw (m ((c : Thread nD τ).loc main_arg1)) :=
  (((W6_of_ne m ρ c main_v3 (by decide)).trans (by show StableHlo.after hostOps2 (W4 m ρ c) (Proc.devRef .tc main_v3) = _; after_results : W5 m ρ c (Proc.devRef .tc main_v3) = W4 m ρ c (Proc.devRef .tc main_v3)))).trans (dst4 m ρ c)
theorem src8 (c : Dev nD) : W8 m ρ c (Proc.devRef .tc main_v1) = srcRaw (m ((c : Thread nD τ).loc main_arg1)) :=
  (((W8_of_ne m ρ c main_v1 (by decide)).trans (by show StableHlo.after hostOps3 (W6 m ρ c) (Proc.devRef .tc main_v1) = _; after_results : W7 m ρ c (Proc.devRef .tc main_v1) = W6 m ρ c (Proc.devRef .tc main_v1)))).trans (src6 m ρ c)
theorem dst8 (c : Dev nD) : W8 m ρ c (Proc.devRef .tc main_v3) = dstRaw (m ((c : Thread nD τ).loc main_arg1)) :=
  (((W8_of_ne m ρ c main_v3 (by decide)).trans (by show StableHlo.after hostOps3 (W6 m ρ c) (Proc.devRef .tc main_v3) = _; after_results : W7 m ρ c (Proc.devRef .tc main_v3) = W6 m ρ c (Proc.devRef .tc main_v3)))).trans (dst6 m ρ c)
theorem ew0 (c : Dev nD) : W0 m ρ c (Proc.devRef .tc main_arg3) = (m ((c : Thread nD τ).loc main_arg3)) :=
  rfl
theorem ew2 (c : Dev nD) : W2 m ρ c (Proc.devRef .tc main_arg3) = (m ((c : Thread nD τ).loc main_arg3)) :=
  (((W2_of_ne m ρ c main_arg3 (by decide)).trans (by show StableHlo.after hostOps0 (W0 m ρ c) (Proc.devRef .tc main_arg3) = _; after_results : W1 m ρ c (Proc.devRef .tc main_arg3) = W0 m ρ c (Proc.devRef .tc main_arg3)))).trans (ew0 m ρ c)
theorem ew4 (c : Dev nD) : W4 m ρ c (Proc.devRef .tc main_arg3) = (m ((c : Thread nD τ).loc main_arg3)) :=
  (((W4_of_ne m ρ c main_arg3 (by decide)).trans (by show StableHlo.after hostOps1 (W2 m ρ c) (Proc.devRef .tc main_arg3) = _; after_results : W3 m ρ c (Proc.devRef .tc main_arg3) = W2 m ρ c (Proc.devRef .tc main_arg3)))).trans (ew2 m ρ c)
theorem ew6 (c : Dev nD) : W6 m ρ c (Proc.devRef .tc main_arg3) = (m ((c : Thread nD τ).loc main_arg3)) :=
  (((W6_of_ne m ρ c main_arg3 (by decide)).trans (by show StableHlo.after hostOps2 (W4 m ρ c) (Proc.devRef .tc main_arg3) = _; after_results : W5 m ρ c (Proc.devRef .tc main_arg3) = W4 m ρ c (Proc.devRef .tc main_arg3)))).trans (ew4 m ρ c)
theorem ew8 (c : Dev nD) : W8 m ρ c (Proc.devRef .tc main_arg3) = (m ((c : Thread nD τ).loc main_arg3)) :=
  (((W8_of_ne m ρ c main_arg3 (by decide)).trans (by show StableHlo.after hostOps3 (W6 m ρ c) (Proc.devRef .tc main_arg3) = _; after_results : W7 m ρ c (Proc.devRef .tc main_arg3) = W6 m ρ c (Proc.devRef .tc main_arg3)))).trans (ew6 m ρ c)
theorem x1 (c : Dev nD) : W1 m ρ c (Proc.devRef .tc main_arg0) = (m ((c : Thread nD τ).loc main_arg0)) :=
  ((by show StableHlo.after hostOps0 (W0 m ρ c) (Proc.devRef .tc main_arg0) = _; after_results : W1 m ρ c (Proc.devRef .tc main_arg0) = W0 m ρ c (Proc.devRef .tc main_arg0))).trans rfl
theorem wr0 (c : Dev nD) : W1 m ρ c (Proc.devRef .tc main_arg4) = (m ((c : Thread nD τ).loc main_arg4)) :=
  ((by show StableHlo.after hostOps0 (W0 m ρ c) (Proc.devRef .tc main_arg4) = _; after_results : W1 m ρ c (Proc.devRef .tc main_arg4) = W0 m ρ c (Proc.devRef .tc main_arg4))).trans rfl
theorem wo0 (c : Dev nD) : W1 m ρ c (Proc.devRef .tc main_arg6) = (m ((c : Thread nD τ).loc main_arg6)) :=
  ((by show StableHlo.after hostOps0 (W0 m ρ c) (Proc.devRef .tc main_arg6) = _; after_results : W1 m ρ c (Proc.devRef .tc main_arg6) = W0 m ρ c (Proc.devRef .tc main_arg6))).trans rfl
theorem br0 (c : Dev nD) : W0 m ρ c (Proc.devRef .tc main_arg5) = (m ((c : Thread nD τ).loc main_arg5)) :=
  rfl
theorem wr1 (c : Dev nD) : W3 m ρ c (Proc.devRef .tc main_arg7) = (m ((c : Thread nD τ).loc main_arg7)) :=
  (((by show StableHlo.after hostOps1 (W2 m ρ c) (Proc.devRef .tc main_arg7) = _; after_results : W3 m ρ c (Proc.devRef .tc main_arg7) = W2 m ρ c (Proc.devRef .tc main_arg7)).trans ((W2_of_ne m ρ c main_arg7 (by decide)).trans (by show StableHlo.after hostOps0 (W0 m ρ c) (Proc.devRef .tc main_arg7) = _; after_results : W1 m ρ c (Proc.devRef .tc main_arg7) = W0 m ρ c (Proc.devRef .tc main_arg7))))).trans rfl
theorem wo1 (c : Dev nD) : W3 m ρ c (Proc.devRef .tc main_arg9) = (m ((c : Thread nD τ).loc main_arg9)) :=
  (((by show StableHlo.after hostOps1 (W2 m ρ c) (Proc.devRef .tc main_arg9) = _; after_results : W3 m ρ c (Proc.devRef .tc main_arg9) = W2 m ρ c (Proc.devRef .tc main_arg9)).trans ((W2_of_ne m ρ c main_arg9 (by decide)).trans (by show StableHlo.after hostOps0 (W0 m ρ c) (Proc.devRef .tc main_arg9) = _; after_results : W1 m ρ c (Proc.devRef .tc main_arg9) = W0 m ρ c (Proc.devRef .tc main_arg9))))).trans rfl
theorem br1 (c : Dev nD) : W2 m ρ c (Proc.devRef .tc main_arg8) = (m ((c : Thread nD τ).loc main_arg8)) :=
  (((W2_of_ne m ρ c main_arg8 (by decide)).trans (by show StableHlo.after hostOps0 (W0 m ρ c) (Proc.devRef .tc main_arg8) = _; after_results : W1 m ρ c (Proc.devRef .tc main_arg8) = W0 m ρ c (Proc.devRef .tc main_arg8)))).trans rfl
theorem wr2 (c : Dev nD) : W5 m ρ c (Proc.devRef .tc main_arg10) = (m ((c : Thread nD τ).loc main_arg10)) :=
  (((by show StableHlo.after hostOps2 (W4 m ρ c) (Proc.devRef .tc main_arg10) = _; after_results : W5 m ρ c (Proc.devRef .tc main_arg10) = W4 m ρ c (Proc.devRef .tc main_arg10)).trans ((W4_of_ne m ρ c main_arg10 (by decide)).trans ((by show StableHlo.after hostOps1 (W2 m ρ c) (Proc.devRef .tc main_arg10) = _; after_results : W3 m ρ c (Proc.devRef .tc main_arg10) = W2 m ρ c (Proc.devRef .tc main_arg10)).trans ((W2_of_ne m ρ c main_arg10 (by decide)).trans (by show StableHlo.after hostOps0 (W0 m ρ c) (Proc.devRef .tc main_arg10) = _; after_results : W1 m ρ c (Proc.devRef .tc main_arg10) = W0 m ρ c (Proc.devRef .tc main_arg10))))))).trans rfl
theorem wo2 (c : Dev nD) : W5 m ρ c (Proc.devRef .tc main_arg12) = (m ((c : Thread nD τ).loc main_arg12)) :=
  (((by show StableHlo.after hostOps2 (W4 m ρ c) (Proc.devRef .tc main_arg12) = _; after_results : W5 m ρ c (Proc.devRef .tc main_arg12) = W4 m ρ c (Proc.devRef .tc main_arg12)).trans ((W4_of_ne m ρ c main_arg12 (by decide)).trans ((by show StableHlo.after hostOps1 (W2 m ρ c) (Proc.devRef .tc main_arg12) = _; after_results : W3 m ρ c (Proc.devRef .tc main_arg12) = W2 m ρ c (Proc.devRef .tc main_arg12)).trans ((W2_of_ne m ρ c main_arg12 (by decide)).trans (by show StableHlo.after hostOps0 (W0 m ρ c) (Proc.devRef .tc main_arg12) = _; after_results : W1 m ρ c (Proc.devRef .tc main_arg12) = W0 m ρ c (Proc.devRef .tc main_arg12))))))).trans rfl
theorem br2 (c : Dev nD) : W4 m ρ c (Proc.devRef .tc main_arg11) = (m ((c : Thread nD τ).loc main_arg11)) :=
  (((W4_of_ne m ρ c main_arg11 (by decide)).trans ((by show StableHlo.after hostOps1 (W2 m ρ c) (Proc.devRef .tc main_arg11) = _; after_results : W3 m ρ c (Proc.devRef .tc main_arg11) = W2 m ρ c (Proc.devRef .tc main_arg11)).trans ((W2_of_ne m ρ c main_arg11 (by decide)).trans (by show StableHlo.after hostOps0 (W0 m ρ c) (Proc.devRef .tc main_arg11) = _; after_results : W1 m ρ c (Proc.devRef .tc main_arg11) = W0 m ρ c (Proc.devRef .tc main_arg11)))))).trans rfl
theorem wr3 (c : Dev nD) : W7 m ρ c (Proc.devRef .tc main_arg13) = (m ((c : Thread nD τ).loc main_arg13)) :=
  (((W12_of_ne m ρ c main_arg13 (by decide)).trans ((by show StableHlo.after hostOps5 (W10 m ρ c) (Proc.devRef .tc main_arg13) = _; after_results : W11 m ρ c (Proc.devRef .tc main_arg13) = W10 m ρ c (Proc.devRef .tc main_arg13)).trans ((W10_of_ne m ρ c main_arg13 (by decide)).trans ((by show StableHlo.after hostOps4 (W8 m ρ c) (Proc.devRef .tc main_arg13) = _; after_results : W9 m ρ c (Proc.devRef .tc main_arg13) = W8 m ρ c (Proc.devRef .tc main_arg13)).trans ((W8_arr m ρ c 2).trans (((dat3 (V7 m ρ) c).arrAt_in 2 rfl _).trans (A_eq3 (V7 m ρ) c 2)))))))).symm.trans (W12_main_arg13 m ρ c)
theorem wo3 (c : Dev nD) : W7 m ρ c (Proc.devRef .tc main_arg15) = (m ((c : Thread nD τ).loc main_arg15)) :=
  (((W12_of_ne m ρ c main_arg15 (by decide)).trans ((by show StableHlo.after hostOps5 (W10 m ρ c) (Proc.devRef .tc main_arg15) = _; after_results : W11 m ρ c (Proc.devRef .tc main_arg15) = W10 m ρ c (Proc.devRef .tc main_arg15)).trans ((W10_of_ne m ρ c main_arg15 (by decide)).trans ((by show StableHlo.after hostOps4 (W8 m ρ c) (Proc.devRef .tc main_arg15) = _; after_results : W9 m ρ c (Proc.devRef .tc main_arg15) = W8 m ρ c (Proc.devRef .tc main_arg15)).trans ((W8_arr m ρ c 4).trans (((dat3 (V7 m ρ) c).arrAt_in 4 rfl _).trans (A_eq3 (V7 m ρ) c 4)))))))).symm.trans (W12_main_arg15 m ρ c)
theorem br3 (c : Dev nD) : W6 m ρ c (Proc.devRef .tc main_arg14) = (m ((c : Thread nD τ).loc main_arg14)) :=
  (((W12_of_ne m ρ c main_arg14 (by decide)).trans ((by show StableHlo.after hostOps5 (W10 m ρ c) (Proc.devRef .tc main_arg14) = _; after_results : W11 m ρ c (Proc.devRef .tc main_arg14) = W10 m ρ c (Proc.devRef .tc main_arg14)).trans ((W10_of_ne m ρ c main_arg14 (by decide)).trans ((by show StableHlo.after hostOps4 (W8 m ρ c) (Proc.devRef .tc main_arg14) = _; after_results : W9 m ρ c (Proc.devRef .tc main_arg14) = W8 m ρ c (Proc.devRef .tc main_arg14)).trans ((W8_of_ne m ρ c main_arg14 (by decide)).trans (by show StableHlo.after hostOps3 (W6 m ρ c) (Proc.devRef .tc main_arg14) = _; after_results : W7 m ρ c (Proc.devRef .tc main_arg14) = W6 m ρ c (Proc.devRef .tc main_arg14)))))))).symm.trans (W12_main_arg14 m ρ c)
theorem wr4 (c : Dev nD) : W9 m ρ c (Proc.devRef .tc main_arg16) = (m ((c : Thread nD τ).loc main_arg16)) :=
  (((W12_of_ne m ρ c main_arg16 (by decide)).trans ((by show StableHlo.after hostOps5 (W10 m ρ c) (Proc.devRef .tc main_arg16) = _; after_results : W11 m ρ c (Proc.devRef .tc main_arg16) = W10 m ρ c (Proc.devRef .tc main_arg16)).trans ((W10_arr m ρ c 2).trans (((dat4 (V9 m ρ) c).arrAt_in 2 rfl _).trans (A_eq4 (V9 m ρ) c 2)))))).symm.trans (W12_main_arg16 m ρ c)
theorem wo4 (c : Dev nD) : W9 m ρ c (Proc.devRef .tc main_arg18) = (m ((c : Thread nD τ).loc main_arg18)) :=
  (((W12_of_ne m ρ c main_arg18 (by decide)).trans ((by show StableHlo.after hostOps5 (W10 m ρ c) (Proc.devRef .tc main_arg18) = _; after_results : W11 m ρ c (Proc.devRef .tc main_arg18) = W10 m ρ c (Proc.devRef .tc main_arg18)).trans ((W10_arr m ρ c 4).trans (((dat4 (V9 m ρ) c).arrAt_in 4 rfl _).trans (A_eq4 (V9 m ρ) c 4)))))).symm.trans (W12_main_arg18 m ρ c)
theorem br4 (c : Dev nD) : W8 m ρ c (Proc.devRef .tc main_arg17) = (m ((c : Thread nD τ).loc main_arg17)) :=
  (((W12_of_ne m ρ c main_arg17 (by decide)).trans ((by show StableHlo.after hostOps5 (W10 m ρ c) (Proc.devRef .tc main_arg17) = _; after_results : W11 m ρ c (Proc.devRef .tc main_arg17) = W10 m ρ c (Proc.devRef .tc main_arg17)).trans ((W10_of_ne m ρ c main_arg17 (by decide)).trans (by show StableHlo.after hostOps4 (W8 m ρ c) (Proc.devRef .tc main_arg17) = _; after_results : W9 m ρ c (Proc.devRef .tc main_arg17) = W8 m ρ c (Proc.devRef .tc main_arg17)))))).symm.trans (W12_main_arg17 m ρ c)
theorem wl1 (c : Dev nD) : W11 m ρ c (Proc.devRef .tc main_arg19) = (m ((c : Thread nD τ).loc main_arg19)) :=
  (((W12_arr m ρ c 1).trans (((dat5 (V11 m ρ) c).arrAt_in 1 rfl _).trans (A_eq5 (V11 m ρ) c 1)))).symm.trans (W12_main_arg19 m ρ c)
theorem wl2 (c : Dev nD) : W11 m ρ c (Proc.devRef .tc main_arg21) = (m ((c : Thread nD τ).loc main_arg21)) :=
  (((W12_arr m ρ c 3).trans (((dat5 (V11 m ρ) c).arrAt_in 3 rfl _).trans (A_eq5 (V11 m ρ) c 3)))).symm.trans (W12_main_arg21 m ρ c)
theorem bl1 (c : Dev nD) : W10 m ρ c (Proc.devRef .tc main_arg20) = (m ((c : Thread nD τ).loc main_arg20)) :=
  (((W12_of_ne m ρ c main_arg20 (by decide)).trans (by show StableHlo.after hostOps5 (W10 m ρ c) (Proc.devRef .tc main_arg20) = _; after_results : W11 m ρ c (Proc.devRef .tc main_arg20) = W10 m ρ c (Proc.devRef .tc main_arg20)))).symm.trans (W12_main_arg20 m ρ c)
theorem bl2 (c : Dev nD) : W10 m ρ c (Proc.devRef .tc main_arg22) = (m ((c : Thread nD τ).loc main_arg22)) :=
  (((W12_of_ne m ρ c main_arg22 (by decide)).trans (by show StableHlo.after hostOps5 (W10 m ρ c) (Proc.devRef .tc main_arg22) = _; after_results : W11 m ρ c (Proc.devRef .tc main_arg22) = W10 m ρ c (Proc.devRef .tc main_arg22)))).symm.trans (W12_main_arg22 m ρ c)
theorem batch10 (c : Dev nD) : W10 m ρ c (Proc.devRef .tc main_arg2) = (m ((c : Thread nD τ).loc main_arg2)) :=
  (((W12_of_ne m ρ c main_arg2 (by decide)).trans (by show StableHlo.after hostOps5 (W10 m ρ c) (Proc.devRef .tc main_arg2) = _; after_results : W11 m ρ c (Proc.devRef .tc main_arg2) = W10 m ρ c (Proc.devRef .tc main_arg2)))).symm.trans (W12_main_arg2 m ρ c)

end Cert.KernelIdeal.Hand

end
-- ==== Proof.LibDot.lean ====
/-
  A two-axis matrix product read at an index, at the extended reals. For dimension numbers that contract the
  left operand's second axis with the right operand's first and have no batch axis, the kernel's matrix product into
  a zero accumulator and the host's general dot product are both, at row `p` and column `q`, the sum over the
  contracted coordinate `k` of the left operand at `(p, k)` times the right operand at `(k, q)`.
-/
import Idealize.ShloMosaic.PureOps.Ideal.Laws
import Idealize.ShloMosaic.Lib.ValueIdx

noncomputable section

open scoped BigOperators

namespace Cert.LibDot

open Idealize.ShloMosaic Idealize.ShloMosaic.ValueIdx

variable {A K B : ℕ} {φ₁ φ₂ : FTy}

/-- Reading an index at two equal positions gives equal coordinates. -/
private theorem coord_congr {s : Shape} (j : s.Idx) (a b : Nat) (ha : a < s.rank) (hb : b < s.rank) (h : a = b) :
    (j ⟨a, ha⟩).val = (j ⟨b, hb⟩).val := by subst h; rfl

/-- The left operand's index has the output's row. -/
theorem lhsIdx_row (d : DotDims ⟨2, ![A, K]⟩ ⟨2, ![K, B]⟩ ⟨2, ![A, B]⟩)
    (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's index has the output's column. -/
theorem rhsIdx_col (d : DotDims ⟨2, ![A, K]⟩ ⟨2, ![K, B]⟩ ⟨2, ![A, B]⟩)
    (hlb : d.lhsBatch = []) (hln : d.lhsNonContracting = [0])
    (hrb : d.rhsBatch = []) (hrn : d.rhsNonContracting = [1])
    (j : (⟨2, ![A, B]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction sum re-indexed by the contracted coordinate. -/
theorem plain_sum (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (l : FVec Ideal ⟨2, ![A, K]⟩ φ₁) (r : FVec Ideal ⟨2, ![K, B]⟩ φ₂) (p : Fin A) (q : Fin B) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhsIdx_col d hlb hln hrb hrn _ _)
  rw [el, er]

/-- The kernel's matrix product into a zero accumulator, at `(p, q)`. -/
theorem matmul_zero_apply (d : DotDims ⟨2, ![A, K]⟩ ⟨2, ![K, B]⟩ ⟨2, ![A, B]⟩) (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (l : FVec Ideal ⟨2, ![A, K]⟩ φ₁) (r : FVec Ideal ⟨2, ![K, B]⟩ φ₂) (p : Fin A) (q : Fin B) :
    matmul d prec l r (constant (F := Ideal) ⟨2, ![A, B]⟩ .f32 0x00000000#32) (ix2 p q) = ∑ k : Fin K, l (ix2 p k) * r (ix2 k q) := by
  simp only [matmul]
  rw [Ideal.matmul_constant_zero_apply]
  exact plain_sum d hlb hln hlc hrb hrn hrc hr hs l r p q

/-- The host's general dot product, at `(p, q)`. -/
theorem dotGeneral_apply (d : DotDims ⟨2, ![A, K]⟩ ⟨2, ![K, B]⟩ ⟨2, ![A, B]⟩) (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (l : FVec Ideal ⟨2, ![A, K]⟩ φ₁) (r : FVec Ideal ⟨2, ![K, B]⟩ φ₂) (p : Fin A) (q : Fin B) :
    Host.dotGeneral d prec l r (ix2 p q) = ∑ k : Fin K, l (ix2 p k) * r (ix2 k q) := by
  simp only [Host.dotGeneral]
  rw [Ideal.dotGeneral_apply]
  exact plain_sum d hlb hln hlc hrb hrn hrc hr hs l r p q

end Cert.LibDot

end
-- ==== Proof.LayerSpec.lean ====
/-
  One graph-convolution layer as a function of its five arrays, index by index, at the extended reals:
  at row `p` and column `q` the result is
      max ( (Σ_k agg[p,k]·Wrel[k,q]) + b[0,q] + (Σ_k x[p,k]·Wroot[k,q]) , 0 ),
  the aggregated neighbours' messages through `Wrel`, plus the bias, plus the node's own features through `Wroot`,
  clipped below at zero. The bias is the one-row array `[1, M]`.
-/
import Idealize.ShloMosaic.PureOps.Ideal.Laws
import Idealize.ShloMosaic.Lib.ValueIdx

noncomputable section

open scoped BigOperators

namespace Cert.Net

open Idealize.ShloMosaic Idealize.ShloMosaic.ValueIdx

/-- The layer at row `p`, column `q`. -/
def layerAt {N K M : ℕ} (agg x : FVec Ideal ⟨2, ![N, K]⟩ .f32) (wr wo : FVec Ideal ⟨2, ![K, M]⟩ .f32)
    (b : FVec Ideal ⟨2, ![1, M]⟩ .f32) (p : Fin N) (q : Fin M) : EReal :=
  max (((∑ k : Fin K, agg (ix2 p k) * wr (ix2 k q)) + b (ix2 (0 : Fin 1) q)) + ∑ k : Fin K, x (ix2 p k) * wo (ix2 k q)) 0

/-- The layer as an array `[N, M]`. -/
def layer {N K M : ℕ} (agg x : FVec Ideal ⟨2, ![N, K]⟩ .f32) (wr wo : FVec Ideal ⟨2, ![K, M]⟩ .f32)
    (b : FVec Ideal ⟨2, ![1, M]⟩ .f32) : FVec Ideal ⟨2, ![N, M]⟩ .f32 :=
  fun i => layerAt agg x wr wo b ⟨(i 0).val, idx2_lt0 i⟩ ⟨(i 1).val, idx2_lt1 i⟩

theorem layer_ix2 {N K M : ℕ} (agg x : FVec Ideal ⟨2, ![N, K]⟩ .f32) (wr wo : FVec Ideal ⟨2, ![K, M]⟩ .f32)
    (b : FVec Ideal ⟨2, ![1, M]⟩ .f32) (p : Fin N) (q : Fin M) :
    layer agg x wr wo b (ix2 p q) = layerAt agg x wr wo b p q := rfl

/-- The layer's row `p` depends on row `p` of `agg` and of `x` only: two pairs of arrays that agree on
    that row (possibly at different row positions `p` and `p'` of arrays of different heights) give the same value. -/
theorem layerAt_congr {N N' K M : ℕ} (agg x : FVec Ideal ⟨2, ![N, K]⟩ .f32) (agg' x' : FVec Ideal ⟨2, ![N', K]⟩ .f32)
    (wr wo : FVec Ideal ⟨2, ![K, M]⟩ .f32) (b : FVec Ideal ⟨2, ![1, M]⟩ .f32) (p : Fin N) (p' : Fin N') (q : Fin M)
    (hagg : ∀ k : Fin K, agg (ix2 p k) = agg' (ix2 p' k)) (hx : ∀ k : Fin K, x (ix2 p k) = x' (ix2 p' k)) :
    layerAt agg x wr wo b p q = layerAt agg' x' wr wo b p' q := by
  unfold layerAt
  simp only [hagg, hx]

end Cert.Net

end
-- ==== Proof.KPay.lean ====
/-
  The body of each of the five linear-combine kernels, read at row `p` and column `q` of its block of 10000 rows,
  at the extended reals: the two matrix products into zero accumulators are sums over the contracted coordinate, the
  format changes are the identity, the one-row bias is spread over the rows, and the clip at zero is a maximum. So the
  block's entry is the layer (`Cert.Net.layerAt`) of the five loaded blocks.
-/
import proofs.«180868_j61280593379653_1_alg».proof.Proof.Gen.KernelIdeal.Skeleton
import proofs.«180868_j61280593379653_1_alg».proof.Proof.LibDot
import proofs.«180868_j61280593379653_1_alg».proof.Proof.LayerSpec
import Idealize.ShloMosaic.Lib.Pipeline.Value
import Idealize.ShloMosaic.Lib.ValueIdx
import Idealize.ShloMosaic.Lib.ValueLayout

noncomputable section

open scoped BigOperators

namespace Cert.KernelIdeal.Hand

open Cert.KernelIdeal Cert.KernelIdeal.Gen Idealize.ShloMosaic Idealize.ShloMosaic.ValueIdx Cert.Net

theorem pay0_apply (agg x : FVec Ideal S10000x128 .f32) (wr wo : FVec Ideal S128x32 .f32) (b : FVec Ideal S1x32 .f32)
    (p : Fin 10000) (q : Fin 32) :
    k0_pay1 (F := Ideal) agg x wr wo b (ix2 p q) = layerAt agg x wr wo b p q := by
  unfold k0_pay1 layerAt
  simp only [shapeCast_self]
  rw [maximumf_apply, addf_apply, addf_apply,
    LibDot.matmul_zero_apply dot_S10000x128_S128x32_S10000x32_1_0_0_1_n_n none rfl rfl rfl rfl rfl rfl rfl rfl,
    LibDot.matmul_zero_apply dot_S10000x128_S128x32_S10000x32_1_0_0_1_n_n none rfl rfl rfl rfl rfl rfl rfl rfl,
    broadcastTo_1b_ab_apply, broadcast_apply]
  simp only [truncf_apply]
  rw [show (Scalar.ofBits (F := Ideal) .f32 0x00000000#32) = (0 : EReal) from Ideal.ofBits_zero_f32]

theorem pay1_apply (agg x : FVec Ideal S10000x32 .f32) (wr wo : FVec Ideal S32x32 .f32) (b : FVec Ideal S1x32 .f32)
    (p : Fin 10000) (q : Fin 32) :
    k1_pay1 (F := Ideal) agg x wr wo b (ix2 p q) = layerAt agg x wr wo b p q := by
  unfold k1_pay1 layerAt
  simp only [shapeCast_self]
  rw [maximumf_apply, addf_apply, addf_apply,
    LibDot.matmul_zero_apply dot_S10000x32_S32x32_S10000x32_1_0_0_1_n_n none rfl rfl rfl rfl rfl rfl rfl rfl,
    LibDot.matmul_zero_apply dot_S10000x32_S32x32_S10000x32_1_0_0_1_n_n none rfl rfl rfl rfl rfl rfl rfl rfl,
    broadcastTo_1b_ab_apply, broadcast_apply]
  simp only [truncf_apply]
  rw [show (Scalar.ofBits (F := Ideal) .f32 0x00000000#32) = (0 : EReal) from Ideal.ofBits_zero_f32]

theorem pay2_apply (agg x : FVec Ideal S10000x32 .f32) (wr wo : FVec Ideal S32x32 .f32) (b : FVec Ideal S1x32 .f32)
    (p : Fin 10000) (q : Fin 32) :
    k2_pay1 (F := Ideal) agg x wr wo b (ix2 p q) = layerAt agg x wr wo b p q := by
  unfold k2_pay1 layerAt
  simp only [shapeCast_self]
  rw [maximumf_apply, addf_apply, addf_apply,
    LibDot.matmul_zero_apply dot_S10000x32_S32x32_S10000x32_1_0_0_1_n_n none rfl rfl rfl rfl rfl rfl rfl rfl,
    LibDot.matmul_zero_apply dot_S10000x32_S32x32_S10000x32_1_0_0_1_n_n none rfl rfl rfl rfl rfl rfl rfl rfl,
    broadcastTo_1b_ab_apply, broadcast_apply]
  simp only [truncf_apply]
  rw [show (Scalar.ofBits (F := Ideal) .f32 0x00000000#32) = (0 : EReal) from Ideal.ofBits_zero_f32]

theorem pay3_apply (agg x : FVec Ideal S10000x32 .f32) (wr wo : FVec Ideal S32x32 .f32) (b : FVec Ideal S1x32 .f32)
    (p : Fin 10000) (q : Fin 32) :
    k3_pay1 (F := Ideal) agg x wr wo b (ix2 p q) = layerAt agg x wr wo b p q := by
  unfold k3_pay1 layerAt
  simp only [shapeCast_self]
  rw [maximumf_apply, addf_apply, addf_apply,
    LibDot.matmul_zero_apply dot_S10000x32_S32x32_S10000x32_1_0_0_1_n_n none rfl rfl rfl rfl rfl rfl rfl rfl,
    LibDot.matmul_zero_apply dot_S10000x32_S32x32_S10000x32_1_0_0_1_n_n none rfl rfl rfl rfl rfl rfl rfl rfl,
    broadcastTo_1b_ab_apply, broadcast_apply]
  simp only [truncf_apply]
  rw [show (Scalar.ofBits (F := Ideal) .f32 0x00000000#32) = (0 : EReal) from Ideal.ofBits_zero_f32]

theorem pay4_apply (agg x : FVec Ideal S10000x32 .f32) (wr wo : FVec Ideal S32x32 .f32) (b : FVec Ideal S1x32 .f32)
    (p : Fin 10000) (q : Fin 32) :
    k4_pay1 (F := Ideal) agg x wr wo b (ix2 p q) = layerAt agg x wr wo b p q := by
  unfold k4_pay1 layerAt
  simp only [shapeCast_self]
  rw [maximumf_apply, addf_apply, addf_apply,
    LibDot.matmul_zero_apply dot_S10000x32_S32x32_S10000x32_1_0_0_1_n_n none rfl rfl rfl rfl rfl rfl rfl rfl,
    LibDot.matmul_zero_apply dot_S10000x32_S32x32_S10000x32_1_0_0_1_n_n none rfl rfl rfl rfl rfl rfl rfl rfl,
    broadcastTo_1b_ab_apply, broadcast_apply]
  simp only [truncf_apply]
  rw [show (Scalar.ofBits (F := Ideal) .f32 0x00000000#32) = (0 : EReal) from Ideal.ofBits_zero_f32]

end Cert.KernelIdeal.Hand

end
-- ==== Proof.Region0.lean ====
/-
  Region 0: the array the linear-combine kernel leaves in its output buffer, as a function of the five arrays it
  finds when it is entered. The grid has ten points; point `t` reads rows `10000·t … 10000·t + 9999` of the two
  node-feature arrays and the whole of the two weight arrays and of the bias row, and writes the same rows of the
  output. A row of the layer depends on that row of the node-feature arrays only, so each written block is the
  corresponding block of the layer of the whole arrays, and the ten blocks tile the output.
-/
import proofs.«180868_j61280593379653_1_alg».proof.Proof.Gen.KernelIdeal.Frame
import proofs.«180868_j61280593379653_1_alg».proof.Proof.KPay
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.Net
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- An entry of a block's payload is the layer of the whole arrays at the corresponding row, when the two
    node-feature blocks are rows `10000·T …` of their arrays. -/
theorem pay0_block (agg x : FVec Ideal S100000x128 .f32) (wr wo : FVec Ideal S128x32 .f32) (b : FVec Ideal S1x32 .f32)
    (aggB xB : FVec Ideal S10000x128 .f32) (T : ℕ)
    (hagg : ∀ (p : Fin 10000) (k : Fin 128) (i : S100000x128.Idx), (i 0).val = T * 10000 + p.val → (i 1).val = k.val → aggB (ix2 p k) = agg i)
    (hx : ∀ (p : Fin 10000) (k : Fin 128) (i : S100000x128.Idx), (i 0).val = T * 10000 + p.val → (i 1).val = k.val → xB (ix2 p k) = x i)
    (j : S10000x32.Idx) (i : S100000x32.Idx) (hi0 : (i 0).val = T * 10000 + (j 0).val) (hi1 : (i 1).val = (j 1).val) :
    k0_pay1 (F := Ideal) aggB xB wr wo b j = layer agg x wr wo b i := by
  obtain ⟨p, q, rfl⟩ : ∃ (p : Fin 10000) (q : Fin 32), j = ix2 p q := ⟨j 0, j 1, eq_ix2 j⟩
  rw [pay0_apply]
  unfold layer
  have hq : (⟨(i 1).val, idx2_lt1 i⟩ : Fin 32) = q := Fin.ext hi1
  rw [hq]
  exact layerAt_congr aggB xB agg x wr wo b p ⟨(i 0).val, idx2_lt0 i⟩ q
    (fun k => hagg p k _ hi0 rfl) (fun k => hx p k _ hi0 rfl)

/-- The printed index maps, decided over the grid: the two node-feature windows and the output window are at block
    `t` of the rows, the weights and the bias at their one block. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the arrays the region finds. -/
abbrev G0 (c : Dev nD) : S100000x32.Idx → Elt Ideal .f32 :=
  layer (V c main_v16) (V c main_arg0) (V c main_arg4) (V c main_arg6) (V c main_v17)

/-- A whole-array window's block is the array. -/
theorem iblk0_2 (c : Dev nD) (t : Fin cfg0.N) : (iblk0 V c 2 t : S128x32.Idx → Elt Ideal .f32) = V c main_arg4 := by
  obtain ⟨-, -, -, -, e0, e1, -⟩ := idx_facts0 t
  funext y
  show V c main_arg4 (((cfg0.win 2).blk t).view.emb y) = V c main_arg4 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 32 + 1 * (y 1).val = (y 1).val; rw [e1]; omega
theorem iblk0_3 (c : Dev nD) (t : Fin cfg0.N) : (iblk0 V c 3 t : S1x32.Idx → Elt Ideal .f32) = V c main_v17 := by
  obtain ⟨-, -, -, -, -, -, e0, e1, -⟩ := idx_facts0 t
  funext y
  show V c main_v17 (((cfg0.win 3).blk t).view.emb y) = V c main_v17 y
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 32 + 1 * (y 1).val = (y 1).val; rw [e1]; omega
theorem iblk0_4 (c : Dev nD) (t : Fin cfg0.N) : (iblk0 V c 4 t : S128x32.Idx → Elt Ideal .f32) = V c main_arg6 := by
  obtain ⟨-, -, -, -, -, -, -, -, e0, e1, -⟩ := idx_facts0 t
  funext y
  show V c main_arg6 (((cfg0.win 4).blk t).view.emb y) = V c main_arg6 y
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 32 + 1 * (y 1).val = (y 1).val; rw [e1]; omega

/-- A node-feature window's block at point `t` is rows `10000·t …` of its array. -/
theorem iblk0_0 (c : Dev nD) (t : Fin cfg0.N) (p : Fin 10000) (k : Fin 128) (i : S100000x128.Idx)
    (h0 : (i 0).val = t.val * 10000 + p.val) (h1 : (i 1).val = k.val) :
    (iblk0 V c 0 t : S10000x128.Idx → Elt Ideal .f32) (ix2 p k) = V c main_v16 i := by
  obtain ⟨e0, e1, -⟩ := idx_facts0 t
  show V c main_v16 (((cfg0.win 0).blk t).view.emb (ix2 p k)) = V c main_v16 i
  refine congrArg _ (funext fun a => Fin.ext ?_)
  match a with
  | ⟨0, _⟩ => show win0_0.index t (0 : Fin 2) * 10000 + 1 * p.val = (i 0).val; rw [e0, h0]; omega
  | ⟨1, _⟩ => show win0_0.index t (1 : Fin 2) * 128 + 1 * k.val = (i 1).val; rw [e1, h1]; omega
theorem iblk0_1 (c : Dev nD) (t : Fin cfg0.N) (p : Fin 10000) (k : Fin 128) (i : S100000x128.Idx)
    (h0 : (i 0).val = t.val * 10000 + p.val) (h1 : (i 1).val = k.val) :
    (iblk0 V c 1 t : S10000x128.Idx → Elt Ideal .f32) (ix2 p k) = V c main_arg0 i := by
  obtain ⟨-, -, e0, e1, -⟩ := idx_facts0 t
  show V c main_arg0 (((cfg0.win 1).blk t).view.emb (ix2 p k)) = V c main_arg0 i
  refine congrArg _ (funext fun a => Fin.ext ?_)
  match a with
  | ⟨0, _⟩ => show win0_1.index t (0 : Fin 2) * 10000 + 1 * p.val = (i 0).val; rw [e0, h0]; omega
  | ⟨1, _⟩ => show win0_1.index t (1 : Fin 2) * 128 + 1 * k.val = (i 1).val; rw [e1, h1]; omega

/-- What point `t` writes back is block `t` of the layer of the arrays the region finds. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz0]
  simp only [View.ld_unit_zero (S := S10000x128) hz0, View.ld_unit_zero (S := S128x32) hz0, View.ld_unit_zero (S := S1x32) hz0]
  rw [iblk0_2, iblk0_3, iblk0_4]
  obtain ⟨-, -, -, -, -, -, -, -, -, -, e0, e1⟩ := idx_facts0 t
  funext j
  show k0_pay1 (F := Ideal) (iblk0 V c 0 t) (iblk0 V c 1 t) (V c main_arg4) (V c main_arg6) (V c main_v17) j
    = layer (V c main_v16) (V c main_arg0) (V c main_arg4) (V c main_arg6) (V c main_v17) (((cfg0.win 5).blk t).view.emb j)
  refine pay0_block (V c main_v16) (V c main_arg0) (V c main_arg4) (V c main_arg6) (V c main_v17) (iblk0 V c 0 t) (iblk0 V c 1 t) t.val
    (fun p k i h0 h1 => iblk0_0 V c t p k i h0 h1) (fun p k i h0 h1 => iblk0_1 V c t p k i h0 h1) j _ ?_ ?_
  · show win0_5.index t (0 : Fin 2) * 10000 + 1 * (j 0).val = t.val * 10000 + (j 0).val; rw [e0]; omega
  · show win0_5.index t (1 : Fin 2) * 32 + 1 * (j 1).val = (j 1).val; rw [e1]; omega

/-- Every index of the output array is in the block of the point its row falls in. -/
theorem cover0 (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  obtain ⟨t, htv⟩ : ∃ t : Fin cfg0.N, t.val = (i 0).val / 10000 :=
    ⟨⟨(i 0).val / 10000, by have h1 : cfg0.N = 10 := N_0; have h2 : grid0.N = 10 := N_0; omega⟩, rfl⟩
  refine ⟨t, flush0_5 t, ?_⟩
  obtain ⟨-, -, -, -, -, -, -, -, -, -, e0, e1⟩ := idx_facts0 t
  show i ∈ ((View.whole main_v18).slice (win0_5.rect t)).set
  rw [View.set_slice_whole, Rect.mem_set_unit]
  intro a
  match a with
  | ⟨0, _⟩ =>
    show win0_5.index t (0 : Fin 2) * 10000 ≤ (i 0).val ∧ (i 0).val < win0_5.index t (0 : Fin 2) * 10000 + 10000
    rw [e0, htv]; omega
  | ⟨1, _⟩ =>
    show win0_5.index t (1 : Fin 2) * 32 ≤ (i 1).val ∧ (i 1).val < win0_5.index t (1 : Fin 2) * 32 + 32
    rw [e1]; omega

/-- The output array after the region: the layer of the arrays the region finds. -/
theorem final0 (c : Dev nD) : (dat0 V c).arrAt 5 cfg0.N = G0 V c :=
  (dat0 V c).arrAt_eq_of_cover 5 (G0 V c) (fun t _ => flushed0_eq V c t) (cover0)

end Cert.KernelIdeal.Hand

end
-- ==== Proof.Region1.lean ====
/-
  Region 1: the array the linear-combine kernel leaves in its output buffer, as a function of the five arrays it
  finds when it is entered. The grid has ten points; point `t` reads rows `10000·t … 10000·t + 9999` of the two
  node-feature arrays and the whole of the two weight arrays and of the bias row, and writes the same rows of the
  output. A row of the layer depends on that row of the node-feature arrays only, so each written block is the
  corresponding block of the layer of the whole arrays, and the ten blocks tile the output.
-/
import proofs.«180868_j61280593379653_1_alg».proof.Proof.Gen.KernelIdeal.Frame
import proofs.«180868_j61280593379653_1_alg».proof.Proof.KPay
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.Net
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- An entry of a block's payload is the layer of the whole arrays at the corresponding row, when the two
    node-feature blocks are rows `10000·T …` of their arrays. -/
theorem pay1_block (agg x : FVec Ideal S100000x32 .f32) (wr wo : FVec Ideal S32x32 .f32) (b : FVec Ideal S1x32 .f32)
    (aggB xB : FVec Ideal S10000x32 .f32) (T : ℕ)
    (hagg : ∀ (p : Fin 10000) (k : Fin 32) (i : S100000x32.Idx), (i 0).val = T * 10000 + p.val → (i 1).val = k.val → aggB (ix2 p k) = agg i)
    (hx : ∀ (p : Fin 10000) (k : Fin 32) (i : S100000x32.Idx), (i 0).val = T * 10000 + p.val → (i 1).val = k.val → xB (ix2 p k) = x i)
    (j : S10000x32.Idx) (i : S100000x32.Idx) (hi0 : (i 0).val = T * 10000 + (j 0).val) (hi1 : (i 1).val = (j 1).val) :
    k1_pay1 (F := Ideal) aggB xB wr wo b j = layer agg x wr wo b i := by
  obtain ⟨p, q, rfl⟩ : ∃ (p : Fin 10000) (q : Fin 32), j = ix2 p q := ⟨j 0, j 1, eq_ix2 j⟩
  rw [pay1_apply]
  unfold layer
  have hq : (⟨(i 1).val, idx2_lt1 i⟩ : Fin 32) = q := Fin.ext hi1
  rw [hq]
  exact layerAt_congr aggB xB agg x wr wo b p ⟨(i 0).val, idx2_lt0 i⟩ q
    (fun k => hagg p k _ hi0 rfl) (fun k => hx p k _ hi0 rfl)

/-- The printed index maps, decided over the grid: the two node-feature windows and the output window are at block
    `t` of the rows, the weights and the bias at their one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer of the arrays the region finds. -/
abbrev G1 (c : Dev nD) : S100000x32.Idx → Elt Ideal .f32 :=
  layer (V c main_v31) (V c main_v18) (V c main_arg7) (V c main_arg9) (V c main_v32)

/-- A whole-array window's block is the array. -/
theorem iblk1_2 (c : Dev nD) (t : Fin cfg1.N) : (iblk1 V c 2 t : S32x32.Idx → Elt Ideal .f32) = V c main_arg7 := by
  obtain ⟨-, -, -, -, e0, e1, -⟩ := idx_facts1 t
  funext y
  show V c main_arg7 (((cfg1.win 2).blk t).view.emb y) = V c main_arg7 y
  refine congrArg _ (funext fun a => Fin.ext ?_)
  match a with
  | ⟨0, _⟩ => show win1_2.index t (0 : Fin 2) * 32 + 1 * (y 0).val = (y 0).val; rw [e0]; omega
  | ⟨1, _⟩ => show win1_2.index t (1 : Fin 2) * 32 + 1 * (y 1).val = (y 1).val; rw [e1]; omega
theorem iblk1_3 (c : Dev nD) (t : Fin cfg1.N) : (iblk1 V c 3 t : S1x32.Idx → Elt Ideal .f32) = V c main_v32 := by
  obtain ⟨-, -, -, -, -, -, e0, e1, -⟩ := idx_facts1 t
  funext y
  show V c main_v32 (((cfg1.win 3).blk t).view.emb y) = V c main_v32 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 32 + 1 * (y 1).val = (y 1).val; rw [e1]; omega
theorem iblk1_4 (c : Dev nD) (t : Fin cfg1.N) : (iblk1 V c 4 t : S32x32.Idx → Elt Ideal .f32) = V c main_arg9 := by
  obtain ⟨-, -, -, -, -, -, -, -, e0, e1, -⟩ := idx_facts1 t
  funext y
  show V c main_arg9 (((cfg1.win 4).blk t).view.emb y) = V c main_arg9 y
  refine congrArg _ (funext fun a => Fin.ext ?_)
  match a with
  | ⟨0, _⟩ => show win1_4.index t (0 : Fin 2) * 32 + 1 * (y 0).val = (y 0).val; rw [e0]; omega
  | ⟨1, _⟩ => show win1_4.index t (1 : Fin 2) * 32 + 1 * (y 1).val = (y 1).val; rw [e1]; omega

/-- A node-feature window's block at point `t` is rows `10000·t …` of its array. -/
theorem iblk1_0 (c : Dev nD) (t : Fin cfg1.N) (p : Fin 10000) (k : Fin 32) (i : S100000x32.Idx)
    (h0 : (i 0).val = t.val * 10000 + p.val) (h1 : (i 1).val = k.val) :
    (iblk1 V c 0 t : S10000x32.Idx → Elt Ideal .f32) (ix2 p k) = V c main_v31 i := by
  obtain ⟨e0, e1, -⟩ := idx_facts1 t
  show V c main_v31 (((cfg1.win 0).blk t).view.emb (ix2 p k)) = V c main_v31 i
  refine congrArg _ (funext fun a => Fin.ext ?_)
  match a with
  | ⟨0, _⟩ => show win1_0.index t (0 : Fin 2) * 10000 + 1 * p.val = (i 0).val; rw [e0, h0]; omega
  | ⟨1, _⟩ => show win1_0.index t (1 : Fin 2) * 32 + 1 * k.val = (i 1).val; rw [e1, h1]; omega
theorem iblk1_1 (c : Dev nD) (t : Fin cfg1.N) (p : Fin 10000) (k : Fin 32) (i : S100000x32.Idx)
    (h0 : (i 0).val = t.val * 10000 + p.val) (h1 : (i 1).val = k.val) :
    (iblk1 V c 1 t : S10000x32.Idx → Elt Ideal .f32) (ix2 p k) = V c main_v18 i := by
  obtain ⟨-, -, e0, e1, -⟩ := idx_facts1 t
  show V c main_v18 (((cfg1.win 1).blk t).view.emb (ix2 p k)) = V c main_v18 i
  refine congrArg _ (funext fun a => Fin.ext ?_)
  match a with
  | ⟨0, _⟩ => show win1_1.index t (0 : Fin 2) * 10000 + 1 * p.val = (i 0).val; rw [e0, h0]; omega
  | ⟨1, _⟩ => show win1_1.index t (1 : Fin 2) * 32 + 1 * k.val = (i 1).val; rw [e1, h1]; omega

/-- What point `t` writes back is block `t` of the layer of the arrays the region finds. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz1]
  simp only [View.ld_unit_zero (S := S10000x32) hz1, View.ld_unit_zero (S := S32x32) hz1, View.ld_unit_zero (S := S1x32) hz1]
  rw [iblk1_2, iblk1_3, iblk1_4]
  obtain ⟨-, -, -, -, -, -, -, -, -, -, e0, e1⟩ := idx_facts1 t
  funext j
  show k1_pay1 (F := Ideal) (iblk1 V c 0 t) (iblk1 V c 1 t) (V c main_arg7) (V c main_arg9) (V c main_v32) j
    = layer (V c main_v31) (V c main_v18) (V c main_arg7) (V c main_arg9) (V c main_v32) (((cfg1.win 5).blk t).view.emb j)
  refine pay1_block (V c main_v31) (V c main_v18) (V c main_arg7) (V c main_arg9) (V c main_v32) (iblk1 V c 0 t) (iblk1 V c 1 t) t.val
    (fun p k i h0 h1 => iblk1_0 V c t p k i h0 h1) (fun p k i h0 h1 => iblk1_1 V c t p k i h0 h1) j _ ?_ ?_
  · show win1_5.index t (0 : Fin 2) * 10000 + 1 * (j 0).val = t.val * 10000 + (j 0).val; rw [e0]; omega
  · show win1_5.index t (1 : Fin 2) * 32 + 1 * (j 1).val = (j 1).val; rw [e1]; omega

/-- Every index of the output array is in the block of the point its row falls in. -/
theorem cover1 (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, htv⟩ : ∃ t : Fin cfg1.N, t.val = (i 0).val / 10000 :=
    ⟨⟨(i 0).val / 10000, by have h1 : cfg1.N = 10 := N_1; have h2 : grid1.N = 10 := N_1; omega⟩, rfl⟩
  refine ⟨t, flush1_5 t, ?_⟩
  obtain ⟨-, -, -, -, -, -, -, -, -, -, e0, e1⟩ := idx_facts1 t
  show i ∈ ((View.whole main_v33).slice (win1_5.rect t)).set
  rw [View.set_slice_whole, Rect.mem_set_unit]
  intro a
  match a with
  | ⟨0, _⟩ =>
    show win1_5.index t (0 : Fin 2) * 10000 ≤ (i 0).val ∧ (i 0).val < win1_5.index t (0 : Fin 2) * 10000 + 10000
    rw [e0, htv]; omega
  | ⟨1, _⟩ =>
    show win1_5.index t (1 : Fin 2) * 32 ≤ (i 1).val ∧ (i 1).val < win1_5.index t (1 : Fin 2) * 32 + 32
    rw [e1]; omega

/-- The output array after the region: the layer of the arrays the region finds. -/
theorem final1 (c : Dev nD) : (dat1 V c).arrAt 5 cfg1.N = G1 V c :=
  (dat1 V c).arrAt_eq_of_cover 5 (G1 V c) (fun t _ => flushed1_eq V c t) (cover1)

end Cert.KernelIdeal.Hand

end
-- ==== Proof.Region2.lean ====
/-
  Region 2: the array the linear-combine kernel leaves in its output buffer, as a function of the five arrays it
  finds when it is entered. The grid has ten points; point `t` reads rows `10000·t … 10000·t + 9999` of the two
  node-feature arrays and the whole of the two weight arrays and of the bias row, and writes the same rows of the
  output. A row of the layer depends on that row of the node-feature arrays only, so each written block is the
  corresponding block of the layer of the whole arrays, and the ten blocks tile the output.
-/
import proofs.«180868_j61280593379653_1_alg».proof.Proof.Gen.KernelIdeal.Frame
import proofs.«180868_j61280593379653_1_alg».proof.Proof.KPay
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.Net
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- An entry of a block's payload is the layer of the whole arrays at the corresponding row, when the two
    node-feature blocks are rows `10000·T …` of their arrays. -/
theorem pay2_block (agg x : FVec Ideal S100000x32 .f32) (wr wo : FVec Ideal S32x32 .f32) (b : FVec Ideal S1x32 .f32)
    (aggB xB : FVec Ideal S10000x32 .f32) (T : ℕ)
    (hagg : ∀ (p : Fin 10000) (k : Fin 32) (i : S100000x32.Idx), (i 0).val = T * 10000 + p.val → (i 1).val = k.val → aggB (ix2 p k) = agg i)
    (hx : ∀ (p : Fin 10000) (k : Fin 32) (i : S100000x32.Idx), (i 0).val = T * 10000 + p.val → (i 1).val = k.val → xB (ix2 p k) = x i)
    (j : S10000x32.Idx) (i : S100000x32.Idx) (hi0 : (i 0).val = T * 10000 + (j 0).val) (hi1 : (i 1).val = (j 1).val) :
    k2_pay1 (F := Ideal) aggB xB wr wo b j = layer agg x wr wo b i := by
  obtain ⟨p, q, rfl⟩ : ∃ (p : Fin 10000) (q : Fin 32), j = ix2 p q := ⟨j 0, j 1, eq_ix2 j⟩
  rw [pay2_apply]
  unfold layer
  have hq : (⟨(i 1).val, idx2_lt1 i⟩ : Fin 32) = q := Fin.ext hi1
  rw [hq]
  exact layerAt_congr aggB xB agg x wr wo b p ⟨(i 0).val, idx2_lt0 i⟩ q
    (fun k => hagg p k _ hi0 rfl) (fun k => hx p k _ hi0 rfl)

/-- The printed index maps, decided over the grid: the two node-feature windows and the output window are at block
    `t` of the rows, the weights and the bias at their one block. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer of the arrays the region finds. -/
abbrev G2 (c : Dev nD) : S100000x32.Idx → Elt Ideal .f32 :=
  layer (V c main_v46) (V c main_v33) (V c main_arg10) (V c main_arg12) (V c main_v47)

/-- A whole-array window's block is the array. -/
theorem iblk2_2 (c : Dev nD) (t : Fin cfg2.N) : (iblk2 V c 2 t : S32x32.Idx → Elt Ideal .f32) = V c main_arg10 := by
  obtain ⟨-, -, -, -, e0, e1, -⟩ := idx_facts2 t
  funext y
  show V c main_arg10 (((cfg2.win 2).blk t).view.emb y) = V c main_arg10 y
  refine congrArg _ (funext fun a => Fin.ext ?_)
  match a with
  | ⟨0, _⟩ => show win2_2.index t (0 : Fin 2) * 32 + 1 * (y 0).val = (y 0).val; rw [e0]; omega
  | ⟨1, _⟩ => show win2_2.index t (1 : Fin 2) * 32 + 1 * (y 1).val = (y 1).val; rw [e1]; omega
theorem iblk2_3 (c : Dev nD) (t : Fin cfg2.N) : (iblk2 V c 3 t : S1x32.Idx → Elt Ideal .f32) = V c main_v47 := by
  obtain ⟨-, -, -, -, -, -, e0, e1, -⟩ := idx_facts2 t
  funext y
  show V c main_v47 (((cfg2.win 3).blk t).view.emb y) = V c main_v47 y
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 32 + 1 * (y 1).val = (y 1).val; rw [e1]; omega
theorem iblk2_4 (c : Dev nD) (t : Fin cfg2.N) : (iblk2 V c 4 t : S32x32.Idx → Elt Ideal .f32) = V c main_arg12 := by
  obtain ⟨-, -, -, -, -, -, -, -, e0, e1, -⟩ := idx_facts2 t
  funext y
  show V c main_arg12 (((cfg2.win 4).blk t).view.emb y) = V c main_arg12 y
  refine congrArg _ (funext fun a => Fin.ext ?_)
  match a with
  | ⟨0, _⟩ => show win2_4.index t (0 : Fin 2) * 32 + 1 * (y 0).val = (y 0).val; rw [e0]; omega
  | ⟨1, _⟩ => show win2_4.index t (1 : Fin 2) * 32 + 1 * (y 1).val = (y 1).val; rw [e1]; omega

/-- A node-feature window's block at point `t` is rows `10000·t …` of its array. -/
theorem iblk2_0 (c : Dev nD) (t : Fin cfg2.N) (p : Fin 10000) (k : Fin 32) (i : S100000x32.Idx)
    (h0 : (i 0).val = t.val * 10000 + p.val) (h1 : (i 1).val = k.val) :
    (iblk2 V c 0 t : S10000x32.Idx → Elt Ideal .f32) (ix2 p k) = V c main_v46 i := by
  obtain ⟨e0, e1, -⟩ := idx_facts2 t
  show V c main_v46 (((cfg2.win 0).blk t).view.emb (ix2 p k)) = V c main_v46 i
  refine congrArg _ (funext fun a => Fin.ext ?_)
  match a with
  | ⟨0, _⟩ => show win2_0.index t (0 : Fin 2) * 10000 + 1 * p.val = (i 0).val; rw [e0, h0]; omega
  | ⟨1, _⟩ => show win2_0.index t (1 : Fin 2) * 32 + 1 * k.val = (i 1).val; rw [e1, h1]; omega
theorem iblk2_1 (c : Dev nD) (t : Fin cfg2.N) (p : Fin 10000) (k : Fin 32) (i : S100000x32.Idx)
    (h0 : (i 0).val = t.val * 10000 + p.val) (h1 : (i 1).val = k.val) :
    (iblk2 V c 1 t : S10000x32.Idx → Elt Ideal .f32) (ix2 p k) = V c main_v33 i := by
  obtain ⟨-, -, e0, e1, -⟩ := idx_facts2 t
  show V c main_v33 (((cfg2.win 1).blk t).view.emb (ix2 p k)) = V c main_v33 i
  refine congrArg _ (funext fun a => Fin.ext ?_)
  match a with
  | ⟨0, _⟩ => show win2_1.index t (0 : Fin 2) * 10000 + 1 * p.val = (i 0).val; rw [e0, h0]; omega
  | ⟨1, _⟩ => show win2_1.index t (1 : Fin 2) * 32 + 1 * k.val = (i 1).val; rw [e1, h1]; omega

/-- What point `t` writes back is block `t` of the layer of the arrays the region finds. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S10000x32) hz2, View.ld_unit_zero (S := S32x32) hz2, View.ld_unit_zero (S := S1x32) hz2]
  rw [iblk2_2, iblk2_3, iblk2_4]
  obtain ⟨-, -, -, -, -, -, -, -, -, -, e0, e1⟩ := idx_facts2 t
  funext j
  show k2_pay1 (F := Ideal) (iblk2 V c 0 t) (iblk2 V c 1 t) (V c main_arg10) (V c main_arg12) (V c main_v47) j
    = layer (V c main_v46) (V c main_v33) (V c main_arg10) (V c main_arg12) (V c main_v47) (((cfg2.win 5).blk t).view.emb j)
  refine pay2_block (V c main_v46) (V c main_v33) (V c main_arg10) (V c main_arg12) (V c main_v47) (iblk2 V c 0 t) (iblk2 V c 1 t) t.val
    (fun p k i h0 h1 => iblk2_0 V c t p k i h0 h1) (fun p k i h0 h1 => iblk2_1 V c t p k i h0 h1) j _ ?_ ?_
  · show win2_5.index t (0 : Fin 2) * 10000 + 1 * (j 0).val = t.val * 10000 + (j 0).val; rw [e0]; omega
  · show win2_5.index t (1 : Fin 2) * 32 + 1 * (j 1).val = (j 1).val; rw [e1]; omega

/-- Every index of the output array is in the block of the point its row falls in. -/
theorem cover2 (i : S100000x32.Idx) : ∃ t : Fin cfg2.N, (cfg2.win 5).flush t = true ∧ i ∈ ((cfg2.win 5).blk t).view.set := by
  have hi0 : (i 0).val < 100000 := (i 0).isLt
  have hi1 : (i 1).val < 32 := (i 1).isLt
  obtain ⟨t, htv⟩ : ∃ t : Fin cfg2.N, t.val = (i 0).val / 10000 :=
    ⟨⟨(i 0).val / 10000, by have h1 : cfg2.N = 10 := N_2; have h2 : grid2.N = 10 := N_2; omega⟩, rfl⟩
  refine ⟨t, flush2_5 t, ?_⟩
  obtain ⟨-, -, -, -, -, -, -, -, -, -, e0, e1⟩ := idx_facts2 t
  show i ∈ ((View.whole main_v48).slice (win2_5.rect t)).set
  rw [View.set_slice_whole, Rect.mem_set_unit]
  intro a
  match a with
  | ⟨0, _⟩ =>
    show win2_5.index t (0 : Fin 2) * 10000 ≤ (i 0).val ∧ (i 0).val < win2_5.index t (0 : Fin 2) * 10000 + 10000
    rw [e0, htv]; omega
  | ⟨1, _⟩ =>
    show win2_5.index t (1 : Fin 2) * 32 ≤ (i 1).val ∧ (i 1).val < win2_5.index t (1 : Fin 2) * 32 + 32
    rw [e1]; omega

/-- The output array after the region: the layer of the arrays the region finds. -/
theorem final2 (c : Dev nD) : (dat2 V c).arrAt 5 cfg2.N = G2 V c :=
  (dat2 V c).arrAt_eq_of_cover 5 (G2 V c) (fun t _ => flushed2_eq V c t) (cover2)

end Cert.KernelIdeal.Hand

end
-- ==== Proof.Region3.lean ====
/-
  Region 3: the array the linear-combine kernel leaves in its output buffer, as a function of the five arrays it
  finds when it is entered. The grid has ten points; point `t` reads rows `10000·t … 10000·t + 9999` of the two
  node-feature arrays and the whole of the two weight arrays and of the bias row, and writes the same rows of the
  output. A row of the layer depends on that row of the node-feature arrays only, so each written block is the
  corresponding block of the layer of the whole arrays, and the ten blocks tile the output.
-/
import proofs.«180868_j61280593379653_1_alg».proof.Proof.Gen.KernelIdeal.Frame
import proofs.«180868_j61280593379653_1_alg».proof.Proof.KPay
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.Net
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- An entry of a block's payload is the layer of the whole arrays at the corresponding row, when the two
    node-feature blocks are rows `10000·T …` of their arrays. -/
theorem pay3_block (agg x : FVec Ideal S100000x32 .f32) (wr wo : FVec Ideal S32x32 .f32) (b : FVec Ideal S1x32 .f32)
    (aggB xB : FVec Ideal S10000x32 .f32) (T : ℕ)
    (hagg : ∀ (p : Fin 10000) (k : Fin 32) (i : S100000x32.Idx), (i 0).val = T * 10000 + p.val → (i 1).val = k.val → aggB (ix2 p k) = agg i)
    (hx : ∀ (p : Fin 10000) (k : Fin 32) (i : S100000x32.Idx), (i 0).val = T * 10000 + p.val → (i 1).val = k.val → xB (ix2 p k) = x i)
    (j : S10000x32.Idx) (i : S100000x32.Idx) (hi0 : (i 0).val = T * 10000 + (j 0).val) (hi1 : (i 1).val = (j 1).val) :
    k3_pay1 (F := Ideal) aggB xB wr wo b j = layer agg x wr wo b i := by
  obtain ⟨p, q, rfl⟩ : ∃ (p : Fin 10000) (q : Fin 32), j = ix2 p q := ⟨j 0, j 1, eq_ix2 j⟩
  rw [pay3_apply]
  unfold layer
  have hq : (⟨(i 1).val, idx2_lt1 i⟩ : Fin 32) = q := Fin.ext hi1
  rw [hq]
  exact layerAt_congr aggB xB agg x wr wo b p ⟨(i 0).val, idx2_lt0 i⟩ q
    (fun k => hagg p k _ hi0 rfl) (fun k => hx p k _ hi0 rfl)

/-- The printed index maps, decided over the grid: the two node-feature windows and the output window are at block
    `t` of the rows, the weights and the bias at their one block. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The layer of the arrays the region finds. -/
abbrev G3 (c : Dev nD) : S100000x32.Idx → Elt Ideal .f32 :=
  layer (V c main_v61) (V c main_v48) (V c main_arg13) (V c main_arg15) (V c main_v62)

/-- A whole-array window's block is the array. -/
theorem iblk3_2 (c : Dev nD) (t : Fin cfg3.N) : (iblk3 V c 2 t : S32x32.Idx → Elt Ideal .f32) = V c main_arg13 := by
  obtain ⟨-, -, -, -, e0, e1, -⟩ := idx_facts3 t
  funext y
  show V c main_arg13 (((cfg3.win 2).blk t).view.emb y) = V c main_arg13 y
  refine congrArg _ (funext fun a => Fin.ext ?_)
  match a with
  | ⟨0, _⟩ => show win3_2.index t (0 : Fin 2) * 32 + 1 * (y 0).val = (y 0).val; rw [e0]; omega
  | ⟨1, _⟩ => show win3_2.index t (1 : Fin 2) * 32 + 1 * (y 1).val = (y 1).val; rw [e1]; omega
theorem iblk3_3 (c : Dev nD) (t : Fin cfg3.N) : (iblk3 V c 3 t : S1x32.Idx → Elt Ideal .f32) = V c main_v62 := by
  obtain ⟨-, -, -, -, -, -, e0, e1, -⟩ := idx_facts3 t
  funext y
  show V c main_v62 (((cfg3.win 3).blk t).view.emb y) = V c main_v62 y
  refine congrArg _ (funext fun a => Fin.ext ?_)
  match a with
  | ⟨0, _⟩ => show win3_3.index t (0 : Fin 2) * 1 + 1 * (y 0).val = (y 0).val; rw [e0]; omega
  | ⟨1, _⟩ => show win3_3.index t (1 : Fin 2) * 32 + 1 * (y 1).val = (y 1).val; rw [e1]; omega
theorem iblk3_4 (c : Dev nD) (t : Fin cfg3.N) : (iblk3 V c 4 t : S32x32.Idx → Elt Ideal .f32) = V c main_arg15 := by
  obtain ⟨-, -, -, -, -, -, -, -, e0, e1, -⟩ := idx_facts3 t
  funext y
  show V c main_arg15 (((cfg3.win 4).blk t).view.emb y) = V c main_arg15 y
  refine congrArg _ (funext fun a => Fin.ext ?_)
  match a with
  | ⟨0, _⟩ => show win3_4.index t (0 : Fin 2) * 32 + 1 * (y 0).val = (y 0).val; rw [e0]; omega
  | ⟨1, _⟩ => show win3_4.index t (1 : Fin 2) * 32 + 1 * (y 1).val = (y 1).val; rw [e1]; omega

/-- A node-feature window's block at point `t` is rows `10000·t …` of its array. -/
theorem iblk3_0 (c : Dev nD) (t : Fin cfg3.N) (p : Fin 10000) (k : Fin 32) (i : S100000x32.Idx)
    (h0 : (i 0).val = t.val * 10000 + p.val) (h1 : (i 1).val = k.val) :
    (iblk3 V c 0 t : S10000x32.Idx → Elt Ideal .f32) (ix2 p k) = V c main_v61 i := by
  obtain ⟨e0, e1, -⟩ := idx_facts3 t
  show V c main_v61 (((cfg3.win 0).blk t).view.emb (ix2 p k)) = V c main_v61 i
  refine congrArg _ (funext fun a => Fin.ext ?_)
  match a with
  | ⟨0, _⟩ => show win3_0.index t (0 : Fin 2) * 10000 + 1 * p.val = (i 0).val; rw [e0, h0]; omega
  | ⟨1, _⟩ => show win3_0.index t (1 : Fin 2) * 32 + 1 * k.val = (i 1).val; rw [e1, h1]; omega
theorem iblk3_1 (c : Dev nD) (t : Fin cfg3.N) (p : Fin 10000) (k : Fin 32) (i : S100000x32.Idx)
    (h0 : (i 0).val = t.val * 10000 + p.val) (h1 : (i 1).val = k.val) :
    (iblk3 V c 1 t : S10000x32.Idx → Elt Ideal .f32) (ix2 p k) = V c main_v48 i := by
  obtain ⟨-, -, e0, e1, -⟩ := idx_facts3 t
  show V c main_v48 (((cfg3.win 1).blk t).view.emb (ix2 p k)) = V c main_v48 i
  refine congrArg _ (funext fun a => Fin.ext ?_)
  match a with
  | ⟨0, _⟩ => show win3_1.index t (0 : Fin 2) * 10000 + 1 * p.val = (i 0).val; rw [e0, h0]; omega
  | ⟨1, _⟩ => show win3_1.index t (1 : Fin 2) * 32 + 1 * k.val = (i 1).val; rw [e1, h1]; omega

/-- What point `t` writes back is block `t` of the layer of the arrays the region finds. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz3]
  simp only [View.ld_unit_zero (S := S10000x32) hz3, View.ld_unit_zero (S := S32x32) hz3, View.ld_unit_zero (S := S1x32) hz3]
  rw [iblk3_2, iblk3_3, iblk3_4]
  obtain ⟨-, -, -, -, -, -, -, -, -, -, e0, e1⟩ := idx_facts3 t
  funext j
  show k3_pay1 (F := Ideal) (iblk3 V c 0 t) (iblk3 V c 1 t) (V c main_arg13) (V c main_arg15) (V c main_v62) j
    = layer (V c main_v61) (V c main_v48) (V c main_arg13) (V c main_arg15) (V c main_v62) (((cfg3.win 5).blk t).view.emb j)
  refine pay3_block (V c main_v61) (V c main_v48) (V c main_arg13) (V c main_arg15) (V c main_v62) (iblk3 V c 0 t) (iblk3 V c 1 t) t.val
    (fun p k i h0 h1 => iblk3_0 V c t p k i h0 h1) (fun p k i h0 h1 => iblk3_1 V c t p k i h0 h1) j _ ?_ ?_
  · show win3_5.index t (0 : Fin 2) * 10000 + 1 * (j 0).val = t.val * 10000 + (j 0).val; rw [e0]; omega
  · show win3_5.index t (1 : Fin 2) * 32 + 1 * (j 1).val = (j 1).val; rw [e1]; omega

/-- Every index of the output array is in the block of the point its row falls in. -/
theorem cover3 (i : S100000x32.Idx) : ∃ t : Fin cfg3.N, (cfg3.win 5).flush t = true ∧ i ∈ ((cfg3.win 5).blk t).view.set := by
  have hi0 : (i 0).val < 100000 := (i 0).isLt
  have hi1 : (i 1).val < 32 := (i 1).isLt
  obtain ⟨t, htv⟩ : ∃ t : Fin cfg3.N, t.val = (i 0).val / 10000 :=
    ⟨⟨(i 0).val / 10000, by have h1 : cfg3.N = 10 := N_3; have h2 : grid3.N = 10 := N_3; omega⟩, rfl⟩
  refine ⟨t, flush3_5 t, ?_⟩
  obtain ⟨-, -, -, -, -, -, -, -, -, -, e0, e1⟩ := idx_facts3 t
  show i ∈ ((View.whole main_v63).slice (win3_5.rect t)).set
  rw [View.set_slice_whole, Rect.mem_set_unit]
  intro a
  match a with
  | ⟨0, _⟩ =>
    show win3_5.index t (0 : Fin 2) * 10000 ≤ (i 0).val ∧ (i 0).val < win3_5.index t (0 : Fin 2) * 10000 + 10000
    rw [e0, htv]; omega
  | ⟨1, _⟩ =>
    show win3_5.index t (1 : Fin 2) * 32 ≤ (i 1).val ∧ (i 1).val < win3_5.index t (1 : Fin 2) * 32 + 32
    rw [e1]; omega

/-- The output array after the region: the layer of the arrays the region finds. -/
theorem final3 (c : Dev nD) : (dat3 V c).arrAt 5 cfg3.N = G3 V c :=
  (dat3 V c).arrAt_eq_of_cover 5 (G3 V c) (fun t _ => flushed3_eq V c t) (cover3)

end Cert.KernelIdeal.Hand

end
-- ==== Proof.Region4.lean ====
/-
  Region 4: the array the linear-combine kernel leaves in its output buffer, as a function of the five arrays it
  finds when it is entered. The grid has ten points; point `t` reads rows `10000·t … 10000·t + 9999` of the two
  node-feature arrays and the whole of the two weight arrays and of the bias row, and writes the same rows of the
  output. A row of the layer depends on that row of the node-feature arrays only, so each written block is the
  corresponding block of the layer of the whole arrays, and the ten blocks tile the output.
-/
import proofs.«180868_j61280593379653_1_alg».proof.Proof.Gen.KernelIdeal.Frame
import proofs.«180868_j61280593379653_1_alg».proof.Proof.KPay
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.Net
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- An entry of a block's payload is the layer of the whole arrays at the corresponding row, when the two
    node-feature blocks are rows `10000·T …` of their arrays. -/
theorem pay4_block (agg x : FVec Ideal S100000x32 .f32) (wr wo : FVec Ideal S32x32 .f32) (b : FVec Ideal S1x32 .f32)
    (aggB xB : FVec Ideal S10000x32 .f32) (T : ℕ)
    (hagg : ∀ (p : Fin 10000) (k : Fin 32) (i : S100000x32.Idx), (i 0).val = T * 10000 + p.val → (i 1).val = k.val → aggB (ix2 p k) = agg i)
    (hx : ∀ (p : Fin 10000) (k : Fin 32) (i : S100000x32.Idx), (i 0).val = T * 10000 + p.val → (i 1).val = k.val → xB (ix2 p k) = x i)
    (j : S10000x32.Idx) (i : S100000x32.Idx) (hi0 : (i 0).val = T * 10000 + (j 0).val) (hi1 : (i 1).val = (j 1).val) :
    k4_pay1 (F := Ideal) aggB xB wr wo b j = layer agg x wr wo b i := by
  obtain ⟨p, q, rfl⟩ : ∃ (p : Fin 10000) (q : Fin 32), j = ix2 p q := ⟨j 0, j 1, eq_ix2 j⟩
  rw [pay4_apply]
  unfold layer
  have hq : (⟨(i 1).val, idx2_lt1 i⟩ : Fin 32) = q := Fin.ext hi1
  rw [hq]
  exact layerAt_congr aggB xB agg x wr wo b p ⟨(i 0).val, idx2_lt0 i⟩ q
    (fun k => hagg p k _ hi0 rfl) (fun k => hx p k _ hi0 rfl)

/-- The printed index maps, decided over the grid: the two node-feature windows and the output window are at block
    `t` of the rows, the weights and the bias at their one block. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The layer of the arrays the region finds. -/
abbrev G4 (c : Dev nD) : S100000x32.Idx → Elt Ideal .f32 :=
  layer (V c main_v76) (V c main_v63) (V c main_arg16) (V c main_arg18) (V c main_v77)

/-- A whole-array window's block is the array. -/
theorem iblk4_2 (c : Dev nD) (t : Fin cfg4.N) : (iblk4 V c 2 t : S32x32.Idx → Elt Ideal .f32) = V c main_arg16 := by
  obtain ⟨-, -, -, -, e0, e1, -⟩ := idx_facts4 t
  funext y
  show V c main_arg16 (((cfg4.win 2).blk t).view.emb y) = V c main_arg16 y
  refine congrArg _ (funext fun a => Fin.ext ?_)
  match a with
  | ⟨0, _⟩ => show win4_2.index t (0 : Fin 2) * 32 + 1 * (y 0).val = (y 0).val; rw [e0]; omega
  | ⟨1, _⟩ => show win4_2.index t (1 : Fin 2) * 32 + 1 * (y 1).val = (y 1).val; rw [e1]; omega
theorem iblk4_3 (c : Dev nD) (t : Fin cfg4.N) : (iblk4 V c 3 t : S1x32.Idx → Elt Ideal .f32) = V c main_v77 := by
  obtain ⟨-, -, -, -, -, -, e0, e1, -⟩ := idx_facts4 t
  funext y
  show V c main_v77 (((cfg4.win 3).blk t).view.emb y) = V c main_v77 y
  refine congrArg _ (funext fun a => Fin.ext ?_)
  match a with
  | ⟨0, _⟩ => show win4_3.index t (0 : Fin 2) * 1 + 1 * (y 0).val = (y 0).val; rw [e0]; omega
  | ⟨1, _⟩ => show win4_3.index t (1 : Fin 2) * 32 + 1 * (y 1).val = (y 1).val; rw [e1]; omega
theorem iblk4_4 (c : Dev nD) (t : Fin cfg4.N) : (iblk4 V c 4 t : S32x32.Idx → Elt Ideal .f32) = V c main_arg18 := by
  obtain ⟨-, -, -, -, -, -, -, -, e0, e1, -⟩ := idx_facts4 t
  funext y
  show V c main_arg18 (((cfg4.win 4).blk t).view.emb y) = V c main_arg18 y
  refine congrArg _ (funext fun a => Fin.ext ?_)
  match a with
  | ⟨0, _⟩ => show win4_4.index t (0 : Fin 2) * 32 + 1 * (y 0).val = (y 0).val; rw [e0]; omega
  | ⟨1, _⟩ => show win4_4.index t (1 : Fin 2) * 32 + 1 * (y 1).val = (y 1).val; rw [e1]; omega

/-- A node-feature window's block at point `t` is rows `10000·t …` of its array. -/
theorem iblk4_0 (c : Dev nD) (t : Fin cfg4.N) (p : Fin 10000) (k : Fin 32) (i : S100000x32.Idx)
    (h0 : (i 0).val = t.val * 10000 + p.val) (h1 : (i 1).val = k.val) :
    (iblk4 V c 0 t : S10000x32.Idx → Elt Ideal .f32) (ix2 p k) = V c main_v76 i := by
  obtain ⟨e0, e1, -⟩ := idx_facts4 t
  show V c main_v76 (((cfg4.win 0).blk t).view.emb (ix2 p k)) = V c main_v76 i
  refine congrArg _ (funext fun a => Fin.ext ?_)
  match a with
  | ⟨0, _⟩ => show win4_0.index t (0 : Fin 2) * 10000 + 1 * p.val = (i 0).val; rw [e0, h0]; omega
  | ⟨1, _⟩ => show win4_0.index t (1 : Fin 2) * 32 + 1 * k.val = (i 1).val; rw [e1, h1]; omega
theorem iblk4_1 (c : Dev nD) (t : Fin cfg4.N) (p : Fin 10000) (k : Fin 32) (i : S100000x32.Idx)
    (h0 : (i 0).val = t.val * 10000 + p.val) (h1 : (i 1).val = k.val) :
    (iblk4 V c 1 t : S10000x32.Idx → Elt Ideal .f32) (ix2 p k) = V c main_v63 i := by
  obtain ⟨-, -, e0, e1, -⟩ := idx_facts4 t
  show V c main_v63 (((cfg4.win 1).blk t).view.emb (ix2 p k)) = V c main_v63 i
  refine congrArg _ (funext fun a => Fin.ext ?_)
  match a with
  | ⟨0, _⟩ => show win4_1.index t (0 : Fin 2) * 10000 + 1 * p.val = (i 0).val; rw [e0, h0]; omega
  | ⟨1, _⟩ => show win4_1.index t (1 : Fin 2) * 32 + 1 * k.val = (i 1).val; rw [e1, h1]; omega

/-- What point `t` writes back is block `t` of the layer of the arrays the region finds. -/
theorem flushed4_eq (c : Dev nD) (t : Fin cfg4.N) :
    (dat4 V c).flushed 5 t = ((cfg4.win 5).blk t).view.read (Elt Ideal) (G4 V c) := by
  show (cfg4.win 5).cut (grid4.coords t) ((dat4 V c).after 5 t) = _
  rw [after4_5]
  unfold out4_5
  rw [View.canon_unit_zero hz4]
  simp only [View.ld_unit_zero (S := S10000x32) hz4, View.ld_unit_zero (S := S32x32) hz4, View.ld_unit_zero (S := S1x32) hz4]
  rw [iblk4_2, iblk4_3, iblk4_4]
  obtain ⟨-, -, -, -, -, -, -, -, -, -, e0, e1⟩ := idx_facts4 t
  funext j
  show k4_pay1 (F := Ideal) (iblk4 V c 0 t) (iblk4 V c 1 t) (V c main_arg16) (V c main_arg18) (V c main_v77) j
    = layer (V c main_v76) (V c main_v63) (V c main_arg16) (V c main_arg18) (V c main_v77) (((cfg4.win 5).blk t).view.emb j)
  refine pay4_block (V c main_v76) (V c main_v63) (V c main_arg16) (V c main_arg18) (V c main_v77) (iblk4 V c 0 t) (iblk4 V c 1 t) t.val
    (fun p k i h0 h1 => iblk4_0 V c t p k i h0 h1) (fun p k i h0 h1 => iblk4_1 V c t p k i h0 h1) j _ ?_ ?_
  · show win4_5.index t (0 : Fin 2) * 10000 + 1 * (j 0).val = t.val * 10000 + (j 0).val; rw [e0]; omega
  · show win4_5.index t (1 : Fin 2) * 32 + 1 * (j 1).val = (j 1).val; rw [e1]; omega

/-- Every index of the output array is in the block of the point its row falls in. -/
theorem cover4 (i : S100000x32.Idx) : ∃ t : Fin cfg4.N, (cfg4.win 5).flush t = true ∧ i ∈ ((cfg4.win 5).blk t).view.set := by
  have hi0 : (i 0).val < 100000 := (i 0).isLt
  have hi1 : (i 1).val < 32 := (i 1).isLt
  obtain ⟨t, htv⟩ : ∃ t : Fin cfg4.N, t.val = (i 0).val / 10000 :=
    ⟨⟨(i 0).val / 10000, by have h1 : cfg4.N = 10 := N_4; have h2 : grid4.N = 10 := N_4; omega⟩, rfl⟩
  refine ⟨t, flush4_5 t, ?_⟩
  obtain ⟨-, -, -, -, -, -, -, -, -, -, e0, e1⟩ := idx_facts4 t
  show i ∈ ((View.whole main_v78).slice (win4_5.rect t)).set
  rw [View.set_slice_whole, Rect.mem_set_unit]
  intro a
  match a with
  | ⟨0, _⟩ =>
    show win4_5.index t (0 : Fin 2) * 10000 ≤ (i 0).val ∧ (i 0).val < win4_5.index t (0 : Fin 2) * 10000 + 10000
    rw [e0, htv]; omega
  | ⟨1, _⟩ =>
    show win4_5.index t (1 : Fin 2) * 32 ≤ (i 1).val ∧ (i 1).val < win4_5.index t (1 : Fin 2) * 32 + 32
    rw [e1]; omega

/-- The output array after the region: the layer of the arrays the region finds. -/
theorem final4 (c : Dev nD) : (dat4 V c).arrAt 5 cfg4.N = G4 V c :=
  (dat4 V c).arrAt_eq_of_cover 5 (G4 V c) (fun t _ => flushed4_eq V c t) (cover4)

end Cert.KernelIdeal.Hand

end
-- ==== Proof.LibRows.lean ====
/-
  Rows of a two-axis array read at an index, at the extended reals: the sum of a row as a lane reduction computes
  it, a vector of row values made a column, and a column spread over the columns of a row.
-/
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibRows

open Idealize.ShloMosaic Idealize.ShloMosaic.ValueIdx

variable {α : Type}

/-- A vector of `a` values cast to a column `[a, 1]` reads, at `(i, u)`, the value at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array into `[a]`, at the extended reals, is at `p` the sum of row `p`. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  apply Fin.ext
  match ax with
  | ⟨0, _⟩ => rfl
  | ⟨1, _⟩ => rfl

end Cert.LibRows

end
-- ==== Proof.LibBcast.lean ====
/-
  The host's broadcast-in-dimensions of small shapes read at an index: a vector made a column or a row, a column or
  a row spread over an array, and a scalar spread over any shape.
-/
import Idealize.ShloMosaic.Lib.Pipeline.Value
import Idealize.ShloMosaic.Lib.ValueIdx

noncomputable section

namespace Cert.LibBcast

open Idealize.ShloMosaic Idealize.ShloMosaic.ValueIdx

variable {α : Type}

/-- A vector `[a]` placed on axis 0 of `[a, 1]` reads, at `(p, u)`, the value at `p`. -/
theorem a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector `[b]` placed on axis 1 of `[1, b]` reads, at `(u, q)`, the value at `q`. -/
theorem b_1b_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A column `[a, 1]` spread over `[a, b]` reads, at `(p, q)`, the column's entry of row `p`. -/
theorem a1_ab_apply {a b : ℕ} (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` spread over `[a, b]` reads, at `(p, q)`, the row's entry of column `q`. -/
theorem r1b_ab_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

/-- A scalar spread over any shape reads the scalar everywhere. -/
theorem scalar_apply {t : Shape} (x : (⟨0, ![]⟩ : Shape).Idx → α) (h : (⟨0, ![]⟩ : Shape).BroadcastsInDim t ![])
    (j : t.Idx) : broadcastInDim t ![] h x j = x ix0 :=
  broadcastInDim_apply _ h x j ix0 fun ax => ax.elim0

end Cert.LibBcast

end
-- ==== Proof.HeadSpec.lean ====
/-
  The classifier head as a function of its five arrays, index by index, at the extended reals. A graph's pooled
  features go through a dense layer with a bias clipped below at zero, then a second dense layer with a bias (the
  logits), then a log-softmax along the row: each logit minus the row's maximum, minus the logarithm of the sum
  over the row of the exponentials of the logits so shifted. The row's maximum is the fold of `max` over the row from
  the value of the word `0xFF800000` (minus infinity), as both programs take it.
-/
import Idealize.ShloMosaic.PureOps.Ideal.Laws
import Idealize.ShloMosaic.Lib.ValueIdx

noncomputable section

open scoped BigOperators

namespace Cert.Net

open Idealize.ShloMosaic Idealize.ShloMosaic.ValueIdx

/-- The maximum of row `p` of an `[N, C]` array. -/
def rowMax {N C : ℕ} (z : FVec Ideal ⟨2, ![N, C]⟩ .f32) (p : Fin N) : EReal :=
  (Finset.univ : Finset (Fin C)).fold max (Ideal.ofBits .f32 0xFF800000#32) (fun k => z (ix2 p k))

/-- The log-softmax along the rows of an `[N, C]` array, at `(p, q)`. -/
def logSoftmaxAt {N C : ℕ} (z : FVec Ideal ⟨2, ![N, C]⟩ .f32) (p : Fin N) (q : Fin C) : EReal :=
  (z (ix2 p q) - rowMax z p) - Ideal.log (∑ k : Fin C, Ideal.exp (z (ix2 p k) - rowMax z p))

/-- It depends on row `p` only. -/
theorem logSoftmaxAt_congr {N C : ℕ} (z z' : FVec Ideal ⟨2, ![N, C]⟩ .f32) (p : Fin N) (q : Fin C)
    (h : ∀ k : Fin C, z (ix2 p k) = z' (ix2 p k)) : logSoftmaxAt z p q = logSoftmaxAt z' p q := by
  unfold logSoftmaxAt rowMax
  simp only [h]

/-- The first dense layer, clipped below at zero, at `(p, q)`. -/
def hiddenAt {N K M : ℕ} (g : FVec Ideal ⟨2, ![N, K]⟩ .f32) (w1 : FVec Ideal ⟨2, ![K, M]⟩ .f32)
    (b1 : FVec Ideal ⟨2, ![1, M]⟩ .f32) (p : Fin N) (q : Fin M) : EReal :=
  max ((∑ k : Fin K, g (ix2 p k) * w1 (ix2 k q)) + b1 (ix2 (0 : Fin 1) q)) 0

/-- The logits, at `(p, q)`. -/
def logitAt {N K M C : ℕ} (g : FVec Ideal ⟨2, ![N, K]⟩ .f32) (w1 : FVec Ideal ⟨2, ![K, M]⟩ .f32)
    (b1 : FVec Ideal ⟨2, ![1, M]⟩ .f32) (w2 : FVec Ideal ⟨2, ![M, C]⟩ .f32) (b2 : FVec Ideal ⟨2, ![1, C]⟩ .f32)
    (p : Fin N) (q : Fin C) : EReal :=
  (∑ k : Fin M, hiddenAt g w1 b1 p k * w2 (ix2 k q)) + b2 (ix2 (0 : Fin 1) q)

/-- The logits as an array. -/
def logits {N K M C : ℕ} (g : FVec Ideal ⟨2, ![N, K]⟩ .f32) (w1 : FVec Ideal ⟨2, ![K, M]⟩ .f32)
    (b1 : FVec Ideal ⟨2, ![1, M]⟩ .f32) (w2 : FVec Ideal ⟨2, ![M, C]⟩ .f32) (b2 : FVec Ideal ⟨2, ![1, C]⟩ .f32) :
    FVec Ideal ⟨2, ![N, C]⟩ .f32 :=
  fun i => logitAt g w1 b1 w2 b2 ⟨(i 0).val, idx2_lt0 i⟩ ⟨(i 1).val, idx2_lt1 i⟩

theorem logits_ix2 {N K M C : ℕ} (g : FVec Ideal ⟨2, ![N, K]⟩ .f32) (w1 : FVec Ideal ⟨2, ![K, M]⟩ .f32)
    (b1 : FVec Ideal ⟨2, ![1, M]⟩ .f32) (w2 : FVec Ideal ⟨2, ![M, C]⟩ .f32) (b2 : FVec Ideal ⟨2, ![1, C]⟩ .f32)
    (p : Fin N) (q : Fin C) : logits g w1 b1 w2 b2 (ix2 p q) = logitAt g w1 b1 w2 b2 p q := rfl

/-- The head as an array `[N, C]`: the log-softmax of the logits. -/
def head {N K M C : ℕ} (g : FVec Ideal ⟨2, ![N, K]⟩ .f32) (w1 : FVec Ideal ⟨2, ![K, M]⟩ .f32)
    (b1 : FVec Ideal ⟨2, ![1, M]⟩ .f32) (w2 : FVec Ideal ⟨2, ![M, C]⟩ .f32) (b2 : FVec Ideal ⟨2, ![1, C]⟩ .f32) :
    FVec Ideal ⟨2, ![N, C]⟩ .f32 :=
  fun i => logSoftmaxAt (logits g w1 b1 w2 b2) ⟨(i 0).val, idx2_lt0 i⟩ ⟨(i 1).val, idx2_lt1 i⟩

theorem head_ix2 {N K M C : ℕ} (g : FVec Ideal ⟨2, ![N, K]⟩ .f32) (w1 : FVec Ideal ⟨2, ![K, M]⟩ .f32)
    (b1 : FVec Ideal ⟨2, ![1, M]⟩ .f32) (w2 : FVec Ideal ⟨2, ![M, C]⟩ .f32) (b2 : FVec Ideal ⟨2, ![1, C]⟩ .f32)
    (p : Fin N) (q : Fin C) : head g w1 b1 w2 b2 (ix2 p q) = logSoftmaxAt (logits g w1 b1 w2 b2) p q := rfl

end Cert.Net

end
-- ==== Proof.LibSoftmax.lean ====
/-
  The log-softmax along the rows of a two-axis array, as a kernel spells it and as the host spells it, read at an
  index at the extended reals. Both take the row's maximum as a fold of `max` from minus infinity (the host then takes
  the maximum with minus infinity once more, which changes nothing), subtract it, exponentiate, sum the row, take the
  logarithm and subtract again; the kernel moves the row values through a column `[N, 1]` by a cast and a broadcast, the
  host by two broadcasts. Both are `Cert.Net.logSoftmaxAt`.
-/
import Idealize.ShloMosaic.PureOps.Ideal.Laws
import Idealize.ShloMosaic.Lib.Pipeline.Value
import Idealize.ShloMosaic.Lib.ValueIdx
import proofs.«180868_j61280593379653_1_alg».proof.Proof.LibRows
import proofs.«180868_j61280593379653_1_alg».proof.Proof.LibBcast
import proofs.«180868_j61280593379653_1_alg».proof.Proof.HeadSpec

noncomputable section

open scoped BigOperators

namespace Cert.LibSoftmax

open Idealize.ShloMosaic Idealize.ShloMosaic.ValueIdx Cert.Net

variable {N C : ℕ}

/-- The reduced index `p` with column `k` put back is `(p, k)`. -/
theorem lift_row (h : (⟨2, ![N, C]⟩ : Shape).Reduces [(1 : Fin 2)] ⟨1, ![N]⟩) (p : Fin N) (k : Fin C) :
    h.lift (ix1 p) k = ix2 p k := by
  funext ax
  apply Fin.ext
  match ax with
  | ⟨0, _⟩ => rfl
  | ⟨1, _⟩ => rfl

/-- A kernel's lane maximum from minus infinity is, at `p`, the maximum of row `p`. -/
theorem kernelRowMax_apply (z : FVec Ideal ⟨2, ![N, C]⟩ .f32)
    (hred : (⟨2, ![N, C]⟩ : Shape).Reduces [(1 : Fin 2)] ⟨1, ![N]⟩) (hφ : FKind.Formats .f32)
    (hacc : (0xFF800000#32 : BitVec 32) = FKind.maximumf.neutral .f32 hφ) (p : Fin N) :
    multiReduction .maximumf [(1 : Fin 2)] ⟨1, ![N]⟩ z 0xFF800000#32 hred hφ hacc (ix1 p) = rowMax z p := by
  refine (Ideal.multiReduction_maximumf_single z _ hred hφ hacc (ix1 p)).trans ?_
  have hf : (z ∘ hred.lift (ix1 p)) = fun k : Fin C => z (ix2 p k) := funext fun k => congrArg z (lift_row hred p k)
  exact congrArg (fun f => Finset.fold max (Ideal.ofBits .f32 0xFF800000#32) f (Finset.univ : Finset (Fin C))) hf

/-- The host's maximum-reduce from minus infinity is, at `p`, the maximum of row `p`. -/
theorem hostRowMax_apply (z : FVec Ideal ⟨2, ![N, C]⟩ .f32)
    (h' : (⟨2, ![N, C]⟩ : Shape).ReducesTo [(1 : Fin 2)] ⟨1, ![N]⟩) (hred : (⟨2, ![N, C]⟩ : Shape).Reduces [(1 : Fin 2)] ⟨1, ![N]⟩)
    (hu : 0 < (⟨0, ![]⟩ : Shape).numel) (p : Fin N) :
    Host.reduce FloatOps.maximumf z (constant (F := Ideal) (⟨0, ![]⟩ : Shape) .f32 0xFF800000#32) h' hu (ix1 p) = rowMax z p := by
  rw [Host.reduce_eq_fold_single FloatOps.maximumf z _ h' hred hu]
  have hf : (z ∘ hred.lift (ix1 p)) = fun k : Fin C => z (ix2 p k) := funext fun k => congrArg z (lift_row hred p k)
  exact congrArg (fun f => Finset.fold max (Ideal.ofBits .f32 0xFF800000#32) f (Finset.univ : Finset (Fin C))) hf

/-- The maximum with minus infinity changes nothing. -/
theorem max_negInf (y : EReal) : max (Ideal.ofBits .f32 0xFF800000#32) y = y := by
  simp [Ideal.ofBits, Ideal.ieee]

/-- The host's row sum from an initial value is, at `p`, that value plus the sum of row `p`. -/
theorem hostRowSum_apply (x : FVec Ideal ⟨2, ![N, C]⟩ .f32)
    (h' : (⟨2, ![N, C]⟩ : Shape).ReducesTo [(1 : Fin 2)] ⟨1, ![N]⟩) (hred : (⟨2, ![N, C]⟩ : Shape).Reduces [(1 : Fin 2)] ⟨1, ![N]⟩)
    (init : EReal) (p : Fin N) :
    Ideal.hostReduceAdd h' x init (ix1 p) = init + ∑ k : Fin C, x (ix2 p k) := by
  refine (Ideal.hostReduceAdd_single h' hred x init (ix1 p)).trans ?_
  exact congrArg (init + ·) (Finset.sum_congr rfl fun k _ => congrArg x (lift_row hred p k))

/-- The kernel's spelling, at `(p, q)`. -/
theorem kernel_apply (z : FVec Ideal ⟨2, ![N, C]⟩ .f32)
    (hred : (⟨2, ![N, C]⟩ : Shape).Reduces [(1 : Fin 2)] ⟨1, ![N]⟩) (hφ : FKind.Formats .f32)
    (haccM : (0xFF800000#32 : BitVec 32) = FKind.maximumf.neutral .f32 hφ)
    (haccA : (0x00000000#32 : BitVec 32) = FKind.add.neutral .f32 hφ)
    (hcast : (⟨1, ![N]⟩ : Shape).ShapeCasts ⟨2, ![N, 1]⟩) (hb : (⟨2, ![N, 1]⟩ : Shape).Broadcasts ⟨2, ![N, C]⟩)
    (p : Fin N) (q : Fin C) :
    subf (subf z (broadcastTo ⟨2, ![N, C]⟩ (shapeCast ⟨2, ![N, 1]⟩ (multiReduction .maximumf [(1 : Fin 2)] ⟨1, ![N]⟩ z 0xFF800000#32 hred hφ haccM) hcast) hb))
      (broadcastTo ⟨2, ![N, C]⟩ (log (shapeCast ⟨2, ![N, 1]⟩ (multiReduction .add [(1 : Fin 2)] ⟨1, ![N]⟩
        (exp (subf z (broadcastTo ⟨2, ![N, C]⟩ (shapeCast ⟨2, ![N, 1]⟩ (multiReduction .maximumf [(1 : Fin 2)] ⟨1, ![N]⟩ z 0xFF800000#32 hred hφ haccM) hcast) hb)))
        0x00000000#32 hred hφ haccA) hcast)) hb) (ix2 p q)
      = logSoftmaxAt z p q := by
  have hmx : ∀ k : Fin C, broadcastTo ⟨2, ![N, C]⟩ (shapeCast ⟨2, ![N, 1]⟩ (multiReduction .maximumf [(1 : Fin 2)] ⟨1, ![N]⟩ z 0xFF800000#32 hred hφ haccM) hcast) hb (ix2 p k) = rowMax z p := fun k => by
    rw [LibRows.broadcastTo_a1_ab_apply, LibRows.shapeCast_a_a1_apply]
    exact kernelRowMax_apply z hred hφ haccM p
  unfold logSoftmaxAt
  rw [subf_apply, subf_apply, hmx q, LibRows.broadcastTo_a1_ab_apply]
  show _ - FloatOps.log (shapeCast ⟨2, ![N, 1]⟩ _ hcast (ix2 p (0 : Fin 1))) = _
  rw [LibRows.shapeCast_a_a1_apply, LibRows.rowSum_apply]
  show _ - Ideal.log (∑ k : Fin C, FloatOps.exp (subf z _ (ix2 p k))) = _
  simp only [subf_apply, hmx, Ideal.exp_def]

/-- The host's spelling from the array `mx` of the rows' maxima spread over the rows, at `(p, q)`. -/
theorem host_tail (z mx : FVec Ideal ⟨2, ![N, C]⟩ .f32)
    (h' : (⟨2, ![N, C]⟩ : Shape).ReducesTo [(1 : Fin 2)] ⟨1, ![N]⟩) (hred : (⟨2, ![N, C]⟩ : Shape).Reduces [(1 : Fin 2)] ⟨1, ![N]⟩)
    (hu : 0 < (⟨0, ![]⟩ : Shape).numel)
    (hc : (⟨1, ![N]⟩ : Shape).BroadcastsInDim ⟨2, ![N, 1]⟩ ![0]) (hb : (⟨2, ![N, 1]⟩ : Shape).BroadcastsInDim ⟨2, ![N, C]⟩ ![0, 1])
    (p : Fin N) (q : Fin C) (hmx : ∀ k : Fin C, mx (ix2 p k) = rowMax z p) :
    subf (subf z mx)
      (broadcastInDim ⟨2, ![N, C]⟩ ![0, 1] hb (Host.log (broadcastInDim ⟨2, ![N, 1]⟩ ![0] hc
        (Host.reduceAdd (Host.exp (subf z mx)) (constant (F := Ideal) (⟨0, ![]⟩ : Shape) .f32 0x00000000#32) h' hu)))) (ix2 p q)
      = logSoftmaxAt z p q := by
  have hsum : Host.log (broadcastInDim ⟨2, ![N, 1]⟩ ![0] hc
        (Host.reduceAdd (Host.exp (subf z mx)) (constant (F := Ideal) (⟨0, ![]⟩ : Shape) .f32 0x00000000#32) h' hu)) (ix2 p (0 : Fin 1))
      = Ideal.log (∑ k : Fin C, Ideal.exp (z (ix2 p k) - rowMax z p)) := by
    show FloatOps.hostUnary .log (broadcastInDim ⟨2, ![N, 1]⟩ ![0] hc
        (Host.reduceAdd (Host.exp (subf z mx)) (constant (F := Ideal) (⟨0, ![]⟩ : Shape) .f32 0x00000000#32) h' hu) (ix2 p (0 : Fin 1))) = _
    rw [LibBcast.a_a1_apply]
    show Ideal.log (Ideal.hostReduceAdd h' (Host.exp (subf z mx)) (Ideal.ofBits .f32 0x00000000#32) (ix1 p)) = _
    rw [hostRowSum_apply _ h' hred, Ideal.ofBits_zero_f32, zero_add]
    refine congrArg Ideal.log (Finset.sum_congr rfl fun k _ => ?_)
    show Ideal.exp (z (ix2 p k) - mx (ix2 p k)) = _
    rw [hmx k]
  unfold logSoftmaxAt
  rw [subf_apply, subf_apply, hmx q, LibBcast.a1_ab_apply, hsum]

/-- The host's spelling, at `(p, q)`. -/
theorem host_apply (z : FVec Ideal ⟨2, ![N, C]⟩ .f32)
    (h' : (⟨2, ![N, C]⟩ : Shape).ReducesTo [(1 : Fin 2)] ⟨1, ![N]⟩) (hred : (⟨2, ![N, C]⟩ : Shape).Reduces [(1 : Fin 2)] ⟨1, ![N]⟩)
    (hu : 0 < (⟨0, ![]⟩ : Shape).numel)
    (hs : (⟨0, ![]⟩ : Shape).BroadcastsInDim ⟨1, ![N]⟩ ![])
    (hc : (⟨1, ![N]⟩ : Shape).BroadcastsInDim ⟨2, ![N, 1]⟩ ![0]) (hb : (⟨2, ![N, 1]⟩ : Shape).BroadcastsInDim ⟨2, ![N, C]⟩ ![0, 1])
    (p : Fin N) (q : Fin C) :
    subf (subf z (broadcastInDim ⟨2, ![N, C]⟩ ![0, 1] hb (broadcastInDim ⟨2, ![N, 1]⟩ ![0] hc
        (maximumf (broadcastInDim ⟨1, ![N]⟩ ![] hs (constant (F := Ideal) (⟨0, ![]⟩ : Shape) .f32 0xFF800000#32))
          (Host.reduce FloatOps.maximumf z (constant (F := Ideal) (⟨0, ![]⟩ : Shape) .f32 0xFF800000#32) h' hu)))))
      (broadcastInDim ⟨2, ![N, C]⟩ ![0, 1] hb (Host.log (broadcastInDim ⟨2, ![N, 1]⟩ ![0] hc
        (Host.reduceAdd (Host.exp (subf z (broadcastInDim ⟨2, ![N, C]⟩ ![0, 1] hb (broadcastInDim ⟨2, ![N, 1]⟩ ![0] hc
        (maximumf (broadcastInDim ⟨1, ![N]⟩ ![] hs (constant (F := Ideal) (⟨0, ![]⟩ : Shape) .f32 0xFF800000#32))
          (Host.reduce FloatOps.maximumf z (constant (F := Ideal) (⟨0, ![]⟩ : Shape) .f32 0xFF800000#32) h' hu))))))
          (constant (F := Ideal) (⟨0, ![]⟩ : Shape) .f32 0x00000000#32) h' hu)))) (ix2 p q)
      = logSoftmaxAt z p q := by
  refine host_tail z _ h' hred hu hc hb p q fun k => ?_
  rw [LibBcast.a1_ab_apply, LibBcast.a_a1_apply, maximumf_apply, LibBcast.scalar_apply, hostRowMax_apply z h' hred hu p]
  exact max_negInf _

end Cert.LibSoftmax

end
-- ==== Proof.Region5.lean ====
/-
  Region 5: the classifier kernel. Its grid has one point and every window's block is the whole array, so what the
  body stores is the output array. The body is two dense layers and a log-softmax along the rows: at the extended
  reals it is the head (`Cert.Net.head`) of the five arrays the region finds.
-/
import proofs.«180868_j61280593379653_1_alg».proof.Proof.Gen.KernelIdeal.Frame
import proofs.«180868_j61280593379653_1_alg».proof.Proof.LibDot
import proofs.«180868_j61280593379653_1_alg».proof.Proof.LibSoftmax
import proofs.«180868_j61280593379653_1_alg».proof.Proof.HeadSpec
import Idealize.ShloMosaic.Lib.Pipeline.Value
import Idealize.ShloMosaic.Lib.ValueIdx
import Idealize.ShloMosaic.Lib.ValueLayout

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.Net
open Idealize.ShloMosaic.Pipeline (Dat)

/-- The kernel's logits (its second dense layer's result before the log-softmax), at `(p, k)`. -/
theorem logits5_apply (g : FVec Ideal S1000x32 .f32) (w1 : FVec Ideal S32x32 .f32) (b1 : FVec Ideal S1x32 .f32)
    (w2 : FVec Ideal S32x10 .f32) (b2 : FVec Ideal S1x10 .f32) (p : Fin 1000) (k : Fin 10) :
    addf (matmul dot_S1000x32_S32x10_S1000x10_1_0_0_1_n_n none
        (truncf .bf16 (maximumf (addf (matmul dot_S1000x32_S32x32_S1000x32_1_0_0_1_n_n none (truncf .bf16 g bitsLt_bf16_f32) (truncf .bf16 w1 bitsLt_bf16_f32) (constant (F := Ideal) S1000x32 .f32 0x00000000#32))
          (broadcastTo S1000x32 b1 broadcasts_S1x32_S1000x32)) (broadcast S1000x32 (Scalar.ofBits (F := Ideal) .f32 0x00000000#32))) bitsLt_bf16_f32)
        (truncf .bf16 w2 bitsLt_bf16_f32) (constant (F := Ideal) S1000x10 .f32 0x00000000#32))
      (broadcastTo S1000x10 b2 broadcasts_S1x10_S1000x10) (ix2 p k)
    = logitAt g w1 b1 w2 b2 p k := by
  unfold logitAt hiddenAt
  rw [addf_apply, LibDot.matmul_zero_apply dot_S1000x32_S32x10_S1000x10_1_0_0_1_n_n none rfl rfl rfl rfl rfl rfl rfl rfl,
    broadcastTo_1b_ab_apply]
  simp only [truncf_apply, maximumf_apply, addf_apply, broadcast_apply, broadcastTo_1b_ab_apply,
    LibDot.matmul_zero_apply dot_S1000x32_S32x32_S1000x32_1_0_0_1_n_n none rfl rfl rfl rfl rfl rfl rfl rfl]
  rw [show (Scalar.ofBits (F := Ideal) .f32 0x00000000#32) = (0 : EReal) from Ideal.ofBits_zero_f32]

/-- The classifier's body at `(p, q)`. -/
theorem pay5_apply (g : FVec Ideal S1000x32 .f32) (w1 : FVec Ideal S32x32 .f32) (b1 : FVec Ideal S1x32 .f32)
    (w2 : FVec Ideal S32x10 .f32) (b2 : FVec Ideal S1x10 .f32) (p : Fin 1000) (q : Fin 10) :
    k5_pay1 (F := Ideal) g w1 b1 w2 b2 (ix2 p q) = logSoftmaxAt (logits g w1 b1 w2 b2) p q := by
  unfold k5_pay1
  simp only [shapeCast_self]
  refine (LibSoftmax.kernel_apply _ reduces_S1000x10_S1000 (.inl rfl) rfl rfl shapeCasts_S1000_S1000x1 broadcasts_S1000x1_S1000x10 p q).trans ?_
  refine logSoftmaxAt_congr _ _ p q fun k => ?_
  rw [logits_ix2]
  exact logits5_apply g w1 b1 w2 b2 p k

variable (V : (c : Dev nD) → (b : Ref sig .tc) → Buf (Elt Ideal) ((c : Thread nD τ).loc b))

theorem hz5 : (![0, 0] : Fin 2 → Nat) = fun _ => 0 := funext fun a => by fin_cases a <;> rfl

/-- The printed index maps, decided over the grid: every window is at its one block. -/
theorem idx_facts5 : ∀ t : Fin cfg5.N, (win5_0.index t (0 : Fin 2) = 0 ∧ win5_0.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0) :=
  (by decide +kernel : ∀ t : Fin grid5.N, _)

theorem iblk5_0 (c : Dev nD) (t : Fin cfg5.N) : (iblk5 V c 0 t : S1000x32.Idx → Elt Ideal .f32) = V c main_v81 := by
  have e0 : win5_0.index t (0 : Fin 2) = 0 := (idx_facts5 t).1 |>.1
  have e1 : win5_0.index t (1 : Fin 2) = 0 := (idx_facts5 t).1 |>.2
  funext y
  show V c main_v81 (((cfg5.win 0).blk t).view.emb y) = V c main_v81 y
  refine congrArg _ (funext fun a => Fin.ext ?_)
  match a with
  | ⟨0, _⟩ => show win5_0.index t (0 : Fin 2) * 1000 + 1 * (y 0).val = (y 0).val; rw [e0]; omega
  | ⟨1, _⟩ => show win5_0.index t (1 : Fin 2) * 32 + 1 * (y 1).val = (y 1).val; rw [e1]; omega
theorem iblk5_1 (c : Dev nD) (t : Fin cfg5.N) : (iblk5 V c 1 t : S32x32.Idx → Elt Ideal .f32) = V c main_arg19 := by
  have e0 : win5_1.index t (0 : Fin 2) = 0 := (idx_facts5 t).2.1 |>.1
  have e1 : win5_1.index t (1 : Fin 2) = 0 := (idx_facts5 t).2.1 |>.2
  funext y
  show V c main_arg19 (((cfg5.win 1).blk t).view.emb y) = V c main_arg19 y
  refine congrArg _ (funext fun a => Fin.ext ?_)
  match a with
  | ⟨0, _⟩ => show win5_1.index t (0 : Fin 2) * 32 + 1 * (y 0).val = (y 0).val; rw [e0]; omega
  | ⟨1, _⟩ => show win5_1.index t (1 : Fin 2) * 32 + 1 * (y 1).val = (y 1).val; rw [e1]; omega
theorem iblk5_2 (c : Dev nD) (t : Fin cfg5.N) : (iblk5 V c 2 t : S1x32.Idx → Elt Ideal .f32) = V c main_v82 := by
  have e0 : win5_2.index t (0 : Fin 2) = 0 := (idx_facts5 t).2.2.1 |>.1
  have e1 : win5_2.index t (1 : Fin 2) = 0 := (idx_facts5 t).2.2.1 |>.2
  funext y
  show V c main_v82 (((cfg5.win 2).blk t).view.emb y) = V c main_v82 y
  refine congrArg _ (funext fun a => Fin.ext ?_)
  match a with
  | ⟨0, _⟩ => show win5_2.index t (0 : Fin 2) * 1 + 1 * (y 0).val = (y 0).val; rw [e0]; omega
  | ⟨1, _⟩ => show win5_2.index t (1 : Fin 2) * 32 + 1 * (y 1).val = (y 1).val; rw [e1]; omega
theorem iblk5_3 (c : Dev nD) (t : Fin cfg5.N) : (iblk5 V c 3 t : S32x10.Idx → Elt Ideal .f32) = V c main_arg21 := by
  have e0 : win5_3.index t (0 : Fin 2) = 0 := (idx_facts5 t).2.2.2.1 |>.1
  have e1 : win5_3.index t (1 : Fin 2) = 0 := (idx_facts5 t).2.2.2.1 |>.2
  funext y
  show V c main_arg21 (((cfg5.win 3).blk t).view.emb y) = V c main_arg21 y
  refine congrArg _ (funext fun a => Fin.ext ?_)
  match a with
  | ⟨0, _⟩ => show win5_3.index t (0 : Fin 2) * 32 + 1 * (y 0).val = (y 0).val; rw [e0]; omega
  | ⟨1, _⟩ => show win5_3.index t (1 : Fin 2) * 10 + 1 * (y 1).val = (y 1).val; rw [e1]; omega
theorem iblk5_4 (c : Dev nD) (t : Fin cfg5.N) : (iblk5 V c 4 t : S1x10.Idx → Elt Ideal .f32) = V c main_v83 := by
  have e0 : win5_4.index t (0 : Fin 2) = 0 := (idx_facts5 t).2.2.2.2.1 |>.1
  have e1 : win5_4.index t (1 : Fin 2) = 0 := (idx_facts5 t).2.2.2.2.1 |>.2
  funext y
  show V c main_v83 (((cfg5.win 4).blk t).view.emb y) = V c main_v83 y
  refine congrArg _ (funext fun a => Fin.ext ?_)
  match a with
  | ⟨0, _⟩ => show win5_4.index t (0 : Fin 2) * 1 + 1 * (y 0).val = (y 0).val; rw [e0]; omega
  | ⟨1, _⟩ => show win5_4.index t (1 : Fin 2) * 10 + 1 * (y 1).val = (y 1).val; rw [e1]; omega

/-- The head of the arrays the region finds. -/
abbrev G5 (c : Dev nD) : S1000x10.Idx → Elt Ideal .f32 :=
  head (V c main_v81) (V c main_arg19) (V c main_v82) (V c main_arg21) (V c main_v83)

/-- An entry of the body's store is the head at the same index. -/
theorem pay5_block (g : FVec Ideal S1000x32 .f32) (w1 : FVec Ideal S32x32 .f32) (b1 : FVec Ideal S1x32 .f32)
    (w2 : FVec Ideal S32x10 .f32) (b2 : FVec Ideal S1x10 .f32) (j i : S1000x10.Idx)
    (h0 : (i 0).val = (j 0).val) (h1 : (i 1).val = (j 1).val) :
    k5_pay1 (F := Ideal) g w1 b1 w2 b2 j = head g w1 b1 w2 b2 i := by
  have hij : i = j := funext fun a => Fin.ext (by
    match a with
    | ⟨0, _⟩ => exact h0
    | ⟨1, _⟩ => exact h1)
  subst hij
  obtain ⟨p, q, rfl⟩ : ∃ (p : Fin 1000) (q : Fin 10), i = ix2 p q := ⟨i 0, i 1, eq_ix2 i⟩
  rw [head_ix2]
  exact pay5_apply g w1 b1 w2 b2 p q

/-- What the one point writes back is the head of the arrays the region finds. -/
theorem flushed5_eq (c : Dev nD) (t : Fin cfg5.N) :
    (dat5 V c).flushed 5 t = ((cfg5.win 5).blk t).view.read (Elt Ideal) (G5 V c) := by
  show (cfg5.win 5).cut (grid5.coords t) ((dat5 V c).after 5 t) = _
  rw [after5_5]
  unfold out5_5
  rw [View.canon_unit_zero hz5]
  simp only [View.ld_unit_zero (S := S1000x32) hz5, View.ld_unit_zero (S := S32x32) hz5, View.ld_unit_zero (S := S1x32) hz5,
    View.ld_unit_zero (S := S32x10) hz5, View.ld_unit_zero (S := S1x10) hz5]
  rw [iblk5_0, iblk5_1, iblk5_2, iblk5_3, iblk5_4]
  obtain ⟨-, -, -, -, -, e0, e1⟩ := idx_facts5 t
  funext j
  show k5_pay1 (F := Ideal) (V c main_v81) (V c main_arg19) (V c main_v82) (V c main_arg21) (V c main_v83) j
    = head (V c main_v81) (V c main_arg19) (V c main_v82) (V c main_arg21) (V c main_v83) (((cfg5.win 5).blk t).view.emb j)
  refine pay5_block _ _ _ _ _ j _ ?_ ?_
  · show win5_5.index t (0 : Fin 2) * 1000 + 1 * (j 0).val = (j 0).val; rw [e0]; omega
  · show win5_5.index t (1 : Fin 2) * 10 + 1 * (j 1).val = (j 1).val; rw [e1]; omega

/-- The one block is the whole output array. -/
theorem cover5 (i : S1000x10.Idx) : ∃ t : Fin cfg5.N, (cfg5.win 5).flush t = true ∧ i ∈ ((cfg5.win 5).blk t).view.set := by
  have hi0 : (i 0).val < 1000 := (i 0).isLt
  have hi1 : (i 1).val < 10 := (i 1).isLt
  obtain ⟨t, htv⟩ : ∃ t : Fin cfg5.N, t.val = 0 :=
    ⟨⟨0, by have h1 : cfg5.N = 1 := N_5; have h2 : grid5.N = 1 := N_5; omega⟩, rfl⟩
  refine ⟨t, flush5_5 t, ?_⟩
  obtain ⟨-, -, -, -, -, e0, e1⟩ := idx_facts5 t
  show i ∈ ((View.whole main_v84).slice (win5_5.rect t)).set
  rw [View.set_slice_whole, Rect.mem_set_unit]
  intro a
  match a with
  | ⟨0, _⟩ =>
    show win5_5.index t (0 : Fin 2) * 1000 ≤ (i 0).val ∧ (i 0).val < win5_5.index t (0 : Fin 2) * 1000 + 1000
    rw [e0]; omega
  | ⟨1, _⟩ =>
    show win5_5.index t (1 : Fin 2) * 10 ≤ (i 1).val ∧ (i 1).val < win5_5.index t (1 : Fin 2) * 10 + 10
    rw [e1]; omega

/-- The output array after the region: the head of the arrays the region finds. -/
theorem final5 (c : Dev nD) : (dat5 V c).arrAt 5 cfg5.N = G5 V c :=
  (dat5 V c).arrAt_eq_of_cover 5 (G5 V c) (fun t _ => flushed5_eq V c t) (cover5)

end Cert.KernelIdeal.Hand

end
-- ==== Proof.NetSpec.lean ====
/-
  The whole network as one function of its arrays, at the extended reals: five graph-convolution layers, each the
  layer of the aggregated messages of the previous layer's output and of that output itself; then the pooling of the
  nodes' features into the graphs'; then the classifier head. The aggregation of a layer's input over the edges
  (a gather along the edges' sources, a weighting, and a scatter-add at the edges' targets) and the pooling (a
  scatter-add at the nodes' graphs) are the same host operations in both programs, and are parameters here:
  `agg1` at width 128, `agg2` at width 32, `pool`.
-/
import proofs.«180868_j61280593379653_1_alg».proof.Proof.LayerSpec
import proofs.«180868_j61280593379653_1_alg».proof.Proof.HeadSpec

noncomputable section

namespace Cert.Net

open Idealize.ShloMosaic Idealize.ShloMosaic.ValueIdx

/-- One layer from its input `h`: the layer of `h`'s aggregated messages and of `h`. -/
def step {N K M : ℕ} (agg : FVec Ideal ⟨2, ![N, K]⟩ .f32 → FVec Ideal ⟨2, ![N, K]⟩ .f32) (h : FVec Ideal ⟨2, ![N, K]⟩ .f32)
    (wr wo : FVec Ideal ⟨2, ![K, M]⟩ .f32) (b : FVec Ideal ⟨2, ![1, M]⟩ .f32) : FVec Ideal ⟨2, ![N, M]⟩ .f32 :=
  layer (agg h) h wr wo b

/-- The network. -/
def net (agg1 : FVec Ideal ⟨2, ![100000, 128]⟩ .f32 → FVec Ideal ⟨2, ![100000, 128]⟩ .f32)
    (agg2 : FVec Ideal ⟨2, ![100000, 32]⟩ .f32 → FVec Ideal ⟨2, ![100000, 32]⟩ .f32)
    (pool : FVec Ideal ⟨2, ![100000, 32]⟩ .f32 → FVec Ideal ⟨2, ![1000, 32]⟩ .f32)
    (x : FVec Ideal ⟨2, ![100000, 128]⟩ .f32)
    (wr1 wo1 : FVec Ideal ⟨2, ![128, 32]⟩ .f32) (b1 : FVec Ideal ⟨2, ![1, 32]⟩ .f32)
    (wr2 wo2 : FVec Ideal ⟨2, ![32, 32]⟩ .f32) (b2 : FVec Ideal ⟨2, ![1, 32]⟩ .f32)
    (wr3 wo3 : FVec Ideal ⟨2, ![32, 32]⟩ .f32) (b3 : FVec Ideal ⟨2, ![1, 32]⟩ .f32)
    (wr4 wo4 : FVec Ideal ⟨2, ![32, 32]⟩ .f32) (b4 : FVec Ideal ⟨2, ![1, 32]⟩ .f32)
    (wr5 wo5 : FVec Ideal ⟨2, ![32, 32]⟩ .f32) (b5 : FVec Ideal ⟨2, ![1, 32]⟩ .f32)
    (wl1 : FVec Ideal ⟨2, ![32, 32]⟩ .f32) (bl1 : FVec Ideal ⟨2, ![1, 32]⟩ .f32)
    (wl2 : FVec Ideal ⟨2, ![32, 10]⟩ .f32) (bl2 : FVec Ideal ⟨2, ![1, 10]⟩ .f32) : FVec Ideal ⟨2, ![1000, 10]⟩ .f32 :=
  head (pool (step agg2 (step agg2 (step agg2 (step agg2 (step agg1 x wr1 wo1 b1) wr2 wo2 b2) wr3 wo3 b3) wr4 wo4 b4) wr5 wo5 b5))
    wl1 bl1 wl2 bl2

end Cert.Net

end
-- ==== Proof.KNet.lean ====
/-
  The idealized kernel's result as the network of its arguments. Each stretch of host operations is read at the
  buffers the next region takes (the aggregated messages, the bias as a one-row array; the buffers it does not write
  are kept); each region's output is the layer, or the head, of the arrays it finds (the region modules); and the
  chain of the six regions from the launch memory gives the result buffer's final contents as `Cert.Net.net` over the
  shared host operations.
-/
import proofs.«180868_j61280593379653_1_alg».proof.Proof.KWalk
import proofs.«180868_j61280593379653_1_alg».proof.Proof.Region0
import proofs.«180868_j61280593379653_1_alg».proof.Proof.Region1
import proofs.«180868_j61280593379653_1_alg».proof.Proof.Region2
import proofs.«180868_j61280593379653_1_alg».proof.Proof.Region3
import proofs.«180868_j61280593379653_1_alg».proof.Proof.Region4
import proofs.«180868_j61280593379653_1_alg».proof.Proof.Region5
import proofs.«180868_j61280593379653_1_alg».proof.Proof.NetSpec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Cert.Net

variable (m : (ℓ : Loc nD τ sig) → Buf (Elt Ideal) ℓ) (ρ : Dev nD → PrngReg)

/-! ## The host stretches, read at what the next region takes -/
set_option maxHeartbeats 2000000 in
theorem hagg0 (c : Dev nD) : W1 m ρ c (Proc.devRef .tc main_v16) = agg128 (srcRaw (W0 m ρ c (Proc.devRef .tc main_arg1))) (dstRaw (W0 m ρ c (Proc.devRef .tc main_arg1))) (W0 m ρ c (Proc.devRef .tc main_arg3)) (W0 m ρ c (Proc.devRef .tc main_arg0)) := by
  show StableHlo.after hostOps0 (W0 m ρ c) (Proc.devRef .tc main_v16) = _
  after_results_simp <;> rfl
set_option maxHeartbeats 2000000 in
theorem hagg1 (c : Dev nD) : W3 m ρ c (Proc.devRef .tc main_v31) = agg32 (W2 m ρ c (Proc.devRef .tc main_v1)) (W2 m ρ c (Proc.devRef .tc main_v3)) (W2 m ρ c (Proc.devRef .tc main_arg3)) (W2 m ρ c (Proc.devRef .tc main_v18)) := by
  show StableHlo.after hostOps1 (W2 m ρ c) (Proc.devRef .tc main_v31) = _
  after_results_simp <;> rfl
set_option maxHeartbeats 2000000 in
theorem hagg2 (c : Dev nD) : W5 m ρ c (Proc.devRef .tc main_v46) = agg32 (W4 m ρ c (Proc.devRef .tc main_v1)) (W4 m ρ c (Proc.devRef .tc main_v3)) (W4 m ρ c (Proc.devRef .tc main_arg3)) (W4 m ρ c (Proc.devRef .tc main_v33)) := by
  show StableHlo.after hostOps2 (W4 m ρ c) (Proc.devRef .tc main_v46) = _
  after_results_simp <;> rfl
set_option maxHeartbeats 2000000 in
theorem hagg3 (c : Dev nD) : W7 m ρ c (Proc.devRef .tc main_v61) = agg32 (W6 m ρ c (Proc.devRef .tc main_v1)) (W6 m ρ c (Proc.devRef .tc main_v3)) (W6 m ρ c (Proc.devRef .tc main_arg3)) (W6 m ρ c (Proc.devRef .tc main_v48)) := by
  show StableHlo.after hostOps3 (W6 m ρ c) (Proc.devRef .tc main_v61) = _
  after_results_simp <;> rfl
set_option maxHeartbeats 2000000 in
theorem hagg4 (c : Dev nD) : W9 m ρ c (Proc.devRef .tc main_v76) = agg32 (W8 m ρ c (Proc.devRef .tc main_v1)) (W8 m ρ c (Proc.devRef .tc main_v3)) (W8 m ρ c (Proc.devRef .tc main_arg3)) (W8 m ρ c (Proc.devRef .tc main_v63)) := by
  show StableHlo.after hostOps4 (W8 m ρ c) (Proc.devRef .tc main_v76) = _
  after_results_simp <;> rfl
theorem hbias0 (c : Dev nD) : W1 m ρ c (Proc.devRef .tc main_v17) = (shapeCast S1x32 (W0 m ρ c (Proc.devRef .tc main_arg5)) shapeCasts_S32_S1x32) := by
  show StableHlo.after hostOps0 (W0 m ρ c) (Proc.devRef .tc main_v17) = _
  after_results <;> rfl
theorem hbias1 (c : Dev nD) : W3 m ρ c (Proc.devRef .tc main_v32) = (shapeCast S1x32 (W2 m ρ c (Proc.devRef .tc main_arg8)) shapeCasts_S32_S1x32) := by
  show StableHlo.after hostOps1 (W2 m ρ c) (Proc.devRef .tc main_v32) = _
  after_results <;> rfl
theorem hbias2 (c : Dev nD) : W5 m ρ c (Proc.devRef .tc main_v47) = (shapeCast S1x32 (W4 m ρ c (Proc.devRef .tc main_arg11)) shapeCasts_S32_S1x32) := by
  show StableHlo.after hostOps2 (W4 m ρ c) (Proc.devRef .tc main_v47) = _
  after_results <;> rfl
theorem hbias3 (c : Dev nD) : W7 m ρ c (Proc.devRef .tc main_v62) = (shapeCast S1x32 (W6 m ρ c (Proc.devRef .tc main_arg14)) shapeCasts_S32_S1x32) := by
  show StableHlo.after hostOps3 (W6 m ρ c) (Proc.devRef .tc main_v62) = _
  after_results <;> rfl
theorem hbias4 (c : Dev nD) : W9 m ρ c (Proc.devRef .tc main_v77) = (shapeCast S1x32 (W8 m ρ c (Proc.devRef .tc main_arg17)) shapeCasts_S32_S1x32) := by
  show StableHlo.after hostOps4 (W8 m ρ c) (Proc.devRef .tc main_v77) = _
  after_results <;> rfl
theorem hkeep1 (c : Dev nD) : W3 m ρ c (Proc.devRef .tc main_v18) = W2 m ρ c (Proc.devRef .tc main_v18) :=
  (by show StableHlo.after hostOps1 (W2 m ρ c) (Proc.devRef .tc main_v18) = _; after_results : W3 m ρ c (Proc.devRef .tc main_v18) = W2 m ρ c (Proc.devRef .tc main_v18))
theorem hkeep2 (c : Dev nD) : W5 m ρ c (Proc.devRef .tc main_v33) = W4 m ρ c (Proc.devRef .tc main_v33) :=
  (by show StableHlo.after hostOps2 (W4 m ρ c) (Proc.devRef .tc main_v33) = _; after_results : W5 m ρ c (Proc.devRef .tc main_v33) = W4 m ρ c (Proc.devRef .tc main_v33))
theorem hkeep3 (c : Dev nD) : W7 m ρ c (Proc.devRef .tc main_v48) = W6 m ρ c (Proc.devRef .tc main_v48) :=
  (by show StableHlo.after hostOps3 (W6 m ρ c) (Proc.devRef .tc main_v48) = _; after_results : W7 m ρ c (Proc.devRef .tc main_v48) = W6 m ρ c (Proc.devRef .tc main_v48))
theorem hkeep4 (c : Dev nD) : W9 m ρ c (Proc.devRef .tc main_v63) = W8 m ρ c (Proc.devRef .tc main_v63) :=
  (by show StableHlo.after hostOps4 (W8 m ρ c) (Proc.devRef .tc main_v63) = _; after_results : W9 m ρ c (Proc.devRef .tc main_v63) = W8 m ρ c (Proc.devRef .tc main_v63))
theorem hg (c : Dev nD) : W11 m ρ c (Proc.devRef .tc main_v81) = pool (W10 m ρ c (Proc.devRef .tc main_arg2)) (W10 m ρ c (Proc.devRef .tc main_v78)) := by
  show StableHlo.after hostOps5 (W10 m ρ c) (Proc.devRef .tc main_v81) = _
  after_results <;> rfl
theorem hb1 (c : Dev nD) : W11 m ρ c (Proc.devRef .tc main_v82) = (shapeCast S1x32 (W10 m ρ c (Proc.devRef .tc main_arg20)) shapeCasts_S32_S1x32) := by
  show StableHlo.after hostOps5 (W10 m ρ c) (Proc.devRef .tc main_v82) = _
  after_results <;> rfl
theorem hb2 (c : Dev nD) : W11 m ρ c (Proc.devRef .tc main_v83) = (shapeCast S1x10 (W10 m ρ c (Proc.devRef .tc main_arg22)) shapeCasts_S10_S1x10) := by
  show StableHlo.after hostOps5 (W10 m ρ c) (Proc.devRef .tc main_v83) = _
  after_results <;> rfl

/-! ## The regions' outputs from the arrays they find -/
theorem rout0 (c : Dev nD) : W2 m ρ c (Proc.devRef .tc main_v18) = layer (W1 m ρ c (Proc.devRef .tc main_v16)) (W1 m ρ c (Proc.devRef .tc main_arg0)) (W1 m ρ c (Proc.devRef .tc main_arg4)) (W1 m ρ c (Proc.devRef .tc main_arg6)) (W1 m ρ c (Proc.devRef .tc main_v17)) :=
  (W2_arr m ρ c 5).trans (final0 (V1 m ρ) c)
theorem rout1 (c : Dev nD) : W4 m ρ c (Proc.devRef .tc main_v33) = layer (W3 m ρ c (Proc.devRef .tc main_v31)) (W3 m ρ c (Proc.devRef .tc main_v18)) (W3 m ρ c (Proc.devRef .tc main_arg7)) (W3 m ρ c (Proc.devRef .tc main_arg9)) (W3 m ρ c (Proc.devRef .tc main_v32)) :=
  (W4_arr m ρ c 5).trans (final1 (V3 m ρ) c)
theorem rout2 (c : Dev nD) : W6 m ρ c (Proc.devRef .tc main_v48) = layer (W5 m ρ c (Proc.devRef .tc main_v46)) (W5 m ρ c (Proc.devRef .tc main_v33)) (W5 m ρ c (Proc.devRef .tc main_arg10)) (W5 m ρ c (Proc.devRef .tc main_arg12)) (W5 m ρ c (Proc.devRef .tc main_v47)) :=
  (W6_arr m ρ c 5).trans (final2 (V5 m ρ) c)
theorem rout3 (c : Dev nD) : W8 m ρ c (Proc.devRef .tc main_v63) = layer (W7 m ρ c (Proc.devRef .tc main_v61)) (W7 m ρ c (Proc.devRef .tc main_v48)) (W7 m ρ c (Proc.devRef .tc main_arg13)) (W7 m ρ c (Proc.devRef .tc main_arg15)) (W7 m ρ c (Proc.devRef .tc main_v62)) :=
  (W8_arr m ρ c 5).trans (final3 (V7 m ρ) c)
theorem rout4 (c : Dev nD) : W10 m ρ c (Proc.devRef .tc main_v78) = layer (W9 m ρ c (Proc.devRef .tc main_v76)) (W9 m ρ c (Proc.devRef .tc main_v63)) (W9 m ρ c (Proc.devRef .tc main_arg16)) (W9 m ρ c (Proc.devRef .tc main_arg18)) (W9 m ρ c (Proc.devRef .tc main_v77)) :=
  (W10_arr m ρ c 5).trans (final4 (V9 m ρ) c)
theorem rout5 (c : Dev nD) : W12 m ρ c (Proc.devRef .tc main_v84) = head (W11 m ρ c (Proc.devRef .tc main_v81)) (W11 m ρ c (Proc.devRef .tc main_arg19)) (W11 m ρ c (Proc.devRef .tc main_v82)) (W11 m ρ c (Proc.devRef .tc main_arg21)) (W11 m ρ c (Proc.devRef .tc main_v83)) :=
  (W12_arr m ρ c 5).trans (final5 (V11 m ρ) c)

/-! ## The chain -/

/-- The first layer's output, of the arguments. -/
def hK1 (c : Dev nD) : (⟨S100000x32, .f32⟩ : BufTy).Contents (Elt Ideal) :=
  step (agg128 (srcRaw (m ((c : Thread nD τ).loc main_arg1))) (dstRaw (m ((c : Thread nD τ).loc main_arg1))) (m ((c : Thread nD τ).loc main_arg3))) (m ((c : Thread nD τ).loc main_arg0)) (m ((c : Thread nD τ).loc main_arg4)) (m ((c : Thread nD τ).loc main_arg6)) (shapeCast S1x32 (m ((c : Thread nD τ).loc main_arg5)) shapeCasts_S32_S1x32)
/-- Layer 2's output, of the arguments. -/
def hK2 (c : Dev nD) : (⟨S100000x32, .f32⟩ : BufTy).Contents (Elt Ideal) :=
  step (agg32 (srcRaw (m ((c : Thread nD τ).loc main_arg1))) (dstRaw (m ((c : Thread nD τ).loc main_arg1))) (m ((c : Thread nD τ).loc main_arg3))) (hK1 m c) (m ((c : Thread nD τ).loc main_arg7)) (m ((c : Thread nD τ).loc main_arg9)) (shapeCast S1x32 (m ((c : Thread nD τ).loc main_arg8)) shapeCasts_S32_S1x32)
/-- Layer 3's output, of the arguments. -/
def hK3 (c : Dev nD) : (⟨S100000x32, .f32⟩ : BufTy).Contents (Elt Ideal) :=
  step (agg32 (srcRaw (m ((c : Thread nD τ).loc main_arg1))) (dstRaw (m ((c : Thread nD τ).loc main_arg1))) (m ((c : Thread nD τ).loc main_arg3))) (hK2 m c) (m ((c : Thread nD τ).loc main_arg10)) (m ((c : Thread nD τ).loc main_arg12)) (shapeCast S1x32 (m ((c : Thread nD τ).loc main_arg11)) shapeCasts_S32_S1x32)
/-- Layer 4's output, of the arguments. -/
def hK4 (c : Dev nD) : (⟨S100000x32, .f32⟩ : BufTy).Contents (Elt Ideal) :=
  step (agg32 (srcRaw (m ((c : Thread nD τ).loc main_arg1))) (dstRaw (m ((c : Thread nD τ).loc main_arg1))) (m ((c : Thread nD τ).loc main_arg3))) (hK3 m c) (m ((c : Thread nD τ).loc main_arg13)) (m ((c : Thread nD τ).loc main_arg15)) (shapeCast S1x32 (m ((c : Thread nD τ).loc main_arg14)) shapeCasts_S32_S1x32)
/-- Layer 5's output, of the arguments. -/
def hK5 (c : Dev nD) : (⟨S100000x32, .f32⟩ : BufTy).Contents (Elt Ideal) :=
  step (agg32 (srcRaw (m ((c : Thread nD τ).loc main_arg1))) (dstRaw (m ((c : Thread nD τ).loc main_arg1))) (m ((c : Thread nD τ).loc main_arg3))) (hK4 m c) (m ((c : Thread nD τ).loc main_arg16)) (m ((c : Thread nD τ).loc main_arg18)) (shapeCast S1x32 (m ((c : Thread nD τ).loc main_arg17)) shapeCasts_S32_S1x32)

theorem kout0 (c : Dev nD) : W2 m ρ c (Proc.devRef .tc main_v18) = hK1 m c := by
  refine (rout0 m ρ c).trans ?_
  rw [hagg0 m ρ c, x1 m ρ c, wr0 m ρ c, wo0 m ρ c, hbias0 m ρ c]
  rfl
theorem kout1 (c : Dev nD) : W4 m ρ c (Proc.devRef .tc main_v33) = hK2 m c := by
  refine (rout1 m ρ c).trans ?_
  rw [hagg1 m ρ c, src2 m ρ c, dst2 m ρ c, ew2 m ρ c, hkeep1 m ρ c, kout0 m ρ c, wr1 m ρ c, wo1 m ρ c, hbias1 m ρ c, br1 m ρ c]
  rfl
theorem kout2 (c : Dev nD) : W6 m ρ c (Proc.devRef .tc main_v48) = hK3 m c := by
  refine (rout2 m ρ c).trans ?_
  rw [hagg2 m ρ c, src4 m ρ c, dst4 m ρ c, ew4 m ρ c, hkeep2 m ρ c, kout1 m ρ c, wr2 m ρ c, wo2 m ρ c, hbias2 m ρ c, br2 m ρ c]
  rfl
theorem kout3 (c : Dev nD) : W8 m ρ c (Proc.devRef .tc main_v63) = hK4 m c := by
  refine (rout3 m ρ c).trans ?_
  rw [hagg3 m ρ c, src6 m ρ c, dst6 m ρ c, ew6 m ρ c, hkeep3 m ρ c, kout2 m ρ c, wr3 m ρ c, wo3 m ρ c, hbias3 m ρ c, br3 m ρ c]
  rfl
theorem kout4 (c : Dev nD) : W10 m ρ c (Proc.devRef .tc main_v78) = hK5 m c := by
  refine (rout4 m ρ c).trans ?_
  rw [hagg4 m ρ c, src8 m ρ c, dst8 m ρ c, ew8 m ρ c, hkeep4 m ρ c, kout3 m ρ c, wr4 m ρ c, wo4 m ρ c, hbias4 m ρ c, br4 m ρ c]
  rfl

/-- The network of the launch memory's argument arrays. -/
def netK (c : Dev nD) : (⟨S1000x10, .f32⟩ : BufTy).Contents (Elt Ideal) :=
  net (agg128 (srcRaw (m ((c : Thread nD τ).loc main_arg1))) (dstRaw (m ((c : Thread nD τ).loc main_arg1))) (m ((c : Thread nD τ).loc main_arg3))) (agg32 (srcRaw (m ((c : Thread nD τ).loc main_arg1))) (dstRaw (m ((c : Thread nD τ).loc main_arg1))) (m ((c : Thread nD τ).loc main_arg3))) (pool (m ((c : Thread nD τ).loc main_arg2))) (m ((c : Thread nD τ).loc main_arg0))
    (m ((c : Thread nD τ).loc main_arg4)) (m ((c : Thread nD τ).loc main_arg6)) (shapeCast S1x32 (m ((c : Thread nD τ).loc main_arg5)) shapeCasts_S32_S1x32)
    (m ((c : Thread nD τ).loc main_arg7)) (m ((c : Thread nD τ).loc main_arg9)) (shapeCast S1x32 (m ((c : Thread nD τ).loc main_arg8)) shapeCasts_S32_S1x32)
    (m ((c : Thread nD τ).loc main_arg10)) (m ((c : Thread nD τ).loc main_arg12)) (shapeCast S1x32 (m ((c : Thread nD τ).loc main_arg11)) shapeCasts_S32_S1x32)
    (m ((c : Thread nD τ).loc main_arg13)) (m ((c : Thread nD τ).loc main_arg15)) (shapeCast S1x32 (m ((c : Thread nD τ).loc main_arg14)) shapeCasts_S32_S1x32)
    (m ((c : Thread nD τ).loc main_arg16)) (m ((c : Thread nD τ).loc main_arg18)) (shapeCast S1x32 (m ((c : Thread nD τ).loc main_arg17)) shapeCasts_S32_S1x32)
    (m ((c : Thread nD τ).loc main_arg19)) (shapeCast S1x32 (m ((c : Thread nD τ).loc main_arg20)) shapeCasts_S32_S1x32) (m ((c : Thread nD τ).loc main_arg21)) (shapeCast S1x10 (m ((c : Thread nD τ).loc main_arg22)) shapeCasts_S10_S1x10)

/-- The result buffer's final contents. -/
theorem result (c : Dev nD) : W12 m ρ c (Proc.devRef .tc main_v84) = netK m c := by
  refine (rout5 m ρ c).trans ?_
  rw [hg m ρ c, batch10 m ρ c, kout4 m ρ c, wl1 m ρ c, hb1 m ρ c, bl1 m ρ c, wl2 m ρ c, hb2 m ρ c, bl2 m ρ c]
  rfl

end Cert.KernelIdeal.Hand

end
-- ==== Proof.GlueR.lean ====
/-
  The host operations the two programs share, as functions: the two rows of the edge list (sources and targets), the
  source row made safe as an index (a negative entry shifted up by the number of nodes), the aggregation of a layer's
  input over the edges — gather each edge's source row, weight it by the edge's weight, add it into the edge's target
  row of a zero array — at width 128 and at width 32, and the pooling of the nodes' rows into their graphs' rows.
-/
import proofs.«180868_j61280593379653_1_alg».proof.ReferenceIdeal
import proofs.«180868_j61280593379653_1_alg».proof.Proof.Gen.ReferenceIdeal
import Idealize.ShloMosaic.PureOps.Ideal

noncomputable section

namespace Cert.ReferenceIdeal.Hand

open Cert.ReferenceIdeal Cert.ReferenceIdeal.Facts₀ Idealize.ShloMosaic

/-- The sources' row of the edge list. -/
def srcRaw (ei : (⟨S2x1600000, .i32⟩ : BufTy).Contents (Elt Ideal)) : (⟨S1600000, .i32⟩ : BufTy).Contents (Elt Ideal) :=
  shapeCast _ ((extractStridedSlice S1x1600000 ![0, 0] ei slices_S2x1600000_S1x1600000_0_0) : (⟨S1x1600000, .i32⟩ : BufTy).Contents (Elt Ideal)) shapeCasts_S1x1600000_S1600000

/-- The targets' row of the edge list. -/
def dstRaw (ei : (⟨S2x1600000, .i32⟩ : BufTy).Contents (Elt Ideal)) : (⟨S1600000, .i32⟩ : BufTy).Contents (Elt Ideal) :=
  shapeCast _ ((extractStridedSlice S1x1600000 ![1, 0] ei slices_S2x1600000_S1x1600000_1_0) : (⟨S1x1600000, .i32⟩ : BufTy).Contents (Elt Ideal)) shapeCasts_S1x1600000_S1600000

/-- The sources as a column of gather indices, a negative one shifted up by the number of nodes. -/
def srcIdx (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The aggregation over the edges at width 128. -/
def agg128 (s d : (⟨S1600000, .i32⟩ : BufTy).Contents (Elt Ideal)) (ew : (⟨S1600000, .f32⟩ : BufTy).Contents (Elt Ideal))
    (h : (⟨S100000x128, .f32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (mulf (Host.gather gather_S100000x128_S1600000x1_S1600000x128_1_0_n_n_0_1_1128 h (srcIdx s))
      (broadcastInDim S1600000x128 ![0, 1] bcast_S1600000x1_S1600000x128_0_1 (broadcastInDim S1600000x1 ![0] bcast_S1600000_S1600000x1_0 ew)))

/-- The aggregation over the edges at width 32. -/
def agg32 (s d : (⟨S1600000, .i32⟩ : BufTy).Contents (Elt Ideal)) (ew : (⟨S1600000, .f32⟩ : BufTy).Contents (Elt Ideal))
    (h : (⟨S100000x32, .f32⟩ : BufTy).Contents (Elt Ideal)) : (⟨S100000x32, .f32⟩ : BufTy).Contents (Elt Ideal) :=
  Host.scatterAdd scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 d)
    (mulf (Host.gather gather_S100000x32_S1600000x1_S1600000x32_1_0_n_n_0_1_132 h (srcIdx s))
      (broadcastInDim S1600000x32 ![0, 1] bcast_S1600000x1_S1600000x32_0_1 (broadcastInDim S1600000x1 ![0] bcast_S1600000_S1600000x1_0 ew)))

/-- The pooling of the nodes' rows into their graphs' rows. -/
def pool (batch : (⟨S100000, .i32⟩ : BufTy).Contents (Elt Ideal)) (h : (⟨S100000x32, .f32⟩ : BufTy).Contents (Elt Ideal)) :
    (⟨S1000x32, .f32⟩ : BufTy).Contents (Elt Ideal) :=
  Host.scatterAdd scatter_S1000x32_S100000x1_S100000x32_1_0_0_1
    (broadcastInDim S1000x32 ![] bcast_S_S1000x32 (constant (F := Ideal) S_ .f32 0x00000000#32))
    (broadcastInDim S100000x1 ![0] bcast_S100000_S100000x1_0 batch) h

end Cert.ReferenceIdeal.Hand

end
-- ==== Proof.RefLayer.lean ====
/-
  The reference program's pieces as functions, and each as the specification: a graph-convolution layer (two host dot
  products, the bias, the clip at zero) is `Cert.Net.layer`; the head (two dense layers and jax's log-softmax) is
  `Cert.Net.head`; the whole reference is `Cert.Net.net` over the shared host operations. The bias of a layer enters
  the reference as the vector placed on the second axis of a one-row array.
-/
import proofs.«180868_j61280593379653_1_alg».proof.ReferenceIdeal
import proofs.«180868_j61280593379653_1_alg».proof.Proof.Gen.ReferenceIdeal
import proofs.«180868_j61280593379653_1_alg».proof.Proof.GlueR
import proofs.«180868_j61280593379653_1_alg».proof.Proof.LibDot
import proofs.«180868_j61280593379653_1_alg».proof.Proof.LibBcast
import proofs.«180868_j61280593379653_1_alg».proof.Proof.LibSoftmax
import proofs.«180868_j61280593379653_1_alg».proof.Proof.NetSpec
import Idealize.ShloMosaic.Lib.Pipeline.Value
import Idealize.ShloMosaic.Lib.ValueIdx

noncomputable section

open scoped BigOperators

namespace Cert.ReferenceIdeal.Hand

open Cert.ReferenceIdeal Cert.ReferenceIdeal.Facts₀ Idealize.ShloMosaic Idealize.ShloMosaic.ValueIdx Cert.Net

/-- One layer as the reference computes it at input width 128: two host dot products, the bias spread over the rows, and a maximum with zero. -/
def refLayer128 (agg h : FVec Ideal S100000x128 .f32) (wr : FVec Ideal S128x32 .f32) (b : FVec Ideal S32 .f32) (wo : FVec Ideal S128x32 .f32) : FVec Ideal S100000x32 .f32 :=
  maximumf (addf (addf (Host.dotGeneral dot_S100000x128_S128x32_S100000x32_1_0_0_1_n_n none agg wr)
      (broadcastInDim S100000x32 ![0, 1] bcast_S1x32_S100000x32_0_1 (broadcastInDim S1x32 ![1] bcast_S32_S1x32_1 b)))
      (Host.dotGeneral dot_S100000x128_S128x32_S100000x32_1_0_0_1_n_n none h wo))
    (broadcastInDim S100000x32 ![] bcast_S_S100000x32 (constant (F := Ideal) S_ .f32 0x00000000#32))

/-- It is the layer of its arrays, the bias as a one-row array. -/
theorem refLayer128_eq (agg h : FVec Ideal S100000x128 .f32) (wr : FVec Ideal S128x32 .f32) (b : FVec Ideal S32 .f32) (wo : FVec Ideal S128x32 .f32) :
    refLayer128 agg h wr b wo = layer agg h wr wo (broadcastInDim S1x32 ![1] bcast_S32_S1x32_1 b) := by
  funext i
  obtain ⟨p, q, rfl⟩ : ∃ (p : Fin 100000) (q : Fin 32), i = ix2 p q := ⟨i 0, i 1, eq_ix2 i⟩
  rw [layer_ix2]
  unfold refLayer128 layerAt
  rw [maximumf_apply, addf_apply, addf_apply,
    LibDot.dotGeneral_apply dot_S100000x128_S128x32_S100000x32_1_0_0_1_n_n none rfl rfl rfl rfl rfl rfl rfl rfl,
    LibDot.dotGeneral_apply dot_S100000x128_S128x32_S100000x32_1_0_0_1_n_n none rfl rfl rfl rfl rfl rfl rfl rfl,
    LibBcast.r1b_ab_apply, LibBcast.scalar_apply, constant_apply, Ideal.ofBits_zero_f32]

/-- One layer as the reference computes it at input width 32: two host dot products, the bias spread over the rows, and a maximum with zero. -/
def refLayer32 (agg h : FVec Ideal S100000x32 .f32) (wr : FVec Ideal S32x32 .f32) (b : FVec Ideal S32 .f32) (wo : FVec Ideal S32x32 .f32) : FVec Ideal S100000x32 .f32 :=
  maximumf (addf (addf (Host.dotGeneral dot_S100000x32_S32x32_S100000x32_1_0_0_1_n_n none agg wr)
      (broadcastInDim S100000x32 ![0, 1] bcast_S1x32_S100000x32_0_1 (broadcastInDim S1x32 ![1] bcast_S32_S1x32_1 b)))
      (Host.dotGeneral dot_S100000x32_S32x32_S100000x32_1_0_0_1_n_n none h wo))
    (broadcastInDim S100000x32 ![] bcast_S_S100000x32 (constant (F := Ideal) S_ .f32 0x00000000#32))

/-- It is the layer of its arrays, the bias as a one-row array. -/
theorem refLayer32_eq (agg h : FVec Ideal S100000x32 .f32) (wr : FVec Ideal S32x32 .f32) (b : FVec Ideal S32 .f32) (wo : FVec Ideal S32x32 .f32) :
    refLayer32 agg h wr b wo = layer agg h wr wo (broadcastInDim S1x32 ![1] bcast_S32_S1x32_1 b) := by
  funext i
  obtain ⟨p, q, rfl⟩ : ∃ (p : Fin 100000) (q : Fin 32), i = ix2 p q := ⟨i 0, i 1, eq_ix2 i⟩
  rw [layer_ix2]
  unfold refLayer32 layerAt
  rw [maximumf_apply, addf_apply, addf_apply,
    LibDot.dotGeneral_apply dot_S100000x32_S32x32_S100000x32_1_0_0_1_n_n none rfl rfl rfl rfl rfl rfl rfl rfl,
    LibDot.dotGeneral_apply dot_S100000x32_S32x32_S100000x32_1_0_0_1_n_n none rfl rfl rfl rfl rfl rfl rfl rfl,
    LibBcast.r1b_ab_apply, LibBcast.scalar_apply, constant_apply, Ideal.ofBits_zero_f32]

/-- The reference's logits. -/
def refLogits (g : FVec Ideal S1000x32 .f32) (w1 : FVec Ideal S32x32 .f32) (b1 : FVec Ideal S32 .f32) (w2 : FVec Ideal S32x10 .f32) (b2 : FVec Ideal S10 .f32) : FVec Ideal S1000x10 .f32 :=
  addf (Host.dotGeneral dot_S1000x32_S32x10_S1000x10_1_0_0_1_n_n none
      (maximumf (addf (Host.dotGeneral dot_S1000x32_S32x32_S1000x32_1_0_0_1_n_n none g w1)
          (broadcastInDim S1000x32 ![0, 1] bcast_S1x32_S1000x32_0_1 (broadcastInDim S1x32 ![1] bcast_S32_S1x32_1 b1)))
        (broadcastInDim S1000x32 ![] bcast_S_S1000x32 (constant (F := Ideal) S_ .f32 0x00000000#32))) w2)
    (broadcastInDim S1000x10 ![0, 1] bcast_S1x10_S1000x10_0_1 (broadcastInDim S1x10 ![1] bcast_S10_S1x10_1 b2))

theorem refLogits_apply (g : FVec Ideal S1000x32 .f32) (w1 : FVec Ideal S32x32 .f32) (b1 : FVec Ideal S32 .f32) (w2 : FVec Ideal S32x10 .f32) (b2 : FVec Ideal S10 .f32)
    (p : Fin 1000) (k : Fin 10) :
    refLogits g w1 b1 w2 b2 (ix2 p k)
      = logitAt g w1 (broadcastInDim S1x32 ![1] bcast_S32_S1x32_1 b1) w2 (broadcastInDim S1x10 ![1] bcast_S10_S1x10_1 b2) p k := by
  unfold refLogits logitAt hiddenAt
  rw [addf_apply, LibDot.dotGeneral_apply dot_S1000x32_S32x10_S1000x10_1_0_0_1_n_n none rfl rfl rfl rfl rfl rfl rfl rfl,
    LibBcast.r1b_ab_apply]
  refine congrArg (fun t => t + _) (Finset.sum_congr rfl fun x _ => ?_)
  rw [maximumf_apply, addf_apply, LibDot.dotGeneral_apply dot_S1000x32_S32x32_S1000x32_1_0_0_1_n_n none rfl rfl rfl rfl rfl rfl rfl rfl,
    LibBcast.r1b_ab_apply, LibBcast.scalar_apply, constant_apply, Ideal.ofBits_zero_f32]

/-- jax's log-softmax along the rows, as the reference prints it. -/
def refSoftmax (z : FVec Ideal S1000x10 .f32) : FVec Ideal S1000x10 .f32 :=
  subf (subf z (broadcastInDim S1000x10 ![0, 1] bcast_S1000x1_S1000x10_0_1 (broadcastInDim S1000x1 ![0] bcast_S1000_S1000x1_0
      (maximumf (broadcastInDim S1000 ![] bcast_S_S1000 (constant (F := Ideal) S_ .f32 0xFF800000#32))
        (Host.reduce FloatOps.maximumf z (constant (F := Ideal) S_ .f32 0xFF800000#32) reducesTo_S1000x10_S1000_d1 h_S_)))))
    (broadcastInDim S1000x10 ![0, 1] bcast_S1000x1_S1000x10_0_1 (Host.log (broadcastInDim S1000x1 ![0] bcast_S1000_S1000x1_0
      (Host.reduceAdd (Host.exp (subf z (broadcastInDim S1000x10 ![0, 1] bcast_S1000x1_S1000x10_0_1 (broadcastInDim S1000x1 ![0] bcast_S1000_S1000x1_0
      (maximumf (broadcastInDim S1000 ![] bcast_S_S1000 (constant (F := Ideal) S_ .f32 0xFF800000#32))
        (Host.reduce FloatOps.maximumf z (constant (F := Ideal) S_ .f32 0xFF800000#32) reducesTo_S1000x10_S1000_d1 h_S_))))))
        (constant (F := Ideal) S_ .f32 0x00000000#32) reducesTo_S1000x10_S1000_d1 h_S_))))

theorem refSoftmax_apply (z : FVec Ideal S1000x10 .f32) (p : Fin 1000) (q : Fin 10) : refSoftmax z (ix2 p q) = logSoftmaxAt z p q :=
  LibSoftmax.host_apply z reducesTo_S1000x10_S1000_d1 (by decide) h_S_ bcast_S_S1000 bcast_S1000_S1000x1_0 bcast_S1000x1_S1000x10_0_1 p q

/-- The reference's head. -/
def refHead (g : FVec Ideal S1000x32 .f32) (w1 : FVec Ideal S32x32 .f32) (b1 : FVec Ideal S32 .f32) (w2 : FVec Ideal S32x10 .f32) (b2 : FVec Ideal S10 .f32) : FVec Ideal S1000x10 .f32 :=
  refSoftmax (refLogits g w1 b1 w2 b2)

theorem refHead_eq (g : FVec Ideal S1000x32 .f32) (w1 : FVec Ideal S32x32 .f32) (b1 : FVec Ideal S32 .f32) (w2 : FVec Ideal S32x10 .f32) (b2 : FVec Ideal S10 .f32) :
    refHead g w1 b1 w2 b2
      = head g w1 (broadcastInDim S1x32 ![1] bcast_S32_S1x32_1 b1) w2 (broadcastInDim S1x10 ![1] bcast_S10_S1x10_1 b2) := by
  funext i
  obtain ⟨p, q, rfl⟩ : ∃ (p : Fin 1000) (q : Fin 10), i = ix2 p q := ⟨i 0, i 1, eq_ix2 i⟩
  rw [head_ix2]
  unfold refHead
  rw [refSoftmax_apply]
  refine logSoftmaxAt_congr _ _ p q fun k => ?_
  rw [logits_ix2]
  exact refLogits_apply g w1 b1 w2 b2 p k

/-- The reference program's result as one function of its twenty-three arguments. -/
def refNet (x : FVec Ideal S100000x128 .f32) (ei : (⟨S2x1600000, .i32⟩ : BufTy).Contents (Elt Ideal)) (batch : (⟨S100000, .i32⟩ : BufTy).Contents (Elt Ideal)) (ew : FVec Ideal S1600000 .f32) (wr1 : FVec Ideal S128x32 .f32) (b1 : FVec Ideal S32 .f32) (wo1 : FVec Ideal S128x32 .f32) (wr2 : FVec Ideal S32x32 .f32) (b2 : FVec Ideal S32 .f32) (wo2 : FVec Ideal S32x32 .f32) (wr3 : FVec Ideal S32x32 .f32) (b3 : FVec Ideal S32 .f32) (wo3 : FVec Ideal S32x32 .f32) (wr4 : FVec Ideal S32x32 .f32) (b4 : FVec Ideal S32 .f32) (wo4 : FVec Ideal S32x32 .f32) (wr5 : FVec Ideal S32x32 .f32) (b5 : FVec Ideal S32 .f32) (wo5 : FVec Ideal S32x32 .f32) (wl1 : FVec Ideal S32x32 .f32) (bl1 : FVec Ideal S32 .f32) (wl2 : FVec Ideal S32x10 .f32) (bl2 : FVec Ideal S10 .f32) : FVec Ideal S1000x10 .f32 :=
  let s := srcRaw ei
  let d := dstRaw ei
  let h1 := refLayer128 (agg128 s d ew x) x wr1 b1 wo1
  let h2 := refLayer32 (agg32 s d ew h1) h1 wr2 b2 wo2
  let h3 := refLayer32 (agg32 s d ew h2) h2 wr3 b3 wo3
  let h4 := refLayer32 (agg32 s d ew h3) h3 wr4 b4 wo4
  let h5 := refLayer32 (agg32 s d ew h4) h4 wr5 b5 wo5
  refHead (pool batch h5) wl1 bl1 wl2 bl2

/-- It is the network over the shared host operations, each bias as a one-row array. -/
theorem refNet_eq (x : FVec Ideal S100000x128 .f32) (ei : (⟨S2x1600000, .i32⟩ : BufTy).Contents (Elt Ideal)) (batch : (⟨S100000, .i32⟩ : BufTy).Contents (Elt Ideal)) (ew : FVec Ideal S1600000 .f32) (wr1 : FVec Ideal S128x32 .f32) (b1 : FVec Ideal S32 .f32) (wo1 : FVec Ideal S128x32 .f32) (wr2 : FVec Ideal S32x32 .f32) (b2 : FVec Ideal S32 .f32) (wo2 : FVec Ideal S32x32 .f32) (wr3 : FVec Ideal S32x32 .f32) (b3 : FVec Ideal S32 .f32) (wo3 : FVec Ideal S32x32 .f32) (wr4 : FVec Ideal S32x32 .f32) (b4 : FVec Ideal S32 .f32) (wo4 : FVec Ideal S32x32 .f32) (wr5 : FVec Ideal S32x32 .f32) (b5 : FVec Ideal S32 .f32) (wo5 : FVec Ideal S32x32 .f32) (wl1 : FVec Ideal S32x32 .f32) (bl1 : FVec Ideal S32 .f32) (wl2 : FVec Ideal S32x10 .f32) (bl2 : FVec Ideal S10 .f32) :
    refNet x ei batch ew wr1 b1 wo1 wr2 b2 wo2 wr3 b3 wo3 wr4 b4 wo4 wr5 b5 wo5 wl1 bl1 wl2 bl2
      = net (agg128 (srcRaw ei) (dstRaw ei) ew) (agg32 (srcRaw ei) (dstRaw ei) ew) (pool batch) x
          wr1 wo1 (broadcastInDim S1x32 ![1] bcast_S32_S1x32_1 b1) wr2 wo2 (broadcastInDim S1x32 ![1] bcast_S32_S1x32_1 b2) wr3 wo3 (broadcastInDim S1x32 ![1] bcast_S32_S1x32_1 b3) wr4 wo4 (broadcastInDim S1x32 ![1] bcast_S32_S1x32_1 b4) wr5 wo5 (broadcastInDim S1x32 ![1] bcast_S32_S1x32_1 b5)
          wl1 (broadcastInDim S1x32 ![1] bcast_S32_S1x32_1 bl1) wl2 (broadcastInDim S1x10 ![1] bcast_S10_S1x10_1 bl2) := by
  unfold refNet net step
  simp only [refLayer128_eq, refLayer32_eq, refHead_eq]

end Cert.ReferenceIdeal.Hand

end
-- ==== Proof.RNet.lean ====
/-
  The reference program's run, read: its result buffer ends at the reference network (`refNet`) of the launch memory's
  argument arrays. The run's composed term of the 159 host operations is that network with its definitions unfolded.
-/
import proofs.«180868_j61280593379653_1_alg».proof.Proof.RefRun
import proofs.«180868_j61280593379653_1_alg».proof.Proof.RefLayer

noncomputable section

namespace Cert.ReferenceIdeal.Hand

open Cert.ReferenceIdeal Cert.ReferenceIdeal.Facts₀ Idealize.ShloMosaic Idealize.ShloMosaic.TcCoe Idealize.SL.Sem Cert.Net

variable (m : (ℓ : Loc nD τ sig) → Buf (Elt Ideal) ℓ)

set_option maxRecDepth 100000 in
set_option maxHeartbeats 4000000 in
/-- The result's composed term is the reference network of the arguments. -/
theorem res_eq (c : Dev nD) :
    Cert.ReferenceIdeal.ValueP.res_main_v116 (F := Ideal) m c
      = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  unfold Cert.ReferenceIdeal.ValueP.res_main_v116 refNet refHead refSoftmax refLogits refLayer32 refLayer128 agg128 agg32 pool srcIdx srcRaw dstRaw
  rfl

end Cert.ReferenceIdeal.Hand

end
-- ==== Proof.Bridge.lean ====
/-
  The two programs' shared host operations are the same functions: the edge list's rows, the aggregation over the
  edges at both widths and the pooling are printed with the same dimension numbers in both programs. A bias vector made
  a one-row array is the same array whether the vector is placed on the second axis (the reference) or reshaped (the
  kernel's host side). So the network over the reference's spellings is the network over the kernel's.
-/
import proofs.«180868_j61280593379653_1_alg».proof.Proof.GlueK
import proofs.«180868_j61280593379653_1_alg».proof.Proof.GlueR
import proofs.«180868_j61280593379653_1_alg».proof.Proof.NetSpec
import proofs.«180868_j61280593379653_1_alg».proof.Proof.LibBcast
import Idealize.ShloMosaic.Lib.Pipeline.Value
import Idealize.ShloMosaic.Lib.ValueIdx
import Idealize.ShloMosaic.Lib.ValueLayout

noncomputable section

namespace Cert.Proof.Bridge

open Idealize.ShloMosaic Idealize.ShloMosaic.ValueIdx Cert.Net

/-- A vector `[32]` as a one-row array, placed or reshaped. -/
theorem bias32_eq (b : (⟨Cert.KernelIdeal.S32, .f32⟩ : BufTy).Contents (Elt Ideal)) : (broadcastInDim Cert.ReferenceIdeal.S1x32 ![1] Cert.ReferenceIdeal.Facts₀.bcast_S32_S1x32_1 b) = (shapeCast Cert.KernelIdeal.S1x32 b Cert.KernelIdeal.Facts₀.shapeCasts_S32_S1x32) := by
  funext i
  obtain ⟨u, q, rfl⟩ : ∃ (u : Fin 1) (q : Fin 32), i = ix2 u q := ⟨i 0, i 1, eq_ix2 i⟩
  exact (LibBcast.b_1b_apply b _ u q).trans (shapeCast_a_1a_apply b _ u q).symm

/-- A vector `[10]` as a one-row array, placed or reshaped. -/
theorem bias10_eq (b : (⟨Cert.KernelIdeal.S10, .f32⟩ : BufTy).Contents (Elt Ideal)) :
    (broadcastInDim Cert.ReferenceIdeal.S1x10 ![1] Cert.ReferenceIdeal.Facts₀.bcast_S10_S1x10_1 b) = (shapeCast Cert.KernelIdeal.S1x10 b Cert.KernelIdeal.Facts₀.shapeCasts_S10_S1x10) := by
  funext i
  obtain ⟨u, q, rfl⟩ : ∃ (u : Fin 1) (q : Fin 10), i = ix2 u q := ⟨i 0, i 1, eq_ix2 i⟩
  exact (LibBcast.b_1b_apply b _ u q).trans (shapeCast_a_1a_apply b _ u q).symm

theorem agg128_eq (s d : (⟨Cert.KernelIdeal.S1600000, .i32⟩ : BufTy).Contents (Elt Ideal)) (ew : (⟨Cert.KernelIdeal.S1600000, .f32⟩ : BufTy).Contents (Elt Ideal)) (h : (⟨Cert.KernelIdeal.S100000x128, .f32⟩ : BufTy).Contents (Elt Ideal)) :
    Cert.ReferenceIdeal.Hand.agg128 s d ew h = Cert.KernelIdeal.Hand.agg128 s d ew h := rfl
theorem agg32_eq (s d : (⟨Cert.KernelIdeal.S1600000, .i32⟩ : BufTy).Contents (Elt Ideal)) (ew : (⟨Cert.KernelIdeal.S1600000, .f32⟩ : BufTy).Contents (Elt Ideal)) (h : (⟨Cert.KernelIdeal.S100000x32, .f32⟩ : BufTy).Contents (Elt Ideal)) :
    Cert.ReferenceIdeal.Hand.agg32 s d ew h = Cert.KernelIdeal.Hand.agg32 s d ew h := rfl
theorem pool_eq (batch : (⟨Cert.KernelIdeal.S100000, .i32⟩ : BufTy).Contents (Elt Ideal)) (h : (⟨Cert.KernelIdeal.S100000x32, .f32⟩ : BufTy).Contents (Elt Ideal)) : Cert.ReferenceIdeal.Hand.pool batch h = Cert.KernelIdeal.Hand.pool batch h := rfl
theorem srcRaw_eq (ei : (⟨Cert.KernelIdeal.S2x1600000, .i32⟩ : BufTy).Contents (Elt Ideal)) : Cert.ReferenceIdeal.Hand.srcRaw ei = Cert.KernelIdeal.Hand.srcRaw ei := rfl
theorem dstRaw_eq (ei : (⟨Cert.KernelIdeal.S2x1600000, .i32⟩ : BufTy).Contents (Elt Ideal)) : Cert.ReferenceIdeal.Hand.dstRaw ei = Cert.KernelIdeal.Hand.dstRaw ei := rfl

/-- The network over the reference's spellings is the network over the kernel's. -/
theorem net_eq (x : (⟨Cert.KernelIdeal.S100000x128, .f32⟩ : BufTy).Contents (Elt Ideal)) (ei : (⟨Cert.KernelIdeal.S2x1600000, .i32⟩ : BufTy).Contents (Elt Ideal)) (batch : (⟨Cert.KernelIdeal.S100000, .i32⟩ : BufTy).Contents (Elt Ideal)) (ew : (⟨Cert.KernelIdeal.S1600000, .f32⟩ : BufTy).Contents (Elt Ideal)) (wr1 : (⟨Cert.KernelIdeal.S128x32, .f32⟩ : BufTy).Contents (Elt Ideal)) (b1 : (⟨Cert.KernelIdeal.S32, .f32⟩ : BufTy).Contents (Elt Ideal)) (wo1 : (⟨Cert.KernelIdeal.S128x32, .f32⟩ : BufTy).Contents (Elt Ideal)) (wr2 : (⟨Cert.KernelIdeal.S32x32, .f32⟩ : BufTy).Contents (Elt Ideal)) (b2 : (⟨Cert.KernelIdeal.S32, .f32⟩ : BufTy).Contents (Elt Ideal)) (wo2 : (⟨Cert.KernelIdeal.S32x32, .f32⟩ : BufTy).Contents (Elt Ideal)) (wr3 : (⟨Cert.KernelIdeal.S32x32, .f32⟩ : BufTy).Contents (Elt Ideal)) (b3 : (⟨Cert.KernelIdeal.S32, .f32⟩ : BufTy).Contents (Elt Ideal)) (wo3 : (⟨Cert.KernelIdeal.S32x32, .f32⟩ : BufTy).Contents (Elt Ideal)) (wr4 : (⟨Cert.KernelIdeal.S32x32, .f32⟩ : BufTy).Contents (Elt Ideal)) (b4 : (⟨Cert.KernelIdeal.S32, .f32⟩ : BufTy).Contents (Elt Ideal)) (wo4 : (⟨Cert.KernelIdeal.S32x32, .f32⟩ : BufTy).Contents (Elt Ideal)) (wr5 : (⟨Cert.KernelIdeal.S32x32, .f32⟩ : BufTy).Contents (Elt Ideal)) (b5 : (⟨Cert.KernelIdeal.S32, .f32⟩ : BufTy).Contents (Elt Ideal)) (wo5 : (⟨Cert.KernelIdeal.S32x32, .f32⟩ : BufTy).Contents (Elt Ideal)) (wl1 : (⟨Cert.KernelIdeal.S32x32, .f32⟩ : BufTy).Contents (Elt Ideal)) (bl1 : (⟨Cert.KernelIdeal.S32, .f32⟩ : BufTy).Contents (Elt Ideal)) (wl2 : (⟨Cert.KernelIdeal.S32x10, .f32⟩ : BufTy).Contents (Elt Ideal)) (bl2 : (⟨Cert.KernelIdeal.S10, .f32⟩ : BufTy).Contents (Elt Ideal)) :
    net (Cert.ReferenceIdeal.Hand.agg128 (Cert.ReferenceIdeal.Hand.srcRaw ei) (Cert.ReferenceIdeal.Hand.dstRaw ei) ew) (Cert.ReferenceIdeal.Hand.agg32 (Cert.ReferenceIdeal.Hand.srcRaw ei) (Cert.ReferenceIdeal.Hand.dstRaw ei) ew) (Cert.ReferenceIdeal.Hand.pool batch) x
        wr1 wo1 (broadcastInDim Cert.ReferenceIdeal.S1x32 ![1] Cert.ReferenceIdeal.Facts₀.bcast_S32_S1x32_1 b1) wr2 wo2 (broadcastInDim Cert.ReferenceIdeal.S1x32 ![1] Cert.ReferenceIdeal.Facts₀.bcast_S32_S1x32_1 b2) wr3 wo3 (broadcastInDim Cert.ReferenceIdeal.S1x32 ![1] Cert.ReferenceIdeal.Facts₀.bcast_S32_S1x32_1 b3) wr4 wo4 (broadcastInDim Cert.ReferenceIdeal.S1x32 ![1] Cert.ReferenceIdeal.Facts₀.bcast_S32_S1x32_1 b4) wr5 wo5 (broadcastInDim Cert.ReferenceIdeal.S1x32 ![1] Cert.ReferenceIdeal.Facts₀.bcast_S32_S1x32_1 b5)
        wl1 (broadcastInDim Cert.ReferenceIdeal.S1x32 ![1] Cert.ReferenceIdeal.Facts₀.bcast_S32_S1x32_1 bl1) wl2 (broadcastInDim Cert.ReferenceIdeal.S1x10 ![1] Cert.ReferenceIdeal.Facts₀.bcast_S10_S1x10_1 bl2)
      = net (Cert.KernelIdeal.Hand.agg128 (Cert.KernelIdeal.Hand.srcRaw ei) (Cert.KernelIdeal.Hand.dstRaw ei) ew) (Cert.KernelIdeal.Hand.agg32 (Cert.KernelIdeal.Hand.srcRaw ei) (Cert.KernelIdeal.Hand.dstRaw ei) ew) (Cert.KernelIdeal.Hand.pool batch) x
        wr1 wo1 (shapeCast Cert.KernelIdeal.S1x32 b1 Cert.KernelIdeal.Facts₀.shapeCasts_S32_S1x32) wr2 wo2 (shapeCast Cert.KernelIdeal.S1x32 b2 Cert.KernelIdeal.Facts₀.shapeCasts_S32_S1x32) wr3 wo3 (shapeCast Cert.KernelIdeal.S1x32 b3 Cert.KernelIdeal.Facts₀.shapeCasts_S32_S1x32) wr4 wo4 (shapeCast Cert.KernelIdeal.S1x32 b4 Cert.KernelIdeal.Facts₀.shapeCasts_S32_S1x32) wr5 wo5 (shapeCast Cert.KernelIdeal.S1x32 b5 Cert.KernelIdeal.Facts₀.shapeCasts_S32_S1x32)
        wl1 (shapeCast Cert.KernelIdeal.S1x32 bl1 Cert.KernelIdeal.Facts₀.shapeCasts_S32_S1x32) wl2 (shapeCast Cert.KernelIdeal.S1x10 bl2 Cert.KernelIdeal.Facts₀.shapeCasts_S10_S1x10) := by
  rw [bias32_eq b1, bias32_eq b2, bias32_eq b3, bias32_eq b4, bias32_eq b5, bias32_eq bl1, bias10_eq bl2,
    srcRaw_eq ei, dstRaw_eq ei,
    show Cert.ReferenceIdeal.Hand.agg128 (Cert.KernelIdeal.Hand.srcRaw ei) (Cert.KernelIdeal.Hand.dstRaw ei) ew = Cert.KernelIdeal.Hand.agg128 (Cert.KernelIdeal.Hand.srcRaw ei) (Cert.KernelIdeal.Hand.dstRaw ei) ew from funext fun h => agg128_eq _ _ _ h,
    show Cert.ReferenceIdeal.Hand.agg32 (Cert.KernelIdeal.Hand.srcRaw ei) (Cert.KernelIdeal.Hand.dstRaw ei) ew = Cert.KernelIdeal.Hand.agg32 (Cert.KernelIdeal.Hand.srcRaw ei) (Cert.KernelIdeal.Hand.dstRaw ei) ew from funext fun h => agg32_eq _ _ _ h,
    show Cert.ReferenceIdeal.Hand.pool batch = Cert.KernelIdeal.Hand.pool batch from funext fun h => pool_eq _ h]

end Cert.Proof.Bridge

end
-- ==== Proof.lean ====
/-
  The certificate of the graph network kernel against its reference.

  Both programs run five graph-convolution layers, pool the nodes' features into the graphs' and apply a two-layer
  classifier with a log-softmax. The aggregation over the edges and the pooling are the same host operations in both. The
  kernel computes each layer's dense part, `max(agg·Wrel + b + h·Wroot, 0)`, in a tiled kernel region (ten blocks of
  10000 rows, matrix products into zero accumulators, formats narrowed before the products) and the classifier in a
  one-block region; the reference computes them with host dot products. At the extended reals a format change is the
  identity and both matrix products are the same sums, in the same order of additions around them, so both programs
  compute one function, `Cert.Net.net`, of the arguments: no property of the inputs is used.

  The frames of the two kernel programs are the generated ones; the reference's is its run with the result dropped;
  the idealization's ledger is empty.
-/
import proofs.«180868_j61280593379653_1_alg».proof.Defs
import proofs.«180868_j61280593379653_1_alg».proof.Proof.Gen.Kernel
import proofs.«180868_j61280593379653_1_alg».proof.Proof.Gen.Kernel.Skeleton
import proofs.«180868_j61280593379653_1_alg».proof.Proof.Gen.Kernel.Launch
import proofs.«180868_j61280593379653_1_alg».proof.Proof.Gen.Kernel.Points
import proofs.«180868_j61280593379653_1_alg».proof.Proof.Gen.Kernel.Frame
import proofs.«180868_j61280593379653_1_alg».proof.Proof.Gen.KernelIdeal
import proofs.«180868_j61280593379653_1_alg».proof.Proof.Gen.KernelIdeal.Skeleton
import proofs.«180868_j61280593379653_1_alg».proof.Proof.Gen.KernelIdeal.Launch
import proofs.«180868_j61280593379653_1_alg».proof.Proof.Gen.KernelIdeal.Points
import proofs.«180868_j61280593379653_1_alg».proof.Proof.Gen.KernelIdeal.Frame
import proofs.«180868_j61280593379653_1_alg».proof.Proof.Gen.ReferenceIdeal
import proofs.«180868_j61280593379653_1_alg».proof.Proof.Gen.Pre_finite_inputs
import proofs.«180868_j61280593379653_1_alg».proof.Proof.KRun
import proofs.«180868_j61280593379653_1_alg».proof.Proof.KNet
import proofs.«180868_j61280593379653_1_alg».proof.Proof.RNet
import proofs.«180868_j61280593379653_1_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end with the network of the kernel's argument arrays in their result buffer. -/
theorem algebraic : Cert.algebraic_KernelIdeal_ReferenceIdeal := by
  intro m ρ m' ρ' _ hagree
  refine ⟨fun c => Cert.KernelIdeal.Hand.netK m c, ?_, ?_⟩
  · exact (θ_run Cert.KernelIdeal.defs _ _).mono
      (fun r h c => ⟨(h c).1.trans (Cert.KernelIdeal.Hand.result m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10, e11, e12, e13, e14, e15, e16, e17, e18, e19, e20, e21, e22⟩ := hagree c
    rw [Cert.ReferenceIdeal.Hand.res_eq, Cert.ReferenceIdeal.Hand.refNet_eq, e0, e1, e2, e3, e4, e5, e6, e7, e8, e9, e10, e11, e12, e13, e14, e15, e16, e17, e18, e19, e20, e21, e22]
    exact Cert.Proof.Bridge.net_eq _ _ _ _ _ _ _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
